-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4x2 : Shape := ⟨4, ![4, 2048, 4, 2]⟩
abbrev S4x2048 : Shape := ⟨2, ![4, 2048]⟩
abbrev S_ : Shape := ⟨0, ![]⟩

class Facts : Prop where
  bcast_S_S4x2048x4x2 : S_.BroadcastsInDim S4x2048x4x2 (![] : Fin 0 → Fin S4x2048x4x2.rank)
  reducesTo_S4x2048x4x2_S_d0_1_2_3 : S4x2048x4x2.ReducesTo [0, 1, 2, 3] S_
  h_S_ : 0 < S_.numel
  bcast_S_S4x2048 : S_.BroadcastsInDim S4x2048 (![] : Fin 0 → Fin S4x2048.rank)
  reducesTo_S4x2048_S_d0_1 : S4x2048.ReducesTo [0, 1] S_

variable [Facts]

def fn {F : FTy → Type} [FloatOps F] (main_arg0 : FVec F S4x2048x4x2 .f32) (main_arg1 : FVec F S4x2048 .f32) : IVec S_ 1 :=
  let main_v0 : FVec F S4x2048x4x2 .f32 := Host.absf main_arg0
  let main_cst : FVec F S_ .f32 := constant S_ .f32 0x7F800000#32
  let main_v1 : FVec F S4x2048x4x2 .f32 := broadcastInDim S4x2048x4x2 ![] bcast_S_S4x2048x4x2 main_cst
  let main_v2 : IVec S4x2048x4x2 1 := cmpf .olt main_v0 main_v1
  let main_c : IVec S_ 1 := constantI S_ 1 1#1
  let main_v3 : IVec S_ 1 := (fun x v => Host.reduce IntOp.andi x v reducesTo_S4x2048x4x2_S_d0_1_2_3 h_S_) main_v2 main_c
  let main_v4 : FVec F S4x2048 .f32 := Host.absf main_arg1
  let main_cst_0 : FVec F S_ .f32 := constant S_ .f32 0x7F800000#32
  let main_v5 : FVec F S4x2048 .f32 := broadcastInDim S4x2048 ![] bcast_S_S4x2048 main_cst_0
  let main_v6 : IVec S4x2048 1 := cmpf .olt main_v4 main_v5
  let main_c_1 : IVec S_ 1 := constantI S_ 1 1#1
  let main_v7 : IVec S_ 1 := (fun x v => Host.reduce IntOp.andi x v reducesTo_S4x2048_S_d0_1 h_S_) main_v6 main_c_1
  let main_v8 : IVec S_ 1 := andi main_v3 main_v7
  main_v8
-- ==== Kernel.lean ====
abbrev S4x2048x4x2 : Shape := ⟨4, ![4, 2048, 4, 2]⟩
abbrev S4x2048 : Shape := ⟨2, ![4, 2048]⟩
abbrev S_ : Shape := ⟨0, ![]⟩
abbrev S4x2048x2 : Shape := ⟨3, ![4, 2048, 2]⟩
abbrev S4x2048x1x2 : Shape := ⟨4, ![4, 2048, 1, 2]⟩
abbrev S4x2048x1 : Shape := ⟨3, ![4, 2048, 1]⟩
abbrev S4x2048x2x2 : Shape := ⟨4, ![4, 2048, 2, 2]⟩
abbrev S4x2048x2x1 : Shape := ⟨4, ![4, 2048, 2, 1]⟩
abbrev S2x2 : Shape := ⟨2, ![2, 2]⟩
abbrev S1x1x2x2 : Shape := ⟨4, ![1, 1, 2, 2]⟩
abbrev S4x2048x1x1 : Shape := ⟨4, ![4, 2048, 1, 1]⟩
abbrev S4x2048x8 : Shape := ⟨3, ![4, 2048, 8]⟩
abbrev S4x8x2048 : Shape := ⟨3, ![4, 8, 2048]⟩
abbrev S4x2048x2048 : Shape := ⟨3, ![4, 2048, 2048]⟩
abbrev S4x256x8 : Shape := ⟨3, ![4, 256, 8]⟩
abbrev S4x8x256 : Shape := ⟨3, ![4, 8, 256]⟩
abbrev S4x256x256 : Shape := ⟨3, ![4, 256, 256]⟩
abbrev S4x256x1 : Shape := ⟨3, ![4, 256, 1]⟩
abbrev S4x1x256 : Shape := ⟨3, ![4, 1, 256]⟩

abbrev nBuf : Space → Nat
  | .hbm => 85
  | .vmem => 6
  | .smem => 0
  | _ => 0

abbrev bufTy : (tb : Table) → Fin (tcTables nBuf tb) → BufTy
  | .hbm, ⟨0, _⟩ => ⟨S4x2048x4x2, .f32⟩
  | .hbm, ⟨1, _⟩ => ⟨S4x2048, .f32⟩
  | .hbm, ⟨2, _⟩ => ⟨S_, .f32⟩
  | .hbm, ⟨3, _⟩ => ⟨S4x2048x2, .f32⟩
  | .hbm, ⟨4, _⟩ => ⟨S4x2048x1x2, .f32⟩
  | .hbm, ⟨5, _⟩ => ⟨S_, .f32⟩
  | .hbm, ⟨6, _⟩ => ⟨S4x2048x1x2, .f32⟩
  | .hbm, ⟨7, _⟩ => ⟨S4x2048x1x2, .f32⟩
  | .hbm, ⟨8, _⟩ => ⟨S4x2048x4x2, .f32⟩
  | .hbm, ⟨9, _⟩ => ⟨S4x2048x4x2, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S4x2048, .f32⟩
  | .hbm, ⟨14, _⟩ => ⟨S4x2048x1, .f32⟩
  | .hbm, ⟨15, _⟩ => ⟨S4x2048x1, .f32⟩
  | .hbm, ⟨16, _⟩ => ⟨S4x2048x2, .f32⟩
  | .hbm, ⟨17, _⟩ => ⟨S4x2048x1, .f32⟩
  | .hbm, ⟨18, _⟩ => ⟨S4x2048x1, .f32⟩
  | .hbm, ⟨19, _⟩ => ⟨S4x2048x2, .f32⟩
  | .hbm, ⟨20, _⟩ => ⟨S4x2048x1x2, .f32⟩
  | .hbm, ⟨21, _⟩ => ⟨S4x2048x1x2, .f32⟩
  | .hbm, ⟨22, _⟩ => ⟨S4x2048x2x2, .f32⟩
  | .hbm, ⟨23, _⟩ => ⟨S4x2048x4x2, .f32⟩
  | .hbm, ⟨24, _⟩ => ⟨S_, .f32⟩
  | .hbm, ⟨25, _⟩ => ⟨S4x2048x2, .f32⟩
  | .hbm, ⟨26, _⟩ => ⟨S_, .f32⟩
  | .hbm, ⟨27, _⟩ => ⟨S4x2048x2, .f32⟩
  | .hbm, ⟨28, _⟩ => ⟨S4x2048x2, .f32⟩
  | .hbm, ⟨29, _⟩ => ⟨S4x2048, .f32⟩
  | .hbm, ⟨30, _⟩ => ⟨S4x2048, .f32⟩
  | .hbm, ⟨31, _⟩ => ⟨S4x2048, .f32⟩
  | .hbm, ⟨32, _⟩ => ⟨S4x2048x1, .f32⟩
  | .hbm, ⟨33, _⟩ => ⟨S4x2048x1, .f32⟩
  | .hbm, ⟨34, _⟩ => ⟨S4x2048x2, .f32⟩
  | .hbm, ⟨35, _⟩ => ⟨S4x2048x1, .f32⟩
  | .hbm, ⟨36, _⟩ => ⟨S4x2048x1, .f32⟩
  | .hbm, ⟨37, _⟩ => ⟨S4x2048x2, .f32⟩
  | .hbm, ⟨38, _⟩ => ⟨S4x2048x1x2, .f32⟩
  | .hbm, ⟨39, _⟩ => ⟨S4x2048x1x2, .f32⟩
  | .hbm, ⟨40, _⟩ => ⟨S4x2048x2x2, .f32⟩
  | .hbm, ⟨41, _⟩ => ⟨S_, .f32⟩
  | .hbm, ⟨42, _⟩ => ⟨S4x2048x2, .f32⟩
  | .hbm, ⟨43, _⟩ => ⟨S4x2048x2, .f32⟩
  | .hbm, ⟨44, _⟩ => ⟨S4x2048x2x1, .f32⟩
  | .hbm, ⟨45, _⟩ => ⟨S2x2, .i32⟩
  | .hbm, ⟨46, _⟩ => ⟨S2x2, .i32⟩
  | .hbm, ⟨47, _⟩ => ⟨S_, .i32⟩
  | .hbm, ⟨48, _⟩ => ⟨S2x2, .i32⟩
  | .hbm, ⟨49, _⟩ => ⟨S2x2, .i32⟩
  | .hbm, ⟨50, _⟩ => ⟨S2x2, .i1⟩
  | .hbm, ⟨51, _⟩ => ⟨S2x2, .f32⟩
  | .hbm, ⟨52, _⟩ => ⟨S1x1x2x2, .f32⟩
  | .hbm, ⟨53, _⟩ => ⟨S4x2048x2x2, .f32⟩
  | .hbm, ⟨54, _⟩ => ⟨S4x2048x2x2, .f32⟩
  | .hbm, ⟨55, _⟩ => ⟨S4x2048x2x2, .f32⟩
  | .hbm, ⟨56, _⟩ => ⟨S4x2048x2x2, .f32⟩
  | .hbm, ⟨57, _⟩ => ⟨S4x2048x2x2, .f32⟩
  | .hbm, ⟨58, _⟩ => ⟨S4x2048x2, .f32⟩
  | .hbm, ⟨59, _⟩ => ⟨S4x2048x1x1, .f32⟩
  | .hbm, ⟨60, _⟩ => ⟨S4x2048, .f32⟩
  | .hbm, ⟨61, _⟩ => ⟨S4x2048x1x1, .f32⟩
  | .hbm, ⟨62, _⟩ => ⟨S4x2048, .f32⟩
  | .hbm, ⟨63, _⟩ => ⟨S4x2048x1x1, .f32⟩
  | .hbm, ⟨64, _⟩ => ⟨S4x2048, .f32⟩
  | .hbm, ⟨65, _⟩ => ⟨S4x2048, .f32⟩
  | .hbm, ⟨66, _⟩ => ⟨S4x2048, .f32⟩
  | .hbm, ⟨67, _⟩ => ⟨S4x2048, .f32⟩
  | .hbm, ⟨68, _⟩ => ⟨S_, .f32⟩
  | .hbm, ⟨69, _⟩ => ⟨S4x2048, .f32⟩
  | .hbm, ⟨70, _⟩ => ⟨S4x2048x1, .f32⟩
  | .hbm, ⟨71, _⟩ => ⟨S4x2048, .f32⟩
  | .hbm, ⟨72, _⟩ => ⟨S4x2048x1, .f32⟩
  | .hbm, ⟨73, _⟩ => ⟨S4x2048, .f32⟩
  | .hbm, ⟨74, _⟩ => ⟨S4x2048x1, .f32⟩
  | .hbm, ⟨75, _⟩ => ⟨S4x2048x1, .f32⟩
  | .hbm, ⟨76, _⟩ => ⟨S4x2048x1, .f32⟩
  | .hbm, ⟨77, _⟩ => ⟨S4x2048x1, .f32⟩
  | .hbm, ⟨78, _⟩ => ⟨S4x2048x1, .f32⟩
  | .hbm, ⟨79, _⟩ => ⟨S4x2048x1, .f32⟩
  | .hbm, ⟨80, _⟩ => ⟨S4x2048x1, .f32⟩
  | .hbm, ⟨81, _⟩ => ⟨S4x2048x1, .f32⟩
  | .hbm, ⟨82, _⟩ => ⟨S4x2048x8, .f32⟩
  | .hbm, ⟨83, _⟩ => ⟨S4x8x2048, .f32⟩
  | .hbm, ⟨84, _⟩ => ⟨S4x2048x2048, .f32⟩
  | .local _ .vmem, ⟨0, _⟩ => ⟨S4x256x8, .f32⟩
  | .local _ .vmem, ⟨1, _⟩ => ⟨S4x256x8, .f32⟩
  | .local _ .vmem, ⟨2, _⟩ => ⟨S4x8x256, .f32⟩
  | .local _ .vmem, ⟨3, _⟩ => ⟨S4x8x256, .f32⟩
  | .local _ .vmem, ⟨4, _⟩ => ⟨S4x256x256, .f32⟩
  | .local _ .vmem, ⟨5, _⟩ => ⟨S4x256x256, .f32⟩
  | _, _ => ⟨S4x2048x4x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_3 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_c : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_cst_4 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S4x256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  reducesTo_S4x2048x4x2_S4x2048x2_d2 : S4x2048x4x2.ReducesTo [2] S4x2048x2
  h_S_ : 0 < S_.numel
  bcast_S4x2048x2_S4x2048x1x2_0_1_3 : S4x2048x2.BroadcastsInDim S4x2048x1x2 (![0, 1, 3] : Fin 3 → Fin S4x2048x1x2.rank)
  bcast_S_S4x2048x1x2 : S_.BroadcastsInDim S4x2048x1x2 (![] : Fin 0 → Fin S4x2048x1x2.rank)
  bcast_S4x2048x1x2_S4x2048x4x2_0_1_2_3 : S4x2048x1x2.BroadcastsInDim S4x2048x4x2 (![0, 1, 2, 3] : Fin 4 → Fin S4x2048x4x2.rank)
  bcast_S4x2048_S4x2048x1_0_1 : S4x2048.BroadcastsInDim S4x2048x1 (![0, 1] : Fin 2 → Fin S4x2048x1.rank)
  concatenates_S4x2048x1_S4x2048x1_S4x2048x2_d2 : Shape.Concatenates [S4x2048x1, S4x2048x1] S4x2048x2 2
  concatenates_S4x2048x1x2_S4x2048x1x2_S4x2048x2x2_d2 : Shape.Concatenates [S4x2048x1x2, S4x2048x1x2] S4x2048x2x2 2
  bcast_S_S4x2048x2 : S_.BroadcastsInDim S4x2048x2 (![] : Fin 0 → Fin S4x2048x2.rank)
  bcast_S4x2048x2_S4x2048x2x1_0_1_2 : S4x2048x2.BroadcastsInDim S4x2048x2x1 (![0, 1, 2] : Fin 3 → Fin S4x2048x2x1.rank)
  bcast_S_S2x2 : S_.BroadcastsInDim S2x2 (![] : Fin 0 → Fin S2x2.rank)
  bcast_S2x2_S1x1x2x2_2_3 : S2x2.BroadcastsInDim S1x1x2x2 (![2, 3] : Fin 2 → Fin S1x1x2x2.rank)
  bcast_S4x2048x2x1_S4x2048x2x2_0_1_2_3 : S4x2048x2x1.BroadcastsInDim S4x2048x2x2 (![0, 1, 2, 3] : Fin 4 → Fin S4x2048x2x2.rank)
  bcast_S1x1x2x2_S4x2048x2x2_0_1_2_3 : S1x1x2x2.BroadcastsInDim S4x2048x2x2 (![0, 1, 2, 3] : Fin 4 → Fin S4x2048x2x2.rank)
  shapeCasts_S4x2048x1x2_S4x2048x2 : S4x2048x1x2.ShapeCasts S4x2048x2
  slices_S4x2048x2x2_S4x2048x1x1_0_0_0_0 : S4x2048x2x2.Slices ![0, 0, 0, 0] S4x2048x1x1
  shapeCasts_S4x2048x1x1_S4x2048 : S4x2048x1x1.ShapeCasts S4x2048
  slices_S4x2048x2x2_S4x2048x1x1_0_0_0_1 : S4x2048x2x2.Slices ![0, 0, 0, 1] S4x2048x1x1
  slices_S4x2048x2x2_S4x2048x1x1_0_0_1_1 : S4x2048x2x2.Slices ![0, 0, 1, 1] S4x2048x1x1
  bcast_S_S4x2048 : S_.BroadcastsInDim S4x2048 (![] : Fin 0 → Fin S4x2048.rank)
  slices_S4x2048x2_S4x2048x1_0_0_0 : S4x2048x2.Slices ![0, 0, 0] S4x2048x1
  shapeCasts_S4x2048x1_S4x2048 : S4x2048x1.ShapeCasts S4x2048
  slices_S4x2048x2_S4x2048x1_0_0_1 : S4x2048x2.Slices ![0, 0, 1] S4x2048x1
  concatenates_S4x2048x1_S4x2048x1_S4x2048x1_S4x2048x1_S4x2048x1_S4x2048x1_S4x2048x1_S4x2048x1_S4x2048x8_d2 : Shape.Concatenates [S4x2048x1, S4x2048x1, S4x2048x1, S4x2048x1, S4x2048x1, S4x2048x1, S4x2048x1, S4x2048x1] S4x2048x8 2
  transposes_S4x2048x8_S4x8x2048_0_2_1 : S4x2048x8.Transposes [0, 2, 1] S4x8x2048
  inb_S4x256x8_S4x256x8_0_0_0 : ∀ a, (![0, 0, 0] : Fin 3 → Nat) a + S4x256x8.size a ≤ S4x256x8.size a
  h_S4x256x8 : 0 < S4x256x8.numel
  shapeCasts_S4x256x8_S4x256x8 : S4x256x8.ShapeCasts S4x256x8
  inb_S4x8x256_S4x8x256_0_0_0 : ∀ a, (![0, 0, 0] : Fin 3 → Nat) a + S4x8x256.size a ≤ S4x8x256.size a
  h_S4x8x256 : 0 < S4x8x256.numel
  shapeCasts_S4x8x256_S4x8x256 : S4x8x256.ShapeCasts S4x8x256
  slices_S4x256x8_o0_0_0_S4x256x1 : S4x256x8.Slices ![0, 0, 0] S4x256x1
  slices_S4x256x8_o0_0_1_S4x256x1 : S4x256x8.Slices ![0, 0, 1] S4x256x1
  slices_S4x256x8_o0_0_2_S4x256x1 : S4x256x8.Slices ![0, 0, 2] S4x256x1
  slices_S4x256x8_o0_0_3_S4x256x1 : S4x256x8.Slices ![0, 0, 3] S4x256x1
  slices_S4x256x8_o0_0_4_S4x256x1 : S4x256x8.Slices ![0, 0, 4] S4x256x1
  slices_S4x256x8_o0_0_5_S4x256x1 : S4x256x8.Slices ![0, 0, 5] S4x256x1
  slices_S4x8x256_o0_0_0_S4x1x256 : S4x8x256.Slices ![0, 0, 0] S4x1x256
  slices_S4x8x256_o0_1_0_S4x1x256 : S4x8x256.Slices ![0, 1, 0] S4x1x256
  slices_S4x8x256_o0_2_0_S4x1x256 : S4x8x256.Slices ![0, 2, 0] S4x1x256
  slices_S4x8x256_o0_3_0_S4x1x256 : S4x8x256.Slices ![0, 3, 0] S4x1x256
  slices_S4x8x256_o0_4_0_S4x1x256 : S4x8x256.Slices ![0, 4, 0] S4x1x256
  slices_S4x8x256_o0_5_0_S4x1x256 : S4x8x256.Slices ![0, 5, 0] S4x1x256
  broadcasts_S4x256x1_S4x256x256 : S4x256x1.Broadcasts S4x256x256
  broadcasts_S4x1x256_S4x256x256 : S4x1x256.Broadcasts S4x256x256
  inb_S4x256x256_S4x256x256_0_0_0 : ∀ a, (![0, 0, 0] : Fin 3 → Nat) a + S4x256x256.size a ≤ S4x256x256.size a
  h_S4x256x256 : 0 < S4x256x256.numel
  dot_S4x2048x4x2_S4x2048x2x2_S4x2048x4x2_3_2_2_3_01_01_wf : DotDims.WF S4x2048x4x2 S4x2048x2x2 S4x2048x4x2 [3] [2] [2] [3] [0, 1] [0, 1]
  dot_S4x2048x2x2_S4x2048x2x2_S4x2048x2x2_2_3_3_2_01_01_wf : DotDims.WF S4x2048x2x2 S4x2048x2x2 S4x2048x2x2 [2] [3] [3] [2] [0, 1] [0, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x8.size a ≤ S4x2048x8.size a
  hwx0_0 : ∀ i : grid0.Coords, EltTy.bits .f32 = 32 ∨ (Rect.block (s := S4x2048x8) S4x256x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x8x256.size a ≤ S4x8x2048.size a
  hwx0_1 : ∀ i : grid0.Coords, EltTy.bits .f32 = 32 ∨ (Rect.block (s := S4x8x2048) S4x8x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256x256.size a ≤ S4x2048x2048.size a
  hwx0_2 : ∀ i : grid0.Coords, EltTy.bits .f32 = 32 ∨ (Rect.block (s := S4x2048x2048) S4x256x256.size (cc0_transform_2 i) (hinb0_2 i)).WholeWords (EltTy.packing .f32)

variable [Facts₀]

def dot_S4x2048x4x2_S4x2048x2x2_S4x2048x4x2_3_2_2_3_01_01 : DotDims S4x2048x4x2 S4x2048x2x2 S4x2048x4x2 where
  lhsContracting := [3]
  rhsContracting := [2]
  lhsNonContracting := [2]
  rhsNonContracting := [3]
  lhsBatch := [0, 1]
  rhsBatch := [0, 1]
  wf := dot_S4x2048x4x2_S4x2048x2x2_S4x2048x4x2_3_2_2_3_01_01_wf
def dot_S4x2048x2x2_S4x2048x2x2_S4x2048x2x2_2_3_3_2_01_01 : DotDims S4x2048x2x2 S4x2048x2x2 S4x2048x2x2 where
  lhsContracting := [2]
  rhsContracting := [3]
  lhsNonContracting := [3]
  rhsNonContracting := [2]
  lhsBatch := [0, 1]
  rhsBatch := [0, 1]
  wf := dot_S4x2048x2x2_S4x2048x2x2_S4x2048x2x2_2_3_3_2_01_01_wf

abbrev win0_0 : Pipeline.Window sig grid0 :=
  Pipeline.Window.ofSpec (Memref.whole main_v73) S4x256x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v74) S4x8x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v75) S4x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x4x2 : Shape := ⟨4, ![4, 2048, 4, 2]⟩
abbrev S4x2048 : Shape := ⟨2, ![4, 2048]⟩
abbrev S_ : Shape := ⟨0, ![]⟩
abbrev S4x2048x2 : Shape := ⟨3, ![4, 2048, 2]⟩
abbrev S4x2048x1x2 : Shape := ⟨4, ![4, 2048, 1, 2]⟩
abbrev S4x2048x1 : Shape := ⟨3, ![4, 2048, 1]⟩
abbrev S4x2048x2x2 : Shape := ⟨4, ![4, 2048, 2, 2]⟩
abbrev S4x2048x2x1 : Shape := ⟨4, ![4, 2048, 2, 1]⟩
abbrev S2x2 : Shape := ⟨2, ![2, 2]⟩
abbrev S1x1x2x2 : Shape := ⟨4, ![1, 1, 2, 2]⟩
abbrev S4x1x2048x2 : Shape := ⟨4, ![4, 1, 2048, 2]⟩
abbrev S4x2048x2048x2 : Shape := ⟨4, ![4, 2048, 2048, 2]⟩
abbrev S4x2048x1x2x2 : Shape := ⟨5, ![4, 2048, 1, 2, 2]⟩
abbrev S4x1x2048x2x2 : Shape := ⟨5, ![4, 1, 2048, 2, 2]⟩
abbrev S4x2048x2048x2x2 : Shape := ⟨5, ![4, 2048, 2048, 2, 2]⟩
abbrev S4x2048x2048x1x1 : Shape := ⟨5, ![4, 2048, 2048, 1, 1]⟩
abbrev S4x2048x2048 : Shape := ⟨3, ![4, 2048, 2048]⟩
abbrev S4x2048x2048x1 : Shape := ⟨4, ![4, 2048, 2048, 1]⟩
abbrev S4x2048x1x1 : Shape := ⟨4, ![4, 2048, 1, 1]⟩
abbrev S4x1x2048 : Shape := ⟨3, ![4, 1, 2048]⟩

abbrev nBuf : Space → Nat
  | .hbm => 148
  | .vmem => 0
  | .smem => 0
  | _ => 0

abbrev hbmTy0_0 (i : Nat) : BufTy := match i % 128 with
  | 0 => ⟨S4x2048x4x2, .f32⟩
  | 1 => ⟨S4x2048, .f32⟩
  | 2 => ⟨S_, .f32⟩
  | 3 => ⟨S4x2048x2, .f32⟩
  | 4 => ⟨S4x2048x1x2, .f32⟩
  | 5 => ⟨S_, .f32⟩
  | 6 => ⟨S4x2048x1x2, .f32⟩
  | 7 => ⟨S4x2048x1x2, .f32⟩
  | 8 => ⟨S4x2048x4x2, .f32⟩
  | 9 => ⟨S4x2048x4x2, .f32⟩
  | 10 => ⟨S4x2048, .f32⟩
  | 11 => ⟨S4x2048, .f32⟩
  | 12 => ⟨S4x2048, .f32⟩
  | 13 => ⟨S4x2048, .f32⟩
  | 14 => ⟨S4x2048x1, .f32⟩
  | 15 => ⟨S4x2048x1, .f32⟩
  | 16 => ⟨S4x2048x2, .f32⟩
  | 17 => ⟨S4x2048x1, .f32⟩
  | 18 => ⟨S4x2048x1, .f32⟩
  | 19 => ⟨S4x2048x2, .f32⟩
  | 20 => ⟨S4x2048x1x2, .f32⟩
  | 21 => ⟨S4x2048x1x2, .f32⟩
  | 22 => ⟨S4x2048x2x2, .f32⟩
  | 23 => ⟨S4x2048x4x2, .f32⟩
  | 24 => ⟨S_, .f32⟩
  | 25 => ⟨S4x2048x2, .f32⟩
  | 26 => ⟨S_, .f32⟩
  | 27 => ⟨S4x2048x2, .f32⟩
  | 28 => ⟨S4x2048x2, .f32⟩
  | 29 => ⟨S4x2048, .f32⟩
  | 30 => ⟨S4x2048, .f32⟩
  | 31 => ⟨S4x2048, .f32⟩
  | 32 => ⟨S4x2048x1, .f32⟩
  | 33 => ⟨S4x2048x1, .f32⟩
  | 34 => ⟨S4x2048x2, .f32⟩
  | 35 => ⟨S4x2048x1, .f32⟩
  | 36 => ⟨S4x2048x1, .f32⟩
  | 37 => ⟨S4x2048x2, .f32⟩
  | 38 => ⟨S4x2048x1x2, .f32⟩
  | 39 => ⟨S4x2048x1x2, .f32⟩
  | 40 => ⟨S4x2048x2x2, .f32⟩
  | 41 => ⟨S_, .f32⟩
  | 42 => ⟨S4x2048x2, .f32⟩
  | 43 => ⟨S4x2048x2, .f32⟩
  | 44 => ⟨S4x2048x2x1, .f32⟩
  | 45 => ⟨S2x2, .i32⟩
  | 46 => ⟨S2x2, .i32⟩
  | 47 => ⟨S_, .i32⟩
  | 48 => ⟨S2x2, .i32⟩
  | 49 => ⟨S2x2, .i32⟩
  | 50 => ⟨S2x2, .i1⟩
  | 51 => ⟨S2x2, .f32⟩
  | 52 => ⟨S1x1x2x2, .f32⟩
  | 53 => ⟨S4x2048x2x2, .f32⟩
  | 54 => ⟨S4x2048x2x2, .f32⟩
  | 55 => ⟨S4x2048x2x2, .f32⟩
  | 56 => ⟨S4x2048x2x2, .f32⟩
  | 57 => ⟨S4x2048x2x2, .f32⟩
  | 58 => ⟨S4x2048x2, .f32⟩
  | 59 => ⟨S4x2048x1x2, .f32⟩
  | 60 => ⟨S4x1x2048x2, .f32⟩
  | 61 => ⟨S4x2048x2048x2, .f32⟩
  | 62 => ⟨S4x2048x2048x2, .f32⟩
  | 63 => ⟨S4x2048x2048x2, .f32⟩
  | 64 => ⟨S4x2048x1x2x2, .f32⟩
  | 65 => ⟨S4x1x2048x2x2, .f32⟩
  | 66 => ⟨S4x2048x2048x2x2, .f32⟩
  | 67 => ⟨S4x2048x2048x2x2, .f32⟩
  | 68 => ⟨S4x2048x2048x2x2, .f32⟩
  | 69 => ⟨S_, .f32⟩
  | 70 => ⟨S4x2048x2048x2x2, .f32⟩
  | 71 => ⟨S4x2048x2048x2x2, .f32⟩
  | 72 => ⟨S4x2048x2048x1x1, .f32⟩
  | 73 => ⟨S4x2048x2048, .f32⟩
  | 74 => ⟨S4x2048x2048x1x1, .f32⟩
  | 75 => ⟨S4x2048x2048, .f32⟩
  | 76 => ⟨S4x2048x2048x1x1, .f32⟩
  | 77 => ⟨S4x2048x2048, .f32⟩
  | 78 => ⟨S4x2048x2048x1x1, .f32⟩
  | 79 => ⟨S4x2048x2048, .f32⟩
  | 80 => ⟨S4x2048x2048, .f32⟩
  | 81 => ⟨S4x2048x2048, .f32⟩
  | 82 => ⟨S4x2048x2048, .f32⟩
  | 83 => ⟨S_, .f32⟩
  | 84 => ⟨S4x2048x2048, .f32⟩
  | 85 => ⟨S4x2048x2048, .i1⟩
  | 86 => ⟨S_, .f32⟩
  | 87 => ⟨S4x2048x2048, .f32⟩
  | 88 => ⟨S4x2048x2048, .i1⟩
  | 89 => ⟨S_, .f32⟩
  | 90 => ⟨S_, .f32⟩
  | 91 => ⟨S4x2048x2048, .f32⟩
  | 92 => ⟨S4x2048x2048, .f32⟩
  | 93 => ⟨S_, .f32⟩
  | 94 => ⟨S4x2048x2048, .f32⟩
  | 95 => ⟨S4x2048x2048, .f32⟩
  | 96 => ⟨S_, .f32⟩
  | 97 => ⟨S_, .f32⟩
  | 98 => ⟨S4x2048x2048, .f32⟩
  | 99 => ⟨S4x2048x2048, .f32⟩
  | 100 => ⟨S4x2048x2048x1, .f32⟩
  | 101 => ⟨S4x2048x2048x1, .f32⟩
  | 102 => ⟨S4x2048x2048x2, .f32⟩
  | 103 => ⟨S4x2048x2048x1, .f32⟩
  | 104 => ⟨S4x2048x2048x2, .f32⟩
  | 105 => ⟨S4x2048x2048x2, .f32⟩
  | 106 => ⟨S_, .f32⟩
  | 107 => ⟨S4x2048x2048x2, .f32⟩
  | 108 => ⟨S4x2048x2048x2, .f32⟩
  | 109 => ⟨S4x2048x2048x2, .f32⟩
  | 110 => ⟨S4x2048x2048x2, .f32⟩
  | 111 => ⟨S_, .f32⟩
  | 112 => ⟨S4x2048x2048, .f32⟩
  | 113 => ⟨S4x2048x1x1, .f32⟩
  | 114 => ⟨S4x2048, .f32⟩
  | 115 => ⟨S4x2048x1x1, .f32⟩
  | 116 => ⟨S4x2048, .f32⟩
  | 117 => ⟨S4x2048, .f32⟩
  | 118 => ⟨S4x2048x1x1, .f32⟩
  | 119 => ⟨S4x2048, .f32⟩
  | 120 => ⟨S4x2048x1x1, .f32⟩
  | 121 => ⟨S4x2048, .f32⟩
  | 122 => ⟨S4x2048, .f32⟩
  | 123 => ⟨S4x2048, .f32⟩
  | 124 => ⟨S4x2048x1, .f32⟩
  | 125 => ⟨S4x1x2048, .f32⟩
  | 126 => ⟨S4x2048x2048, .f32⟩
  | 127 => ⟨S4x2048x2048, .f32⟩
  | _ => ⟨S4x2048x4x2, .f32⟩

abbrev hbmTy0_1 (i : Nat) : BufTy := match i % 128 with
  | 0 => ⟨S4x2048x2048, .f32⟩
  | 1 => ⟨S4x2048x2048, .f32⟩
  | 2 => ⟨S4x2048x2048, .f32⟩
  | 3 => ⟨S4x2048x2048, .f32⟩
  | 4 => ⟨S_, .f32⟩
  | 5 => ⟨S4x2048x2048, .f32⟩
  | 6 => ⟨S4x2048x2048, .f32⟩
  | 7 => ⟨S4x2048x2048, .f32⟩
  | 8 => ⟨S4x2048x2048, .f32⟩
  | 9 => ⟨S4x2048x2048, .f32⟩
  | 10 => ⟨S_, .f32⟩
  | 11 => ⟨S4x2048x2048, .f32⟩
  | 12 => ⟨S4x2048x2048, .f32⟩
  | 13 => ⟨S_, .f32⟩
  | 14 => ⟨S4x2048x2048, .f32⟩
  | 15 => ⟨S4x2048x2048, .f32⟩
  | 16 => ⟨S4x2048x2048, .f32⟩
  | 17 => ⟨S_, .f32⟩
  | 18 => ⟨S4x2048x2048, .f32⟩
  | 19 => ⟨S4x2048x2048, .f32⟩
  | _ => ⟨S4x2048x4x2, .f32⟩

abbrev hbmTy (i : Nat) : BufTy := match i / 128 with
  | 0 => hbmTy0_0 i
  | 1 => hbmTy0_1 i
  | _ => ⟨S4x2048x4x2, .f32⟩

abbrev bufTy : (tb : Table) → Fin (tcTables nBuf tb) → BufTy
  | .hbm, ⟨i, _⟩ => hbmTy i
  | _, _ => ⟨S4x2048x4x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_3 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_c : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_cst_4 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_cst_5 : Ref sig .tc := ⟨.hbm, 83, rfl⟩
abbrev main_v74 : Ref sig .tc := ⟨.hbm, 84, rfl⟩
abbrev main_v75 : Ref sig .tc := ⟨.hbm, 85, rfl⟩
abbrev main_cst_6 : Ref sig .tc := ⟨.hbm, 86, rfl⟩
abbrev main_v76 : Ref sig .tc := ⟨.hbm, 87, rfl⟩
abbrev main_v77 : Ref sig .tc := ⟨.hbm, 88, rfl⟩
abbrev main_cst_7 : Ref sig .tc := ⟨.hbm, 89, rfl⟩
abbrev main_call0_v0 : Ref sig .tc := ⟨.hbm, 90, rfl⟩
abbrev main_call0_v1 : Ref sig .tc := ⟨.hbm, 91, rfl⟩
abbrev main_v78 : Ref sig .tc := ⟨.hbm, 92, rfl⟩
abbrev main_cst_8 : Ref sig .tc := ⟨.hbm, 93, rfl⟩
abbrev main_v79 : Ref sig .tc := ⟨.hbm, 94, rfl⟩
abbrev main_v80 : Ref sig .tc := ⟨.hbm, 95, rfl⟩
abbrev main_cst_9 : Ref sig .tc := ⟨.hbm, 96, rfl⟩
abbrev main_call1_v0 : Ref sig .tc := ⟨.hbm, 97, rfl⟩
abbrev main_call1_v1 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_cst_10 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_cst_11 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_cst_12 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_cst_13 : Ref sig .tc := ⟨.hbm, 138, rfl⟩
abbrev main_v117 : Ref sig .tc := ⟨.hbm, 139, rfl⟩
abbrev main_v118 : Ref sig .tc := ⟨.hbm, 140, rfl⟩
abbrev main_cst_14 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_cst_15 : Ref sig .tc := ⟨.hbm, 145, rfl⟩
abbrev main_v122 : Ref sig .tc := ⟨.hbm, 146, rfl⟩
abbrev main_v123 : Ref sig .tc := ⟨.hbm, 147, rfl⟩

abbrev nD : Nat := 1
abbrev τ : Topo := Topo.v7x

variable {F : FTy → Type} [FloatOps F]

class Facts₀ : Prop where
  reducesTo_S4x2048x4x2_S4x2048x2_d2 : S4x2048x4x2.ReducesTo [2] S4x2048x2
  h_S_ : 0 < S_.numel
  bcast_S4x2048x2_S4x2048x1x2_0_1_3 : S4x2048x2.BroadcastsInDim S4x2048x1x2 (![0, 1, 3] : Fin 3 → Fin S4x2048x1x2.rank)
  bcast_S_S4x2048x1x2 : S_.BroadcastsInDim S4x2048x1x2 (![] : Fin 0 → Fin S4x2048x1x2.rank)
  bcast_S4x2048x1x2_S4x2048x4x2_0_1_2_3 : S4x2048x1x2.BroadcastsInDim S4x2048x4x2 (![0, 1, 2, 3] : Fin 4 → Fin S4x2048x4x2.rank)
  bcast_S4x2048_S4x2048x1_0_1 : S4x2048.BroadcastsInDim S4x2048x1 (![0, 1] : Fin 2 → Fin S4x2048x1.rank)
  concatenates_S4x2048x1_S4x2048x1_S4x2048x2_d2 : Shape.Concatenates [S4x2048x1, S4x2048x1] S4x2048x2 2
  concatenates_S4x2048x1x2_S4x2048x1x2_S4x2048x2x2_d2 : Shape.Concatenates [S4x2048x1x2, S4x2048x1x2] S4x2048x2x2 2
  bcast_S_S4x2048x2 : S_.BroadcastsInDim S4x2048x2 (![] : Fin 0 → Fin S4x2048x2.rank)
  bcast_S4x2048x2_S4x2048x2x1_0_1_2 : S4x2048x2.BroadcastsInDim S4x2048x2x1 (![0, 1, 2] : Fin 3 → Fin S4x2048x2x1.rank)
  bcast_S_S2x2 : S_.BroadcastsInDim S2x2 (![] : Fin 0 → Fin S2x2.rank)
  bcast_S2x2_S1x1x2x2_2_3 : S2x2.BroadcastsInDim S1x1x2x2 (![2, 3] : Fin 2 → Fin S1x1x2x2.rank)
  bcast_S4x2048x2x1_S4x2048x2x2_0_1_2_3 : S4x2048x2x1.BroadcastsInDim S4x2048x2x2 (![0, 1, 2, 3] : Fin 4 → Fin S4x2048x2x2.rank)
  bcast_S1x1x2x2_S4x2048x2x2_0_1_2_3 : S1x1x2x2.BroadcastsInDim S4x2048x2x2 (![0, 1, 2, 3] : Fin 4 → Fin S4x2048x2x2.rank)
  shapeCasts_S4x2048x1x2_S4x2048x2 : S4x2048x1x2.ShapeCasts S4x2048x2
  bcast_S4x2048x2_S4x1x2048x2_0_2_3 : S4x2048x2.BroadcastsInDim S4x1x2048x2 (![0, 2, 3] : Fin 3 → Fin S4x1x2048x2.rank)
  bcast_S4x2048x1x2_S4x2048x2048x2_0_1_2_3 : S4x2048x1x2.BroadcastsInDim S4x2048x2048x2 (![0, 1, 2, 3] : Fin 4 → Fin S4x2048x2048x2.rank)
  bcast_S4x1x2048x2_S4x2048x2048x2_0_1_2_3 : S4x1x2048x2.BroadcastsInDim S4x2048x2048x2 (![0, 1, 2, 3] : Fin 4 → Fin S4x2048x2048x2.rank)
  bcast_S4x2048x2x2_S4x2048x1x2x2_0_1_3_4 : S4x2048x2x2.BroadcastsInDim S4x2048x1x2x2 (![0, 1, 3, 4] : Fin 4 → Fin S4x2048x1x2x2.rank)
  bcast_S4x2048x2x2_S4x1x2048x2x2_0_2_3_4 : S4x2048x2x2.BroadcastsInDim S4x1x2048x2x2 (![0, 2, 3, 4] : Fin 4 → Fin S4x1x2048x2x2.rank)
  bcast_S4x2048x1x2x2_S4x2048x2048x2x2_0_1_2_3_4 : S4x2048x1x2x2.BroadcastsInDim S4x2048x2048x2x2 (![0, 1, 2, 3, 4] : Fin 5 → Fin S4x2048x2048x2x2.rank)
  bcast_S4x1x2048x2x2_S4x2048x2048x2x2_0_1_2_3_4 : S4x1x2048x2x2.BroadcastsInDim S4x2048x2048x2x2 (![0, 1, 2, 3, 4] : Fin 5 → Fin S4x2048x2048x2x2.rank)
  bcast_S_S4x2048x2048x2x2 : S_.BroadcastsInDim S4x2048x2048x2x2 (![] : Fin 0 → Fin S4x2048x2048x2x2.rank)
  slices_S4x2048x2048x2x2_S4x2048x2048x1x1_0_0_0_0_0 : S4x2048x2048x2x2.Slices ![0, 0, 0, 0, 0] S4x2048x2048x1x1
  shapeCasts_S4x2048x2048x1x1_S4x2048x2048 : S4x2048x2048x1x1.ShapeCasts S4x2048x2048
  slices_S4x2048x2048x2x2_S4x2048x2048x1x1_0_0_0_0_1 : S4x2048x2048x2x2.Slices ![0, 0, 0, 0, 1] S4x2048x2048x1x1
  slices_S4x2048x2048x2x2_S4x2048x2048x1x1_0_0_0_1_0 : S4x2048x2048x2x2.Slices ![0, 0, 0, 1, 0] S4x2048x2048x1x1
  slices_S4x2048x2048x2x2_S4x2048x2048x1x1_0_0_0_1_1 : S4x2048x2048x2x2.Slices ![0, 0, 0, 1, 1] S4x2048x2048x1x1
  bcast_S_S4x2048x2048 : S_.BroadcastsInDim S4x2048x2048 (![] : Fin 0 → Fin S4x2048x2048.rank)
  bcast_S4x2048x2048_S4x2048x2048x1_0_1_2 : S4x2048x2048.BroadcastsInDim S4x2048x2048x1 (![0, 1, 2] : Fin 3 → Fin S4x2048x2048x1.rank)
  concatenates_S4x2048x2048x1_S4x2048x2048x1_S4x2048x2048x2_d3 : Shape.Concatenates [S4x2048x2048x1, S4x2048x2048x1] S4x2048x2048x2 3
  bcast_S4x2048x2048x1_S4x2048x2048x2_0_1_2_3 : S4x2048x2048x1.BroadcastsInDim S4x2048x2048x2 (![0, 1, 2, 3] : Fin 4 → Fin S4x2048x2048x2.rank)
  bcast_S_S4x2048x2048x2 : S_.BroadcastsInDim S4x2048x2048x2 (![] : Fin 0 → Fin S4x2048x2048x2.rank)
  reducesTo_S4x2048x2048x2_S4x2048x2048_d3 : S4x2048x2048x2.ReducesTo [3] S4x2048x2048
  slices_S4x2048x2x2_S4x2048x1x1_0_0_0_0 : S4x2048x2x2.Slices ![0, 0, 0, 0] S4x2048x1x1
  shapeCasts_S4x2048x1x1_S4x2048 : S4x2048x1x1.ShapeCasts S4x2048
  slices_S4x2048x2x2_S4x2048x1x1_0_0_1_1 : S4x2048x2x2.Slices ![0, 0, 1, 1] S4x2048x1x1
  slices_S4x2048x2x2_S4x2048x1x1_0_0_0_1 : S4x2048x2x2.Slices ![0, 0, 0, 1] S4x2048x1x1
  slices_S4x2048x2x2_S4x2048x1x1_0_0_1_0 : S4x2048x2x2.Slices ![0, 0, 1, 0] S4x2048x1x1
  bcast_S4x2048_S4x1x2048_0_2 : S4x2048.BroadcastsInDim S4x1x2048 (![0, 2] : Fin 2 → Fin S4x1x2048.rank)
  bcast_S4x2048x1_S4x2048x2048_0_1_2 : S4x2048x1.BroadcastsInDim S4x2048x2048 (![0, 1, 2] : Fin 3 → Fin S4x2048x2048.rank)
  bcast_S4x1x2048_S4x2048x2048_0_1_2 : S4x1x2048.BroadcastsInDim S4x2048x2048 (![0, 1, 2] : Fin 3 → Fin S4x2048x2048.rank)
  dot_S4x2048x4x2_S4x2048x2x2_S4x2048x4x2_3_2_2_3_01_01_wf : DotDims.WF S4x2048x4x2 S4x2048x2x2 S4x2048x4x2 [3] [2] [2] [3] [0, 1] [0, 1]
  dot_S4x2048x2x2_S4x2048x2x2_S4x2048x2x2_2_3_3_2_01_01_wf : DotDims.WF S4x2048x2x2 S4x2048x2x2 S4x2048x2x2 [2] [3] [3] [2] [0, 1] [0, 1]

variable [Facts₀]

def dot_S4x2048x4x2_S4x2048x2x2_S4x2048x4x2_3_2_2_3_01_01 : DotDims S4x2048x4x2 S4x2048x2x2 S4x2048x4x2 where
  lhsContracting := [3]
  rhsContracting := [2]
  lhsNonContracting := [2]
  rhsNonContracting := [3]
  lhsBatch := [0, 1]
  rhsBatch := [0, 1]
  wf := dot_S4x2048x4x2_S4x2048x2x2_S4x2048x4x2_3_2_2_3_01_01_wf
def dot_S4x2048x2x2_S4x2048x2x2_S4x2048x2x2_2_3_3_2_01_01 : DotDims S4x2048x2x2 S4x2048x2x2 S4x2048x2x2 where
  lhsContracting := [2]
  rhsContracting := [3]
  lhsNonContracting := [3]
  rhsNonContracting := [2]
  lhsBatch := [0, 1]
  rhsBatch := [0, 1]
  wf := dot_S4x2048x2x2_S4x2048x2x2_S4x2048x2x2_2_3_3_2_01_01_wf

class Facts : Prop extends Facts₀ where

variable [Facts]
-- ==== Proof.FrameK.lean ====
/-
  The frame of `Kernel`: @main is a stretch of host operations (the boxes' centres, de-rotated sizes and
  covariances, stacked into a row-feature array [4,2048,8] and its transpose [4,8,2048]) followed by ONE region over an
  8 × 8 grid. At grid point (i, j) the region's body reads the row block (rows 256·i … 256·i+255 of the row features)
  and the column block (columns 256·j … 256·j+255 of the transposed features) whole, and overwrites the whole
  [4,256,256] output block with one pointwise payload of the two. So the body's triple is: inputs kept, output block
  = that payload; the two input windows hold their blocks at every point (fetched there or left from the point
  before, the index unchanged), nothing is carried between points, and the run leaves every buffer that is not the
  region's result at what the host stretch left — in particular the two argument arrays, which no host operation writes.
  Stated at any float instance `F`.
-/
import proofs.«160324_j35416300323280_1_alg».proof.Proof.Gen.Kernel.Launch
import proofs.«160324_j35416300323280_1_alg».proof.Proof.Gen.Kernel.Skeleton
import proofs.«160324_j35416300323280_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the host stretch. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host stretch, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the first argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation writes the second argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row window's staging buffer holds the row block at every point: fetched there, or left by an earlier point
    of the same grid row, where the block index is the same. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The column window's staging buffer holds the column block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- The two argument arrays are staged by no window, so the run leaves them at their region-entry contents, which
    are the launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) h

/-! ## The body -/

abbrev rRow : Rect S4x256x8 := Rect.unit (s := S4x256x8) ![0, 0, 0] S4x256x8.size inb_S4x256x8_S4x256x8_0_0_0
abbrev rCol : Rect S4x8x256 := Rect.unit (s := S4x8x256) ![0, 0, 0] S4x8x256.size inb_S4x8x256_S4x8x256_0_0_0
abbrev rOut : Rect S4x256x256 := Rect.unit (s := S4x256x256) ![0, 0, 0] S4x256x256.size inb_S4x256x256_S4x256x256_0_0_0

/-- The stored payload as one function of the two loaded blocks. -/
def pairs (x0 : Vec F S4x256x8 .f32) (x1 : Vec F S4x8x256 .f32) : Vec F S4x256x256 .f32 :=
  k0_pay1 (k0_pay4 x0) (k0_pay5 x0) (k0_pay6 x0) (k0_pay7 x1) (k0_pay8 x1) (k0_pay9 x1)
    (k0_pay10 x0 x1) (k0_pay11 x0 x1) (k0_pay12 x0 x1) (k0_pay13 x0 x1)

/-- The output block after the body: its one store, over the whole block. -/
def out0_2 (x0 : Vec F S4x256x8 .f32) (x1 : Vec F S4x8x256 .f32) : Vec F S4x256x256 .f32 :=
  View.canon [⟨rOut, pairs (View.ld x0 rRow) (View.ld x1 rCol)⟩]

/-- The one store covers the block. -/
theorem cover0_2 (p0 : Vec F S4x256x256 .f32) (y : S4x256x256.Idx) :
    ∃ pc ∈ ([⟨rOut, p0⟩] : List (View.Piece (Elt F) S4x256x256 .f32)), y ∈ pc.1.set :=
  View.cover_of_tiled [⟨rOut, p0⟩] S4x256x256.size (by rfl) y

set_option maxHeartbeats 1000000 in
/-- The body on whole staging memrefs: the inputs at `x0`, `x1`, the output at anything (it is loaded once, the value
    unused, then overwritten whole); afterwards the inputs as they were and the output at `out0_2 x0 x1`. -/
theorem sound_kernel (c : Dev nD) (E : Set ℕ) (i : grid0.Coords) (arg2 : Memref sig .tc .vmem S4x256x8 .f32) (harg2 : arg2.IsWhole)
    (arg3 : Memref sig .tc .vmem S4x8x256 .f32) (harg3 : arg3.IsWhole) (arg4 : Memref sig .tc .vmem S4x256x256 .f32) (harg4 : arg4.IsWhole)
    (x0 : Vec F S4x256x8 .f32) (x1 : Vec F S4x8x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__iou_kernel i arg2 harg2 arg3 harg3 arg4 harg4) K := by
  simp only [cc0__iou_kernel_eq_skeleton]; unfold cc0__iou_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

/-! ## The pipeline's proof data -/

/-- After the body at point `t`: each input window at its block, the output window at the payload of the two blocks;
    nothing else is kept, nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; afterwards the region's arrays hold what the
    proof data says and every other buffer what the host stretch left. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end and leaves both argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.FrameKI.lean ====
/-
  The frame of `KernelIdeal`: @main is a stretch of host operations (the boxes' centres, de-rotated sizes and
  covariances, stacked into a row-feature array [4,2048,8] and its transpose [4,8,2048]) followed by ONE region over an
  8 × 8 grid. At grid point (i, j) the region's body reads the row block (rows 256·i … 256·i+255 of the row features)
  and the column block (columns 256·j … 256·j+255 of the transposed features) whole, and overwrites the whole
  [4,256,256] output block with one pointwise payload of the two. So the body's triple is: inputs kept, output block
  = that payload; the two input windows hold their blocks at every point (fetched there or left from the point
  before, the index unchanged), nothing is carried between points, and the run leaves every buffer that is not the
  region's result at what the host stretch left — in particular the two argument arrays, which no host operation writes.
  Stated at any float instance `F`.
-/
import proofs.«160324_j35416300323280_1_alg».proof.Proof.Gen.KernelIdeal.Launch
import proofs.«160324_j35416300323280_1_alg».proof.Proof.Gen.KernelIdeal.Skeleton
import proofs.«160324_j35416300323280_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the host stretch. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host stretch, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the first argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))
/-- No host operation writes the second argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row window's staging buffer holds the row block at every point: fetched there, or left by an earlier point
    of the same grid row, where the block index is the same. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The column window's staging buffer holds the column block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- The two argument arrays are staged by no window, so the run leaves them at their region-entry contents, which
    are the launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) h

/-! ## The body -/

abbrev rRow : Rect S4x256x8 := Rect.unit (s := S4x256x8) ![0, 0, 0] S4x256x8.size inb_S4x256x8_S4x256x8_0_0_0
abbrev rCol : Rect S4x8x256 := Rect.unit (s := S4x8x256) ![0, 0, 0] S4x8x256.size inb_S4x8x256_S4x8x256_0_0_0
abbrev rOut : Rect S4x256x256 := Rect.unit (s := S4x256x256) ![0, 0, 0] S4x256x256.size inb_S4x256x256_S4x256x256_0_0_0

/-- The stored payload as one function of the two loaded blocks. -/
def pairs (x0 : Vec F S4x256x8 .f32) (x1 : Vec F S4x8x256 .f32) : Vec F S4x256x256 .f32 :=
  k0_pay1 (k0_pay4 x0) (k0_pay5 x0) (k0_pay6 x0) (k0_pay7 x1) (k0_pay8 x1) (k0_pay9 x1)
    (k0_pay10 x0 x1) (k0_pay11 x0 x1) (k0_pay12 x0 x1) (k0_pay13 x0 x1)

/-- The output block after the body: its one store, over the whole block. -/
def out0_2 (x0 : Vec F S4x256x8 .f32) (x1 : Vec F S4x8x256 .f32) : Vec F S4x256x256 .f32 :=
  View.canon [⟨rOut, pairs (View.ld x0 rRow) (View.ld x1 rCol)⟩]

/-- The one store covers the block. -/
theorem cover0_2 (p0 : Vec F S4x256x256 .f32) (y : S4x256x256.Idx) :
    ∃ pc ∈ ([⟨rOut, p0⟩] : List (View.Piece (Elt F) S4x256x256 .f32)), y ∈ pc.1.set :=
  View.cover_of_tiled [⟨rOut, p0⟩] S4x256x256.size (by rfl) y

set_option maxHeartbeats 1000000 in
/-- The body on whole staging memrefs: the inputs at `x0`, `x1`, the output at anything (it is loaded once, the value
    unused, then overwritten whole); afterwards the inputs as they were and the output at `out0_2 x0 x1`. -/
theorem sound_kernel (c : Dev nD) (E : Set ℕ) (i : grid0.Coords) (arg2 : Memref sig .tc .vmem S4x256x8 .f32) (harg2 : arg2.IsWhole)
    (arg3 : Memref sig .tc .vmem S4x8x256 .f32) (harg3 : arg3.IsWhole) (arg4 : Memref sig .tc .vmem S4x256x256 .f32) (harg4 : arg4.IsWhole)
    (x0 : Vec F S4x256x8 .f32) (x1 : Vec F S4x8x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__iou_kernel i arg2 harg2 arg3 harg3 arg4 harg4) K := by
  simp only [cc0__iou_kernel_eq_skeleton]; unfold cc0__iou_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover0_2 _)

/-! ## The pipeline's proof data -/

/-- After the body at point `t`: each input window at its block, the output window at the payload of the two blocks;
    nothing else is kept, nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; afterwards the region's arrays hold what the
    proof data says and every other buffer what the host stretch left. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end and leaves both argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.KerPair.lean ====
/-
  The pairwise stage of the kernel, read at one (row box, column box) pair.

  The body loads a row block [4,256,8] and a column block [4,8,256]; channels 0..5 of a box are its centre (y, x),
  the three distinct entries a, b, d of its symmetric covariance and the determinant a*d - b*b. Every operation of
  the body between the loads and the store is either pointwise or one of three layout operations (a one-channel
  slice, a broadcast of a column [4,256,1] along the last axis, a broadcast of a row [4,1,256] along the middle
  axis). Read at the index (b, p, q) the layout operations pick channel c of row box p or of column box q, and the
  pointwise operations are the extended reals' own: the stored value is kerPair of the twelve channel values.
-/
import proofs.«160324_j35416300323280_1_alg».proof.Proof.Gen.KernelIdeal.Skeleton
import Idealize.ShloMosaic.Lib.ValueIdx
import Idealize.ShloMosaic.Lib.Pipeline.Value

noncomputable section

namespace Cert.IoU.Ker

open Idealize.ShloMosaic Idealize.ShloMosaic.ValueIdx Cert.KernelIdeal Cert.KernelIdeal.Gen

/-! ## The pair formula on extended reals -/

/-- The mean of a row entry and a column entry of the covariances: (r + c) * 0.5. -/
def kerMean (r c : EReal) : EReal := (r + c) * Ideal.ofBits .f32 0x3F000000#32

/-- The determinant of the mean covariance, from the two boxes' entries a, b, d. -/
def kerDet (ra rb rd ca cb cd : EReal) : EReal :=
  kerMean ra ca * kerMean rd cd - kerMean rb cb * kerMean rb cb

/-- The guarded reciprocal: 0 where the determinant is 0, else 1 / det (the inner guard replaces a zero
    determinant by 1 before dividing). -/
def kerInv (det : EReal) : EReal :=
  Scalar.select (Ideal.cmp .oeq det (Ideal.ofBits .f32 0x00000000#32)) (Ideal.ofBits .f32 0x00000000#32)
    (Ideal.div (Ideal.ofBits .f32 0x3F800000#32)
      (Scalar.select (Ideal.cmp .oeq det (Ideal.ofBits .f32 0x00000000#32)) (Ideal.ofBits .f32 0x3F800000#32) det))

/-- Everything after the mean covariance: the Bhattacharyya distance from the centre differences, the mean
    covariance's diagonal sa, sd, its determinant and guarded reciprocal, then 1 - sqrt (max (1 - exp (0 - Bd)) eps). -/
def kerTail (ry rx rdet cy cx cdet sa sd det inv : EReal) : EReal :=
  Ideal.ofBits .f32 0x3F800000#32 -
    Ideal.sqrt (max
      (Ideal.ofBits .f32 0x3F800000#32 -
        Ideal.exp (Ideal.ofBits .f32 0x00000000#32 -
          (((ry - cy) * Ideal.ofBits .f32 0x3E000000#32 * (sd * inv) * (ry - cy)
              + (rx - cx) * Ideal.ofBits .f32 0x3E000000#32 * (sa * inv) * (rx - cx))
            + Ideal.ofBits .f32 0x3F000000#32 * Ideal.log (Ideal.div det (Ideal.sqrt (rdet * cdet))))))
      (Ideal.ofBits .f32 0x2B8CBCCC#32))

/-- The body's value for one pair: row box (ry, rx, ra, rb, rd, rdet), column box (cy, cx, ca, cb, cd, cdet). -/
def kerPair (ry rx ra rb rd rdet cy cx ca cb cd cdet : EReal) : EReal :=
  kerTail ry rx rdet cy cx cdet (kerMean ra ca) (kerMean rd cd) (kerDet ra rb rd ca cb cd)
    (kerInv (kerDet ra rb rd ca cb cd))

/-! ## The three layout operations at (b, p, q) -/

section Layout
variable {α : Type}

/-- Channel c of the row block, sliced to a column [4,256,1], read at (b, p, 0): the block at (b, p, c). -/
theorem row_slice_at (c : Nat) (hc : c < 8) (x : S4x256x8.Idx → α) (h : S4x256x8.Slices ![0, 0, c] S4x256x1)
    (b : Fin 4) (p : Fin 256) (z : Fin 1) :
    extractStridedSlice S4x256x1 ![0, 0, c] x h (ix3 b p z) = x (ix3 b p (⟨c, hc⟩ : Fin 8)) := by
  refine extractStridedSlice_apply _ x h _ _ fun a => ?_
  match a with
  | ⟨0, _⟩ => show b.val = 0 + b.val; omega
  | ⟨1, _⟩ => show p.val = 0 + p.val; omega
  | ⟨2, _⟩ => show c = c + z.val; have := z.isLt; omega

/-- Channel c of the column block, sliced to a row [4,1,256], read at (b, 0, q): the block at (b, c, q). -/
theorem col_slice_at (c : Nat) (hc : c < 8) (x : S4x8x256.Idx → α) (h : S4x8x256.Slices ![0, c, 0] S4x1x256)
    (b : Fin 4) (z : Fin 1) (q : Fin 256) :
    extractStridedSlice S4x1x256 ![0, c, 0] x h (ix3 b z q) = x (ix3 b (⟨c, hc⟩ : Fin 8) q) := by
  refine extractStridedSlice_apply _ x h _ _ fun a => ?_
  match a with
  | ⟨0, _⟩ => show b.val = 0 + b.val; omega
  | ⟨1, _⟩ => show c = c + z.val; have := z.isLt; omega
  | ⟨2, _⟩ => show q.val = 0 + q.val; omega

/-- A column [4,256,1] broadcast along the last axis, read at (b, p, q): the column at (b, p, 0). -/
theorem bcast_row_at (x : S4x256x1.Idx → α) (h : S4x256x1.Broadcasts S4x256x256) (b : Fin 4) (p q : Fin 256) :
    broadcastTo S4x256x256 x h (ix3 b p q) = x (ix3 b p (0 : Fin 1)) := by
  refine broadcastTo_apply x h _ _ fun a => ?_
  match a with
  | ⟨0, _⟩ => rfl
  | ⟨1, _⟩ => rfl
  | ⟨2, _⟩ => rfl

/-- A row [4,1,256] broadcast along the middle axis, read at (b, p, q): the row at (b, 0, q). -/
theorem bcast_col_at (x : S4x1x256.Idx → α) (h : S4x1x256.Broadcasts S4x256x256) (b : Fin 4) (p q : Fin 256) :
    broadcastTo S4x256x256 x h (ix3 b p q) = x (ix3 b (0 : Fin 1) q) := by
  refine broadcastTo_apply x h _ _ fun a => ?_
  match a with
  | ⟨0, _⟩ => rfl
  | ⟨1, _⟩ => rfl
  | ⟨2, _⟩ => rfl

end Layout

/-! ## The payloads at (b, p, q) -/

section Payloads
variable (x0 : Vec Ideal S4x256x8 .f32) (x1 : Vec Ideal S4x8x256 .f32) (b : Fin 4) (p q : Fin 256)

/-- Row channel c as the body slices it (after the shape cast to the same shape), at (b, p, 0). -/
theorem row_chan_at (c : Nat) (hc : c < 8) (h : S4x256x8.Slices ![0, 0, c] S4x256x1) (z : Fin 1) :
    extractStridedSlice S4x256x1 ![0, 0, c] (k0_pay2 x0) h (ix3 b p z) = x0 (ix3 b p (⟨c, hc⟩ : Fin 8)) := by
  unfold k0_pay2
  rw [shapeCast_self]
  exact row_slice_at c hc x0 h b p z

/-- Column channel c as the body slices it, at (b, 0, q). -/
theorem col_chan_at (c : Nat) (hc : c < 8) (h : S4x8x256.Slices ![0, c, 0] S4x1x256) (z : Fin 1) :
    extractStridedSlice S4x1x256 ![0, c, 0] (k0_pay3 x1) h (ix3 b z q) = x1 (ix3 b (⟨c, hc⟩ : Fin 8) q) := by
  unfold k0_pay3
  rw [shapeCast_self]
  exact col_slice_at c hc x1 h b z q

theorem pay4_at (z : Fin 1) : k0_pay4 x0 (ix3 b p z) = x0 (ix3 b p 0) := row_chan_at x0 b p 0 (by decide) slices_S4x256x8_o0_0_0_S4x256x1 z
theorem pay5_at (z : Fin 1) : k0_pay5 x0 (ix3 b p z) = x0 (ix3 b p 1) := row_chan_at x0 b p 1 (by decide) slices_S4x256x8_o0_0_1_S4x256x1 z
theorem pay6_at (z : Fin 1) : k0_pay6 x0 (ix3 b p z) = x0 (ix3 b p 5) := row_chan_at x0 b p 5 (by decide) slices_S4x256x8_o0_0_5_S4x256x1 z
theorem pay7_at (z : Fin 1) : k0_pay7 x1 (ix3 b z q) = x1 (ix3 b 0 q) := col_chan_at x1 b q 0 (by decide) slices_S4x8x256_o0_0_0_S4x1x256 z
theorem pay8_at (z : Fin 1) : k0_pay8 x1 (ix3 b z q) = x1 (ix3 b 1 q) := col_chan_at x1 b q 1 (by decide) slices_S4x8x256_o0_1_0_S4x1x256 z
theorem pay9_at (z : Fin 1) : k0_pay9 x1 (ix3 b z q) = x1 (ix3 b 5 q) := col_chan_at x1 b q 5 (by decide) slices_S4x8x256_o0_5_0_S4x1x256 z

/-- A mean entry of the covariance at (b, p, q): the body's broadcast-add-scale of row channel c and column
    channel c. -/
theorem mean_at (c : Nat) (hc : c < 8) (h : S4x256x8.Slices ![0, 0, c] S4x256x1) (h' : S4x8x256.Slices ![0, c, 0] S4x1x256)
    (hb : S4x256x1.Broadcasts S4x256x256) (hb' : S4x1x256.Broadcasts S4x256x256) :
    mulf (addf (broadcastTo S4x256x256 (extractStridedSlice S4x256x1 ![0, 0, c] (k0_pay2 x0) h) hb)
        (broadcastTo S4x256x256 (extractStridedSlice S4x1x256 ![0, c, 0] (k0_pay3 x1) h') hb'))
      (broadcast S4x256x256 (Scalar.ofBits (F := Ideal) .f32 0x3F000000#32)) (ix3 b p q)
      = kerMean (x0 (ix3 b p (⟨c, hc⟩ : Fin 8))) (x1 (ix3 b (⟨c, hc⟩ : Fin 8) q)) := by
  rw [mulf_apply, addf_apply, bcast_row_at, bcast_col_at, row_chan_at x0 b p c hc, col_chan_at x1 b q c hc]
  rfl

theorem pay10_at : k0_pay10 x0 x1 (ix3 b p q) = kerMean (x0 (ix3 b p 2)) (x1 (ix3 b 2 q)) :=
  mean_at x0 x1 b p q 2 (by decide) slices_S4x256x8_o0_0_2_S4x256x1 slices_S4x8x256_o0_2_0_S4x1x256
    broadcasts_S4x256x1_S4x256x256 broadcasts_S4x1x256_S4x256x256

theorem pay11_at : k0_pay11 x0 x1 (ix3 b p q) = kerMean (x0 (ix3 b p 4)) (x1 (ix3 b 4 q)) :=
  mean_at x0 x1 b p q 4 (by decide) slices_S4x256x8_o0_0_4_S4x256x1 slices_S4x8x256_o0_4_0_S4x1x256
    broadcasts_S4x256x1_S4x256x256 broadcasts_S4x1x256_S4x256x256

theorem pay12_at : k0_pay12 x0 x1 (ix3 b p q)
    = kerDet (x0 (ix3 b p 2)) (x0 (ix3 b p 3)) (x0 (ix3 b p 4)) (x1 (ix3 b 2 q)) (x1 (ix3 b 3 q)) (x1 (ix3 b 4 q)) := by
  have h10 := pay10_at x0 x1 b p q
  have h11 := pay11_at x0 x1 b p q
  have h25 : mulf (addf (broadcastTo S4x256x256 (extractStridedSlice S4x256x1 ![0, 0, 3] (k0_pay2 x0)
          slices_S4x256x8_o0_0_3_S4x256x1) broadcasts_S4x256x1_S4x256x256)
        (broadcastTo S4x256x256 (extractStridedSlice S4x1x256 ![0, 3, 0] (k0_pay3 x1)
          slices_S4x8x256_o0_3_0_S4x1x256) broadcasts_S4x1x256_S4x256x256))
      (broadcast S4x256x256 (Scalar.ofBits (F := Ideal) .f32 0x3F000000#32)) (ix3 b p q)
      = kerMean (x0 (ix3 b p 3)) (x1 (ix3 b 3 q)) :=
    mean_at x0 x1 b p q 3 (by decide) _ _ _ _
  unfold kerDet
  rw [← h10, ← h11, ← h25]
  rfl

/-- The guarded reciprocal is pointwise in the determinant. -/
theorem pay13_at (i : S4x256x256.Idx) : k0_pay13 x0 x1 i = kerInv (k0_pay12 x0 x1 i) := rfl

end Payloads

/-- The stored payload is pointwise in its ten operands but for the six broadcasts. -/
theorem pay1_at (v4 v5 v9 : FVec Ideal S4x256x1 .f32) (v10 v11 v15 : FVec Ideal S4x1x256 .f32)
    (v20 v30 v33 v43 : FVec Ideal S4x256x256 .f32) (b : Fin 4) (p q : Fin 256) :
    k0_pay1 v4 v5 v9 v10 v11 v15 v20 v30 v33 v43 (ix3 b p q)
      = kerTail (v4 (ix3 b p 0)) (v5 (ix3 b p 0)) (v9 (ix3 b p 0)) (v10 (ix3 b 0 q)) (v11 (ix3 b 0 q)) (v15 (ix3 b 0 q))
          (v20 (ix3 b p q)) (v30 (ix3 b p q)) (v33 (ix3 b p q)) (v43 (ix3 b p q)) := by
  rw [← bcast_row_at v4 broadcasts_S4x256x1_S4x256x256 b p q, ← bcast_row_at v5 broadcasts_S4x256x1_S4x256x256 b p q,
    ← bcast_row_at v9 broadcasts_S4x256x1_S4x256x256 b p q, ← bcast_col_at v10 broadcasts_S4x1x256_S4x256x256 b p q,
    ← bcast_col_at v11 broadcasts_S4x1x256_S4x256x256 b p q, ← bcast_col_at v15 broadcasts_S4x1x256_S4x256x256 b p q]
  rfl

/-- THE BODY AT A PAIR: the value stored at (b, p, q) is kerPair of the six channels of row box p and of column box q. -/
theorem pay_at (x0 : Vec Ideal S4x256x8 .f32) (x1 : Vec Ideal S4x8x256 .f32) (b : Fin 4) (p q : Fin 256) :
    Gen.k0_pay1 (Gen.k0_pay4 x0) (Gen.k0_pay5 x0) (Gen.k0_pay6 x0) (Gen.k0_pay7 x1) (Gen.k0_pay8 x1) (Gen.k0_pay9 x1)
        (Gen.k0_pay10 x0 x1) (Gen.k0_pay11 x0 x1) (Gen.k0_pay12 x0 x1) (Gen.k0_pay13 x0 x1) (ValueIdx.ix3 b p q)
      = kerPair (x0 (ix3 b p 0)) (x0 (ix3 b p 1)) (x0 (ix3 b p 2)) (x0 (ix3 b p 3)) (x0 (ix3 b p 4)) (x0 (ix3 b p 5))
          (x1 (ix3 b 0 q)) (x1 (ix3 b 1 q)) (x1 (ix3 b 2 q)) (x1 (ix3 b 3 q)) (x1 (ix3 b 4 q)) (x1 (ix3 b 5 q)) := by
  rw [pay1_at, pay4_at, pay5_at, pay6_at, pay7_at, pay8_at, pay9_at, pay10_at, pay11_at, pay13_at, pay12_at]
  rfl

end Cert.IoU.Ker

end
-- ==== Proof.PairsArray.lean ====
/-
  The region's result array of `KernelIdeal` as ONE function of the two feature arrays the host stretch leaves.
  The output window's block at grid point (i, j) is rows 256·i … 256·i+255 by columns 256·j … 256·j+255 (all four
  batches); the row window's block there is the same rows of the row features (all 8 channels), the column window's
  the same columns of the transposed features. The body's payload at (b, p, q) of the block is the pair formula of
  row p of the row block and column q of the column block, that is of row 256·i+p and column 256·j+q of the arrays:
  block (i, j) of the all-pairs array. The 64 blocks tile the [4,2048,2048] result, so the run leaves it equal to the
  all-pairs array.
-/
import proofs.«160324_j35416300323280_1_alg».proof.Proof.FrameKI
import proofs.«160324_j35416300323280_1_alg».proof.Proof.KerPair
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.ValueIdx
open Idealize.ShloMosaic.Pipeline (Dat)
open Cert.IoU.Ker (kerPair pay_at)

variable (m : (ℓ : Loc nD τ sig) → Buf (Elt Ideal) ℓ) (ρ : Dev nD → PrngReg)

theorem hz3 : (![0, 0, 0] : Fin 3 → Nat) = fun _ => 0 := funext fun a => by fin_cases a <;> rfl

/-- The pair formula of row box `r` (its six channels in the row features `R`) and column box `s` (its six channels
    in the transposed features `C`) of batch `b`. -/
def pairAt (R : S4x2048x8.Idx → EReal) (C : S4x8x2048.Idx → EReal) (b : Fin 4) (r s : Fin 2048) : EReal :=
  kerPair (R (ix3 b r 0)) (R (ix3 b r 1)) (R (ix3 b r 2)) (R (ix3 b r 3)) (R (ix3 b r 4)) (R (ix3 b r 5))
    (C (ix3 b 0 s)) (C (ix3 b 1 s)) (C (ix3 b 2 s)) (C (ix3 b 3 s)) (C (ix3 b 4 s)) (C (ix3 b 5 s))

/-- The all-pairs array. -/
def allPairs (R : S4x2048x8.Idx → EReal) (C : S4x8x2048.Idx → EReal) : S4x2048x2048.Idx → EReal :=
  fun i => pairAt R C (i 0) (i 1) (i 2)

/-- The three index maps over the grid: the row window follows the output on the row axis and stays at 0 elsewhere,
    the column window follows it on the column axis, and the output's block indices are (0, i, j) with i, j ≤ 7. -/
theorem idx_facts : ∀ t : Fin cfg0.N,
    win0_0.index t (0 : Fin 3) = 0 ∧ win0_0.index t (1 : Fin 3) = win0_2.index t (1 : Fin 3) ∧ win0_0.index t (2 : Fin 3) = 0
    ∧ win0_1.index t (0 : Fin 3) = 0 ∧ win0_1.index t (1 : Fin 3) = 0 ∧ win0_1.index t (2 : Fin 3) = win0_2.index t (2 : Fin 3)
    ∧ win0_2.index t (0 : Fin 3) = 0 ∧ win0_2.index t (1 : Fin 3) ≤ 7 ∧ win0_2.index t (2 : Fin 3) ≤ 7 :=
  (by decide +kernel : ∀ t : Fin grid0.N, _)

/-- Every block (0, i, j) of the output is some grid point's. -/
theorem idx_onto : ∀ (q1 q2 : Fin 8), ∃ t : Fin cfg0.N, win0_2.index t = ![0, q1.val, q2.val] :=
  (by decide +kernel : ∀ (q1 q2 : Fin 8), ∃ t : Fin grid0.N, win0_2.index t = ![0, q1.val, q2.val])

/-- Channel `ch` of row `p` of the row block at point `t` is channel `ch` of the array row that the output block's
    row `p` is. -/
theorem row_at (c : Dev nD) (t : Fin cfg0.N) (b : Fin 4) (p q : Fin 256) (ch : Fin 8) :
    iblk m c 0 t (ix3 b p ch)
      = V m c main_v73 (ix3 ((((cfg0.win 2).blk t).view.emb (ix3 b p q)) 0) ((((cfg0.win 2).blk t).view.emb (ix3 b p q)) 1) ch) := by
  obtain ⟨e00, e01, e02, e10, e11, e12, e20, e21, e22⟩ := idx_facts t
  show V m c main_v73 (((cfg0.win 0).blk t).view.emb (ix3 b p ch)) = _
  refine congrArg (V m c main_v73) ?_
  funext a; apply Fin.ext
  match a with
  | ⟨0, _⟩ => show win0_0.index t (0 : Fin 3) * 4 + 1 * b.val = win0_2.index t (0 : Fin 3) * 4 + 1 * b.val; omega
  | ⟨1, _⟩ => show win0_0.index t (1 : Fin 3) * 256 + 1 * p.val = win0_2.index t (1 : Fin 3) * 256 + 1 * p.val; omega
  | ⟨2, _⟩ => show win0_0.index t (2 : Fin 3) * 8 + 1 * ch.val = ch.val; omega

/-- Channel `ch` of column `q` of the column block at point `t` is channel `ch` of the array column that the output
    block's column `q` is. -/
theorem col_at (c : Dev nD) (t : Fin cfg0.N) (b : Fin 4) (p q : Fin 256) (ch : Fin 8) :
    iblk m c 1 t (ix3 b ch q)
      = V m c main_v74 (ix3 ((((cfg0.win 2).blk t).view.emb (ix3 b p q)) 0) ch ((((cfg0.win 2).blk t).view.emb (ix3 b p q)) 2)) := by
  obtain ⟨e00, e01, e02, e10, e11, e12, e20, e21, e22⟩ := idx_facts t
  show V m c main_v74 (((cfg0.win 1).blk t).view.emb (ix3 b ch q)) = _
  refine congrArg (V m c main_v74) ?_
  funext a; apply Fin.ext
  match a with
  | ⟨0, _⟩ => show win0_1.index t (0 : Fin 3) * 4 + 1 * b.val = win0_2.index t (0 : Fin 3) * 4 + 1 * b.val; omega
  | ⟨1, _⟩ => show win0_1.index t (1 : Fin 3) * 8 + 1 * ch.val = ch.val; omega
  | ⟨2, _⟩ => show win0_1.index t (2 : Fin 3) * 256 + 1 * q.val = win0_2.index t (2 : Fin 3) * 256 + 1 * q.val; omega

/-- The pair formula respects equality of its twelve arguments. -/
theorem kerPair_congr {a0 a1 a2 a3 a4 a5 a6 a7 a8 a9 a10 a11 b0 b1 b2 b3 b4 b5 b6 b7 b8 b9 b10 b11 : EReal}
    (h0 : a0 = b0) (h1 : a1 = b1) (h2 : a2 = b2) (h3 : a3 = b3) (h4 : a4 = b4) (h5 : a5 = b5)
    (h6 : a6 = b6) (h7 : a7 = b7) (h8 : a8 = b8) (h9 : a9 = b9) (h10 : a10 = b10) (h11 : a11 = b11) :
    kerPair a0 a1 a2 a3 a4 a5 a6 a7 a8 a9 a10 a11 = kerPair b0 b1 b2 b3 b4 b5 b6 b7 b8 b9 b10 b11 := by
  subst h0 h1 h2 h3 h4 h5 h6 h7 h8 h9 h10 h11; rfl

/-- What point `t` writes back is block `t` of the all-pairs array of the two feature arrays. -/
theorem flushed_eq (c : Dev nD) (t : Fin cfg0.N) :
    (dats m 0 c).flushed 2 t = ((cfg0.win 2).blk t).view.read (Elt Ideal) (allPairs (V m c main_v73) (V m c main_v74)) := by
  show (cfg0.win 2).cut (grid0.coords t) ((dats m 0 c).after 2 t) = _
  rw [after0_2]
  unfold out0_2
  rw [View.canon_unit_zero hz3]
  simp only [View.ld_unit_zero (S := S4x256x8) hz3, View.ld_unit_zero (S := S4x8x256) hz3]
  funext j
  obtain ⟨b, p, q, rfl⟩ : ∃ (b : Fin 4) (p q : Fin 256), j = ix3 b p q := ⟨j 0, j 1, j 2, eq_ix3 j⟩
  show pairs (iblk m c 0 t) (iblk m c 1 t) (ix3 b p q)
    = allPairs (V m c main_v73) (V m c main_v74) (((cfg0.win 2).blk t).view.emb (ix3 b p q))
  exact (pay_at (iblk m c 0 t) (iblk m c 1 t) b p q).trans
    (kerPair_congr (row_at m c t b p q 0) (row_at m c t b p q 1) (row_at m c t b p q 2) (row_at m c t b p q 3)
      (row_at m c t b p q 4) (row_at m c t b p q 5) (col_at m c t b p q 0) (col_at m c t b p q 1) (col_at m c t b p q 2)
      (col_at m c t b p q 3) (col_at m c t b p q 4) (col_at m c t b p q 5))

/-- An index of the result is in point `t`'s block iff each coordinate is in the block's range on its axis. -/
theorem mem_blk2 (t : Fin cfg0.N) (i : S4x2048x2048.Idx) :
    i ∈ ((cfg0.win 2).blk t).view.set ↔ ∀ a : Fin 3, win0_2.index t a * S4x256x256.size a ≤ (i a).val ∧ (i a).val < win0_2.index t a * S4x256x256.size a + S4x256x256.size a := by
  show i ∈ ((View.whole main_v75).slice (win0_2.rect t)).set ↔ _
  rw [View.set_slice_whole, Rect.mem_set_unit]
  exact Iff.rfl

/-- The blocks tile the result: row r lies in block row r / 256, column s in block column s / 256. -/
theorem cover (i : S4x2048x2048.Idx) : ∃ t : Fin cfg0.N, (cfg0.win 2).flush t = true ∧ i ∈ ((cfg0.win 2).blk t).view.set := by
  have hi0 : (i 0).val < 4 := (i 0).isLt
  have hi1 : (i 1).val < 2048 := (i 1).isLt
  have hi2 : (i 2).val < 2048 := (i 2).isLt
  obtain ⟨t, ht⟩ := idx_onto ⟨(i 1).val / 256, by omega⟩ ⟨(i 2).val / 256, by omega⟩
  have q0 : win0_2.index t (0 : Fin 3) = 0 := congrFun ht 0
  have q1 : win0_2.index t (1 : Fin 3) = (i 1).val / 256 := congrFun ht 1
  have q2 : win0_2.index t (2 : Fin 3) = (i 2).val / 256 := congrFun ht 2
  refine ⟨t, flush0_2 t, ?_⟩
  rw [mem_blk2]
  intro a
  match a with
  | ⟨0, _⟩ => show win0_2.index t (0 : Fin 3) * 4 ≤ (i 0).val ∧ (i 0).val < win0_2.index t (0 : Fin 3) * 4 + 4; omega
  | ⟨1, _⟩ => show win0_2.index t (1 : Fin 3) * 256 ≤ (i 1).val ∧ (i 1).val < win0_2.index t (1 : Fin 3) * 256 + 256; omega
  | ⟨2, _⟩ => show win0_2.index t (2 : Fin 3) * 256 ≤ (i 2).val ∧ (i 2).val < win0_2.index t (2 : Fin 3) * 256 + 256; omega

/-- The result array after the run is the all-pairs array of the two feature arrays as the region finds them. -/
theorem final (c : Dev nD) : (dats m 0 c).arrAt 2 cfg0.N = allPairs (V m c main_v73) (V m c main_v74) :=
  (dats m 0 c).arrAt_eq_of_cover 2 _ (fun t _ => flushed_eq m c t) cover

/-- The run with its result named: the all-pairs array of the host stretch's two feature arrays; the arguments unchanged. -/
theorem run_pairs : θ_run defs (onTc (τ := τ) (main (F := Ideal))) ⟨m, fun _ => 0, ρ⟩ fun r => ∀ c : Dev nD,
      r.2.mem ((c.tc : Thread nD τ).loc main_v75) = allPairs (V m c main_v73) (V m c main_v74)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 2).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.KernelIdeal.HandValue

end
-- ==== Proof.FeatDef.lean ====
/-
  The row-feature array the host stretch stacks for the region, as a function of the boxes' centres `U` : [4,2048,2] and
  covariances `Sg` : [4,2048,2,2]: per box the eight channels
    (centre y, centre x, Sg₀₀, Sg₀₁, Sg₁₁, Sg₀₀·Sg₁₁ − Sg₀₁·Sg₀₁, 0, 0),
  each a [4,2048] array made a [4,2048,1] column and the eight columns joined along the last axis; and its transpose
  [4,8,2048], the column features. The operations are the program's own (slices, reshapes, products, a broadcast zero,
  the join, the transpose), composed.
-/
import proofs.«160324_j35416300323280_1_alg».proof.Proof.Gen.KernelIdeal

noncomputable section

namespace Cert.KernelIdeal.HandHost

open Cert.KernelIdeal Cert.KernelIdeal.Gen Idealize.ShloMosaic

variable {F : FTy → Type} [FloatOps F]

/-- Centre coordinate y of every box. -/
def u0 (U : FVec F S4x2048x2 .f32) : FVec F S4x2048 .f32 :=
  shapeCast S4x2048 (extractStridedSlice S4x2048x1 ![0, 0, 0] U slices_S4x2048x2_S4x2048x1_0_0_0) shapeCasts_S4x2048x1_S4x2048
/-- Centre coordinate x of every box. -/
def u1 (U : FVec F S4x2048x2 .f32) : FVec F S4x2048 .f32 :=
  shapeCast S4x2048 (extractStridedSlice S4x2048x1 ![0, 0, 1] U slices_S4x2048x2_S4x2048x1_0_0_1) shapeCasts_S4x2048x1_S4x2048
/-- Covariance entry (0,0) of every box. -/
def s00 (Sg : FVec F S4x2048x2x2 .f32) : FVec F S4x2048 .f32 :=
  shapeCast S4x2048 (extractStridedSlice S4x2048x1x1 ![0, 0, 0, 0] Sg slices_S4x2048x2x2_S4x2048x1x1_0_0_0_0) shapeCasts_S4x2048x1x1_S4x2048
/-- Covariance entry (0,1) of every box. -/
def s01 (Sg : FVec F S4x2048x2x2 .f32) : FVec F S4x2048 .f32 :=
  shapeCast S4x2048 (extractStridedSlice S4x2048x1x1 ![0, 0, 0, 1] Sg slices_S4x2048x2x2_S4x2048x1x1_0_0_0_1) shapeCasts_S4x2048x1x1_S4x2048
/-- Covariance entry (1,1) of every box. -/
def s11 (Sg : FVec F S4x2048x2x2 .f32) : FVec F S4x2048 .f32 :=
  shapeCast S4x2048 (extractStridedSlice S4x2048x1x1 ![0, 0, 1, 1] Sg slices_S4x2048x2x2_S4x2048x1x1_0_0_1_1) shapeCasts_S4x2048x1x1_S4x2048
/-- The determinant Sg₀₀·Sg₁₁ − Sg₀₁·Sg₀₁ of every box. -/
def dets (Sg : FVec F S4x2048x2x2 .f32) : FVec F S4x2048 .f32 :=
  subf (mulf (s00 Sg) (s11 Sg)) (mulf (s01 Sg) (s01 Sg))
/-- The zero channel. -/
def zeros : FVec F S4x2048 .f32 :=
  broadcastInDim S4x2048 ![] bcast_S_S4x2048 (constant S_ .f32 0x00000000#32)
/-- A [4,2048] array as a [4,2048,1] column. -/
def col (x : FVec F S4x2048 .f32) : FVec F S4x2048x1 .f32 :=
  broadcastInDim S4x2048x1 ![0, 1] bcast_S4x2048_S4x2048x1_0_1 x

/-- The row features [4,2048,8]. -/
def feat (U : FVec F S4x2048x2 .f32) (Sg : FVec F S4x2048x2x2 .f32) : FVec F S4x2048x8 .f32 :=
  concatenate S4x2048x8 2 [⟨S4x2048x1, col (u0 U)⟩, ⟨S4x2048x1, col (u1 U)⟩, ⟨S4x2048x1, col (s00 Sg)⟩, ⟨S4x2048x1, col (s01 Sg)⟩,
    ⟨S4x2048x1, col (s11 Sg)⟩, ⟨S4x2048x1, col (dets Sg)⟩, ⟨S4x2048x1, col zeros⟩, ⟨S4x2048x1, col zeros⟩]
    concatenates_S4x2048x1_S4x2048x1_S4x2048x1_S4x2048x1_S4x2048x1_S4x2048x1_S4x2048x1_S4x2048x1_S4x2048x8_d2

/-- The column features [4,8,2048]: the row features transposed. -/
def featT (U : FVec F S4x2048x2 .f32) (Sg : FVec F S4x2048x2x2 .f32) : FVec F S4x8x2048 .f32 :=
  transpose S4x8x2048 [0, 2, 1] (feat U Sg) transposes_S4x2048x8_S4x8x2048_0_2_1

end Cert.KernelIdeal.HandHost

end
-- ==== Proof.LibHostLine.lean ====
/-
  Two general facts about a straight line of host operations, stated for any signature and any values.
  (1) Running two lines one after the other: the buffers after `l₁ ++ l₂` are the buffers after `l₂` from the buffers
      after `l₁`.
  (2) An operation of EIGHT operands given as a literal family `![x0, …, x7]` (a concatenation of eight arrays): its
      result is its function applied to the family of the operands' contents, each at its own reference, so that the
      operands' contents can be rewritten further one by one.
-/
import Idealize.ShloMosaic.Lib.StableHlo.Run

noncomputable section

namespace Idealize.ShloMosaic.StableHlo.HostLine

open Idealize.ShloMosaic Idealize.ShloMosaic.StableHlo

variable {nD : Nat} {τ : Topo} {sig : RefSig} {Val : EltTy → Type}

/-- The buffers after two lines run in order. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

variable {x0 x1 x2 x3 x4 x5 x6 x7 y : Ref sig .tc}

/-- The result of an eight-operand operation over a literal family of references, each operand's contents at its own
    reference. -/
theorem nary8_result
    (f : ((k : Fin 8) → ((![x0, x1, x2, x3, x4, x5, x6, x7] : Fin 8 → Ref sig .tc) k).ty.Contents Val) → y.ty.Contents Val) (hxs hy)
    (F : Valuation τ sig Val) :
    (nary (τ := τ) ![x0, x1, x2, x3, x4, x5, x6, x7] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (Fin.cons (F (Proc.devRef .tc x7)) (fun i => i.elim0))))))))) := by
  rw [nary_result]; congr 1; funext k; fin_cases k <;> rfl

/-- The same with the result reference un-indexed, for `simp`. -/
theorem nary8_result'
    (f : ((k : Fin 8) → ((![x0, x1, x2, x3, x4, x5, x6, x7] : Fin 8 → Ref sig .tc) k).ty.Contents Val) → y.ty.Contents Val) (hxs hy)
    (F : Valuation τ sig Val) :
    (nary (τ := τ) ![x0, x1, x2, x3, x4, x5, x6, x7] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (Fin.cons (F (Proc.devRef .tc x7)) (fun i => i.elim0))))))))) :=
  nary8_result f hxs hy F

end Idealize.ShloMosaic.StableHlo.HostLine

end
-- ==== Proof.HostFeat.lean ====
/-
  What the region finds in its two operand arrays, as functions of @main's arguments.
  The host stretch of `KernelIdeal` is cut after its 57th operation: the first part computes the boxes' centres
  (result %50) and covariances (%49) — operation for operation the opening of the reference program —, the second part
  (25 operations) slices them into channels, forms the determinant and the zero channel, joins the eight columns into the
  row features (%73) and transposes them (%74). Evaluating the second part from ANY buffer contents gives the feature
  terms of `FeatDef` over those contents at %50 and %49; evaluating the first part from the launch contents gives the
  reference's own stages for %50 and %49. Together: the region's operands are the features of the reference's centres and
  covariances.
-/
import proofs.«160324_j35416300323280_1_alg».proof.Proof.FrameKI
import proofs.«160324_j35416300323280_1_alg».proof.Proof.FeatDef
import proofs.«160324_j35416300323280_1_alg».proof.Proof.RefReadP
import proofs.«160324_j35416300323280_1_alg».proof.Proof.LibHostLine

set_option maxRecDepth 16384

noncomputable section

namespace Cert.KernelIdeal.HandHost

open Cert.KernelIdeal Cert.KernelIdeal.Gen Cert.KernelIdeal.Hand
open Idealize.ShloMosaic Idealize.ShloMosaic.TcCoe Idealize.SL.Sem Idealize.ShloMosaic.StableHlo Idealize.ShloMosaic.StableHlo.HostLine

variable {F : FTy → Type} [FloatOps F]

set_option maxHeartbeats 40000000 in
/-- The first 57 host operations: up to the centres (%50) and covariances (%49). -/
def pre : List (HloOp τ sig (Elt F)) :=
  [ StableHlo.nullary main_cst (constant S_ .f32 0x00000000#32),
    StableHlo.binary main_arg0 main_cst main_v0 ((fun x v => Host.reduceAdd x v reducesTo_S4x2048x4x2_S4x2048x2_d2 h_S_) : (⟨S4x2048x4x2, .f32⟩ : BufTy).Contents (Elt F) → (⟨S_, .f32⟩ : BufTy).Contents (Elt F) → (⟨S4x2048x2, .f32⟩ : BufTy).Contents (Elt F)),
    StableHlo.unary main_v0 main_v1 (broadcastInDim S4x2048x1x2 ![0, 1, 3] bcast_S4x2048x2_S4x2048x1x2_0_1_3 : (⟨S4x2048x2, .f32⟩ : BufTy).Contents (Elt F) → (⟨S4x2048x1x2, .f32⟩ : BufTy).Contents (Elt F)),
    StableHlo.nullary main_cst_0 (constant S_ .f32 0x40800000#32),
    StableHlo.unary main_cst_0 main_v2 (broadcastInDim S4x2048x1x2 ![] bcast_S_S4x2048x1x2 : (⟨S_, .f32⟩ : BufTy).Contents (Elt F) → (⟨S4x2048x1x2, .f32⟩ : BufTy).Contents (Elt F)),
    StableHlo.binary main_v1 main_v2 main_v3 (Host.divf : (⟨S4x2048x1x2, .f32⟩ : BufTy).Contents (Elt F) → (⟨S4x2048x1x2, .f32⟩ : BufTy).Contents (Elt F) → (⟨S4x2048x1x2, .f32⟩ : BufTy).Contents (Elt F)),
    StableHlo.unary main_v3 main_v4 (broadcastInDim S4x2048x4x2 ![0, 1, 2, 3] bcast_S4x2048x1x2_S4x2048x4x2_0_1_2_3 : (⟨S4x2048x1x2, .f32⟩ : BufTy).Contents (Elt F) → (⟨S4x2048x4x2, .f32⟩ : BufTy).Contents (Elt F)),
    StableHlo.binary main_arg0 main_v4 main_v5 (subf : (⟨S4x2048x4x2, .f32⟩ : BufTy).Contents (Elt F) → (⟨S4x2048x4x2, .f32⟩ : BufTy).Contents (Elt F) → (⟨S4x2048x4x2, .f32⟩ : BufTy).Contents (Elt F)),
    StableHlo.unary main_arg1 main_v6 (Host.negf : (⟨S4x2048, .f32⟩ : BufTy).Contents (Elt F) → (⟨S4x2048, .f32⟩ : BufTy).Contents (Elt F)),
    StableHlo.unary main_v6 main_v7 (Host.cos : (⟨S4x2048, .f32⟩ : BufTy).Contents (Elt F) → (⟨S4x2048, .f32⟩ : BufTy).Contents (Elt F)),
    StableHlo.unary main_v6 main_v8 (Host.sin : (⟨S4x2048, .f32⟩ : BufTy).Contents (Elt F) → (⟨S4x2048, .f32⟩ : BufTy).Contents (Elt F)),
    StableHlo.unary main_v8 main_v9 (Host.negf : (⟨S4x2048, .f32⟩ : BufTy).Contents (Elt F) → (⟨S4x2048, .f32⟩ : BufTy).Contents (Elt F)),
    StableHlo.unary main_v7 main_v10 (broadcastInDim S4x2048x1 ![0, 1] bcast_S4x2048_S4x2048x1_0_1 : (⟨S4x2048, .f32⟩ : BufTy).Contents (Elt F) → (⟨S4x2048x1, .f32⟩ : BufTy).Contents (Elt F)),
    StableHlo.unary main_v9 main_v11 (broadcastInDim S4x2048x1 ![0, 1] bcast_S4x2048_S4x2048x1_0_1 : (⟨S4x2048, .f32⟩ : BufTy).Contents (Elt F) → (⟨S4x2048x1, .f32⟩ : BufTy).Contents (Elt F)),
    StableHlo.binary main_v10 main_v11 main_v12 ((fun a b => concatenate S4x2048x2 2 [⟨S4x2048x1, a⟩, ⟨S4x2048x1, b⟩] concatenates_S4x2048x1_S4x2048x1_S4x2048x2_d2) : (⟨S4x2048x1, .f32⟩ : BufTy).Contents (Elt F) → (⟨S4x2048x1, .f32⟩ : BufTy).Contents (Elt F) → (⟨S4x2048x2, .f32⟩ : BufTy).Contents (Elt F)),
    StableHlo.unary main_v8 main_v13 (broadcastInDim S4x2048x1 ![0, 1] bcast_S4x2048_S4x2048x1_0_1 : (⟨S4x2048, .f32⟩ : BufTy).Contents (Elt F) → (⟨S4x2048x1, .f32⟩ : BufTy).Contents (Elt F)),
    StableHlo.unary main_v7 main_v14 (broadcastInDim S4x2048x1 ![0, 1] bcast_S4x2048_S4x2048x1_0_1 : (⟨S4x2048, .f32⟩ : BufTy).Contents (Elt F) → (⟨S4x2048x1, .f32⟩ : BufTy).Contents (Elt F)),
    StableHlo.binary main_v13 main_v14 main_v15 ((fun a b => concatenate S4x2048x2 2 [⟨S4x2048x1, a⟩, ⟨S4x2048x1, b⟩] concatenates_S4x2048x1_S4x2048x1_S4x2048x2_d2) : (⟨S4x2048x1, .f32⟩ : BufTy).Contents (Elt F) → (⟨S4x2048x1, .f32⟩ : BufTy).Contents (Elt F) → (⟨S4x2048x2, .f32⟩ : BufTy).Contents (Elt F)),
    StableHlo.unary main_v12 main_v16 (broadcastInDim S4x2048x1x2 ![0, 1, 3] bcast_S4x2048x2_S4x2048x1x2_0_1_3 : (⟨S4x2048x2, .f32⟩ : BufTy).Contents (Elt F) → (⟨S4x2048x1x2, .f32⟩ : BufTy).Contents (Elt F)),
    StableHlo.unary main_v15 main_v17 (broadcastInDim S4x2048x1x2 ![0, 1, 3] bcast_S4x2048x2_S4x2048x1x2_0_1_3 : (⟨S4x2048x2, .f32⟩ : BufTy).Contents (Elt F) → (⟨S4x2048x1x2, .f32⟩ : BufTy).Contents (Elt F)),
    StableHlo.binary main_v16 main_v17 main_v18 ((fun a b => concatenate S4x2048x2x2 2 [⟨S4x2048x1x2, a⟩, ⟨S4x2048x1x2, b⟩] concatenates_S4x2048x1x2_S4x2048x1x2_S4x2048x2x2_d2) : (⟨S4x2048x1x2, .f32⟩ : BufTy).Contents (Elt F) → (⟨S4x2048x1x2, .f32⟩ : BufTy).Contents (Elt F) → (⟨S4x2048x2x2, .f32⟩ : BufTy).Contents (Elt F)),
    StableHlo.binary main_v5 main_v18 main_v19 ((fun l r => Host.dotGeneral dot_S4x2048x4x2_S4x2048x2x2_S4x2048x4x2_3_2_2_3_01_01 none l r) : (⟨S4x2048x4x2, .f32⟩ : BufTy).Contents (Elt F) → (⟨S4x2048x2x2, .f32⟩ : BufTy).Contents (Elt F) → (⟨S4x2048x4x2, .f32⟩ : BufTy).Contents (Elt F)),
    StableHlo.nullary main_cst_1 (constant S_ .f32 0xFF800000#32),
    StableHlo.binary main_v19 main_cst_1 main_v20 ((fun x v => Host.reduce FloatOps.maximumf x v reducesTo_S4x2048x4x2_S4x2048x2_d2 h_S_) : (⟨S4x2048x4x2, .f32⟩ : BufTy).Contents (Elt F) → (⟨S_, .f32⟩ : BufTy).Contents (Elt F) → (⟨S4x2048x2, .f32⟩ : BufTy).Contents (Elt F)),
    StableHlo.nullary main_cst_2 (constant S_ .f32 0x7F800000#32),
    StableHlo.binary main_v19 main_cst_2 main_v21 ((fun x v => Host.reduce FloatOps.minimumf x v reducesTo_S4x2048x4x2_S4x2048x2_d2 h_S_) : (⟨S4x2048x4x2, .f32⟩ : BufTy).Contents (Elt F) → (⟨S_, .f32⟩ : BufTy).Contents (Elt F) → (⟨S4x2048x2, .f32⟩ : BufTy).Contents (Elt F)),
    StableHlo.binary main_v20 main_v21 main_v22 (subf : (⟨S4x2048x2, .f32⟩ : BufTy).Contents (Elt F) → (⟨S4x2048x2, .f32⟩ : BufTy).Contents (Elt F) → (⟨S4x2048x2, .f32⟩ : BufTy).Contents (Elt F)),
    StableHlo.unary main_arg1 main_v23 (Host.cos : (⟨S4x2048, .f32⟩ : BufTy).Contents (Elt F) → (⟨S4x2048, .f32⟩ : BufTy).Contents (Elt F)),
    StableHlo.unary main_arg1 main_v24 (Host.sin : (⟨S4x2048, .f32⟩ : BufTy).Contents (Elt F) → (⟨S4x2048, .f32⟩ : BufTy).Contents (Elt F)),
    StableHlo.unary main_v24 main_v25 (Host.negf : (⟨S4x2048, .f32⟩ : BufTy).Contents (Elt F) → (⟨S4x2048, .f32⟩ : BufTy).Contents (Elt F)),
    StableHlo.unary main_v23 main_v26 (broadcastInDim S4x2048x1 ![0, 1] bcast_S4x2048_S4x2048x1_0_1 : (⟨S4x2048, .f32⟩ : BufTy).Contents (Elt F) → (⟨S4x2048x1, .f32⟩ : BufTy).Contents (Elt F)),
    StableHlo.unary main_v25 main_v27 (broadcastInDim S4x2048x1 ![0, 1] bcast_S4x2048_S4x2048x1_0_1 : (⟨S4x2048, .f32⟩ : BufTy).Contents (Elt F) → (⟨S4x2048x1, .f32⟩ : BufTy).Contents (Elt F)),
    StableHlo.binary main_v26 main_v27 main_v28 ((fun a b => concatenate S4x2048x2 2 [⟨S4x2048x1, a⟩, ⟨S4x2048x1, b⟩] concatenates_S4x2048x1_S4x2048x1_S4x2048x2_d2) : (⟨S4x2048x1, .f32⟩ : BufTy).Contents (Elt F) → (⟨S4x2048x1, .f32⟩ : BufTy).Contents (Elt F) → (⟨S4x2048x2, .f32⟩ : BufTy).Contents (Elt F)),
    StableHlo.unary main_v24 main_v29 (broadcastInDim S4x2048x1 ![0, 1] bcast_S4x2048_S4x2048x1_0_1 : (⟨S4x2048, .f32⟩ : BufTy).Contents (Elt F) → (⟨S4x2048x1, .f32⟩ : BufTy).Contents (Elt F)),
    StableHlo.unary main_v23 main_v30 (broadcastInDim S4x2048x1 ![0, 1] bcast_S4x2048_S4x2048x1_0_1 : (⟨S4x2048, .f32⟩ : BufTy).Contents (Elt F) → (⟨S4x2048x1, .f32⟩ : BufTy).Contents (Elt F)),
    StableHlo.binary main_v29 main_v30 main_v31 ((fun a b => concatenate S4x2048x2 2 [⟨S4x2048x1, a⟩, ⟨S4x2048x1, b⟩] concatenates_S4x2048x1_S4x2048x1_S4x2048x2_d2) : (⟨S4x2048x1, .f32⟩ : BufTy).Contents (Elt F) → (⟨S4x2048x1, .f32⟩ : BufTy).Contents (Elt F) → (⟨S4x2048x2, .f32⟩ : BufTy).Contents (Elt F)),
    StableHlo.unary main_v28 main_v32 (broadcastInDim S4x2048x1x2 ![0, 1, 3] bcast_S4x2048x2_S4x2048x1x2_0_1_3 : (⟨S4x2048x2, .f32⟩ : BufTy).Contents (Elt F) → (⟨S4x2048x1x2, .f32⟩ : BufTy).Contents (Elt F)),
    StableHlo.unary main_v31 main_v33 (broadcastInDim S4x2048x1x2 ![0, 1, 3] bcast_S4x2048x2_S4x2048x1x2_0_1_3 : (⟨S4x2048x2, .f32⟩ : BufTy).Contents (Elt F) → (⟨S4x2048x1x2, .f32⟩ : BufTy).Contents (Elt F)),
    StableHlo.binary main_v32 main_v33 main_v34 ((fun a b => concatenate S4x2048x2x2 2 [⟨S4x2048x1x2, a⟩, ⟨S4x2048x1x2, b⟩] concatenates_S4x2048x1x2_S4x2048x1x2_S4x2048x2x2_d2) : (⟨S4x2048x1x2, .f32⟩ : BufTy).Contents (Elt F) → (⟨S4x2048x1x2, .f32⟩ : BufTy).Contents (Elt F) → (⟨S4x2048x2x2, .f32⟩ : BufTy).Contents (Elt F)),
    StableHlo.nullary main_cst_3 (constant S_ .f32 0x40000000#32),
    StableHlo.unary main_cst_3 main_v35 (broadcastInDim S4x2048x2 ![] bcast_S_S4x2048x2 : (⟨S_, .f32⟩ : BufTy).Contents (Elt F) → (⟨S4x2048x2, .f32⟩ : BufTy).Contents (Elt F)),
    StableHlo.binary main_v22 main_v35 main_v36 (Host.divf : (⟨S4x2048x2, .f32⟩ : BufTy).Contents (Elt F) → (⟨S4x2048x2, .f32⟩ : BufTy).Contents (Elt F) → (⟨S4x2048x2, .f32⟩ : BufTy).Contents (Elt F)),
    StableHlo.unary main_v36 main_v37 (broadcastInDim S4x2048x2x1 ![0, 1, 2] bcast_S4x2048x2_S4x2048x2x1_0_1_2 : (⟨S4x2048x2, .f32⟩ : BufTy).Contents (Elt F) → (⟨S4x2048x2x1, .f32⟩ : BufTy).Contents (Elt F)),
    StableHlo.nullary main_v38 (iotaInDim S2x2 32 0),
    StableHlo.nullary main_v39 (iotaInDim S2x2 32 1),
    StableHlo.nullary main_c (constantI S_ 32 0#32),
    StableHlo.unary main_c main_v40 (broadcastInDim S2x2 ![] bcast_S_S2x2 : (⟨S_, .i32⟩ : BufTy).Contents (Elt F) → (⟨S2x2, .i32⟩ : BufTy).Contents (Elt F)),
    StableHlo.binary main_v38 main_v40 main_v41 (addi : (⟨S2x2, .i32⟩ : BufTy).Contents (Elt F) → (⟨S2x2, .i32⟩ : BufTy).Contents (Elt F) → (⟨S2x2, .i32⟩ : BufTy).Contents (Elt F)),
    StableHlo.binary main_v41 main_v39 main_v42 (cmpi .eq : (⟨S2x2, .i32⟩ : BufTy).Contents (Elt F) → (⟨S2x2, .i32⟩ : BufTy).Contents (Elt F) → (⟨S2x2, .i1⟩ : BufTy).Contents (Elt F)),
    StableHlo.unary main_v42 main_v43 (uitofp .f32 : (⟨S2x2, .i1⟩ : BufTy).Contents (Elt F) → (⟨S2x2, .f32⟩ : BufTy).Contents (Elt F)),
    StableHlo.unary main_v43 main_v44 (broadcastInDim S1x1x2x2 ![2, 3] bcast_S2x2_S1x1x2x2_2_3 : (⟨S2x2, .f32⟩ : BufTy).Contents (Elt F) → (⟨S1x1x2x2, .f32⟩ : BufTy).Contents (Elt F)),
    StableHlo.unary main_v37 main_v45 (broadcastInDim S4x2048x2x2 ![0, 1, 2, 3] bcast_S4x2048x2x1_S4x2048x2x2_0_1_2_3 : (⟨S4x2048x2x1, .f32⟩ : BufTy).Contents (Elt F) → (⟨S4x2048x2x2, .f32⟩ : BufTy).Contents (Elt F)),
    StableHlo.unary main_v44 main_v46 (broadcastInDim S4x2048x2x2 ![0, 1, 2, 3] bcast_S1x1x2x2_S4x2048x2x2_0_1_2_3 : (⟨S1x1x2x2, .f32⟩ : BufTy).Contents (Elt F) → (⟨S4x2048x2x2, .f32⟩ : BufTy).Contents (Elt F)),
    StableHlo.binary main_v45 main_v46 main_v47 (mulf : (⟨S4x2048x2x2, .f32⟩ : BufTy).Contents (Elt F) → (⟨S4x2048x2x2, .f32⟩ : BufTy).Contents (Elt F) → (⟨S4x2048x2x2, .f32⟩ : BufTy).Contents (Elt F)),
    StableHlo.binary main_v47 main_v34 main_v48 ((fun l r => Host.dotGeneral dot_S4x2048x2x2_S4x2048x2x2_S4x2048x2x2_2_3_3_2_01_01 none l r) : (⟨S4x2048x2x2, .f32⟩ : BufTy).Contents (Elt F) → (⟨S4x2048x2x2, .f32⟩ : BufTy).Contents (Elt F) → (⟨S4x2048x2x2, .f32⟩ : BufTy).Contents (Elt F)),
    StableHlo.binary main_v48 main_v34 main_v49 ((fun l r => Host.dotGeneral dot_S4x2048x2x2_S4x2048x2x2_S4x2048x2x2_2_3_3_2_01_01 none l r) : (⟨S4x2048x2x2, .f32⟩ : BufTy).Contents (Elt F) → (⟨S4x2048x2x2, .f32⟩ : BufTy).Contents (Elt F) → (⟨S4x2048x2x2, .f32⟩ : BufTy).Contents (Elt F)),
    StableHlo.reshape main_v3 main_v50 rfl shapeCasts_S4x2048x1x2_S4x2048x2 ]

set_option maxHeartbeats 40000000 in
/-- The last 25 host operations: channels, determinant, the join and the transpose. -/
def post : List (HloOp τ sig (Elt F)) :=
  [ StableHlo.unary main_v49 main_v51 ((extractStridedSlice S4x2048x1x1 ![0, 0, 0, 0] · slices_S4x2048x2x2_S4x2048x1x1_0_0_0_0) : (⟨S4x2048x2x2, .f32⟩ : BufTy).Contents (Elt F) → (⟨S4x2048x1x1, .f32⟩ : BufTy).Contents (Elt F)),
    StableHlo.reshape main_v51 main_v52 rfl shapeCasts_S4x2048x1x1_S4x2048,
    StableHlo.unary main_v49 main_v53 ((extractStridedSlice S4x2048x1x1 ![0, 0, 0, 1] · slices_S4x2048x2x2_S4x2048x1x1_0_0_0_1) : (⟨S4x2048x2x2, .f32⟩ : BufTy).Contents (Elt F) → (⟨S4x2048x1x1, .f32⟩ : BufTy).Contents (Elt F)),
    StableHlo.reshape main_v53 main_v54 rfl shapeCasts_S4x2048x1x1_S4x2048,
    StableHlo.unary main_v49 main_v55 ((extractStridedSlice S4x2048x1x1 ![0, 0, 1, 1] · slices_S4x2048x2x2_S4x2048x1x1_0_0_1_1) : (⟨S4x2048x2x2, .f32⟩ : BufTy).Contents (Elt F) → (⟨S4x2048x1x1, .f32⟩ : BufTy).Contents (Elt F)),
    StableHlo.reshape main_v55 main_v56 rfl shapeCasts_S4x2048x1x1_S4x2048,
    StableHlo.binary main_v52 main_v56 main_v57 (mulf : (⟨S4x2048, .f32⟩ : BufTy).Contents (Elt F) → (⟨S4x2048, .f32⟩ : BufTy).Contents (Elt F) → (⟨S4x2048, .f32⟩ : BufTy).Contents (Elt F)),
    StableHlo.binary main_v54 main_v54 main_v58 (mulf : (⟨S4x2048, .f32⟩ : BufTy).Contents (Elt F) → (⟨S4x2048, .f32⟩ : BufTy).Contents (Elt F) → (⟨S4x2048, .f32⟩ : BufTy).Contents (Elt F)),
    StableHlo.binary main_v57 main_v58 main_v59 (subf : (⟨S4x2048, .f32⟩ : BufTy).Contents (Elt F) → (⟨S4x2048, .f32⟩ : BufTy).Contents (Elt F) → (⟨S4x2048, .f32⟩ : BufTy).Contents (Elt F)),
    StableHlo.nullary main_cst_4 (constant S_ .f32 0x00000000#32),
    StableHlo.unary main_cst_4 main_v60 (broadcastInDim S4x2048 ![] bcast_S_S4x2048 : (⟨S_, .f32⟩ : BufTy).Contents (Elt F) → (⟨S4x2048, .f32⟩ : BufTy).Contents (Elt F)),
    StableHlo.unary main_v50 main_v61 ((extractStridedSlice S4x2048x1 ![0, 0, 0] · slices_S4x2048x2_S4x2048x1_0_0_0) : (⟨S4x2048x2, .f32⟩ : BufTy).Contents (Elt F) → (⟨S4x2048x1, .f32⟩ : BufTy).Contents (Elt F)),
    StableHlo.reshape main_v61 main_v62 rfl shapeCasts_S4x2048x1_S4x2048,
    StableHlo.unary main_v50 main_v63 ((extractStridedSlice S4x2048x1 ![0, 0, 1] · slices_S4x2048x2_S4x2048x1_0_0_1) : (⟨S4x2048x2, .f32⟩ : BufTy).Contents (Elt F) → (⟨S4x2048x1, .f32⟩ : BufTy).Contents (Elt F)),
    StableHlo.reshape main_v63 main_v64 rfl shapeCasts_S4x2048x1_S4x2048,
    StableHlo.unary main_v62 main_v65 (broadcastInDim S4x2048x1 ![0, 1] bcast_S4x2048_S4x2048x1_0_1 : (⟨S4x2048, .f32⟩ : BufTy).Contents (Elt F) → (⟨S4x2048x1, .f32⟩ : BufTy).Contents (Elt F)),
    StableHlo.unary main_v64 main_v66 (broadcastInDim S4x2048x1 ![0, 1] bcast_S4x2048_S4x2048x1_0_1 : (⟨S4x2048, .f32⟩ : BufTy).Contents (Elt F) → (⟨S4x2048x1, .f32⟩ : BufTy).Contents (Elt F)),
    StableHlo.unary main_v52 main_v67 (broadcastInDim S4x2048x1 ![0, 1] bcast_S4x2048_S4x2048x1_0_1 : (⟨S4x2048, .f32⟩ : BufTy).Contents (Elt F) → (⟨S4x2048x1, .f32⟩ : BufTy).Contents (Elt F)),
    StableHlo.unary main_v54 main_v68 (broadcastInDim S4x2048x1 ![0, 1] bcast_S4x2048_S4x2048x1_0_1 : (⟨S4x2048, .f32⟩ : BufTy).Contents (Elt F) → (⟨S4x2048x1, .f32⟩ : BufTy).Contents (Elt F)),
    StableHlo.unary main_v56 main_v69 (broadcastInDim S4x2048x1 ![0, 1] bcast_S4x2048_S4x2048x1_0_1 : (⟨S4x2048, .f32⟩ : BufTy).Contents (Elt F) → (⟨S4x2048x1, .f32⟩ : BufTy).Contents (Elt F)),
    StableHlo.unary main_v59 main_v70 (broadcastInDim S4x2048x1 ![0, 1] bcast_S4x2048_S4x2048x1_0_1 : (⟨S4x2048, .f32⟩ : BufTy).Contents (Elt F) → (⟨S4x2048x1, .f32⟩ : BufTy).Contents (Elt F)),
    StableHlo.unary main_v60 main_v71 (broadcastInDim S4x2048x1 ![0, 1] bcast_S4x2048_S4x2048x1_0_1 : (⟨S4x2048, .f32⟩ : BufTy).Contents (Elt F) → (⟨S4x2048x1, .f32⟩ : BufTy).Contents (Elt F)),
    StableHlo.unary main_v60 main_v72 (broadcastInDim S4x2048x1 ![0, 1] bcast_S4x2048_S4x2048x1_0_1 : (⟨S4x2048, .f32⟩ : BufTy).Contents (Elt F) → (⟨S4x2048x1, .f32⟩ : BufTy).Contents (Elt F)),
    StableHlo.nary ![main_v65, main_v66, main_v67, main_v68, main_v69, main_v70, main_v71, main_v72] main_v73 (fun u => concatenate S4x2048x8 2 [⟨S4x2048x1, u 0⟩, ⟨S4x2048x1, u 1⟩, ⟨S4x2048x1, u 2⟩, ⟨S4x2048x1, u 3⟩, ⟨S4x2048x1, u 4⟩, ⟨S4x2048x1, u 5⟩, ⟨S4x2048x1, u 6⟩, ⟨S4x2048x1, u 7⟩] concatenates_S4x2048x1_S4x2048x1_S4x2048x1_S4x2048x1_S4x2048x1_S4x2048x1_S4x2048x1_S4x2048x1_S4x2048x8_d2),
    StableHlo.unary main_v73 main_v74 ((transpose S4x8x2048 [0, 2, 1] · transposes_S4x2048x8_S4x8x2048_0_2_1) : (⟨S4x2048x8, .f32⟩ : BufTy).Contents (Elt F) → (⟨S4x8x2048, .f32⟩ : BufTy).Contents (Elt F)) ]

set_option maxHeartbeats 40000000 in
/-- The host stretch is the two parts in order. -/
theorem hostOps0_split : (hostOps0 : List (HloOp τ sig (Elt F))) = pre ++ post := rfl

/-- The second part from any contents `W`: the row features of `W`'s centres and covariances. -/
theorem post_v73 (W : Valuation τ sig (Elt F)) :
    after post W (Proc.devRef .tc main_v73) = feat (W (Proc.devRef .tc main_v50)) (W (Proc.devRef .tc main_v49)) := by
  simp (disch := decide) only [post, after_cons, after_nil, nullary_result', unary_result', binary_result', reshape_result',
    nary8_result', nullary_result_ne', unary_result_ne', binary_result_ne', reshape_result_ne', nary_result_ne']
  rfl

/-- The second part from any contents `W`: the column features. -/
theorem post_v74 (W : Valuation τ sig (Elt F)) :
    after post W (Proc.devRef .tc main_v74) = featT (W (Proc.devRef .tc main_v50)) (W (Proc.devRef .tc main_v49)) := by
  simp (disch := decide) only [post, after_cons, after_nil, nullary_result', unary_result', binary_result', reshape_result',
    nary8_result', nullary_result_ne', unary_result_ne', binary_result_ne', reshape_result_ne', nary_result_ne']
  rfl

/-- The first part from any contents `M`: the centres are the reference's stage %50 of `M`'s first argument. -/
theorem pre_v50 (M : Valuation τ sig (Elt F)) :
    after pre M (Proc.devRef .tc main_v50)
      = Cert.ReferenceIdeal.ReadP.val_main_v50 (F := F) (M (Proc.devRef .tc main_arg0)) := by
  simp (disch := decide) only [pre, after_cons, after_nil, nullary_result', unary_result', binary_result', reshape_result',
    nullary_result_ne', unary_result_ne', binary_result_ne', reshape_result_ne']
  rfl

/-- The first part from any contents `M`: the covariances are the reference's stage %49 of `M`'s two arguments. -/
theorem pre_v49 (M : Valuation τ sig (Elt F)) :
    after pre M (Proc.devRef .tc main_v49)
      = Cert.ReferenceIdeal.ReadP.val_main_v49 (F := F) (M (Proc.devRef .tc main_arg0)) (M (Proc.devRef .tc main_arg1)) := by
  simp (disch := decide) only [pre, after_cons, after_nil, nullary_result', unary_result', binary_result', reshape_result',
    nullary_result_ne', unary_result_ne', binary_result_ne', reshape_result_ne']
  rfl

variable (m : (ℓ : Loc nD τ sig) → Buf (Elt F) ℓ)

/-- The region's first operand: the row features of the reference's centres and covariances of the launch arguments. -/
theorem V_v73 (c : Dev nD) :
    V m c main_v73 = feat (Cert.ReferenceIdeal.ReadP.val_main_v50 (F := F) (m ((c.tc : Thread nD τ).loc main_arg0)))
      (Cert.ReferenceIdeal.ReadP.val_main_v49 (F := F) (m ((c.tc : Thread nD τ).loc main_arg0)) (m ((c.tc : Thread nD τ).loc main_arg1))) := by
  show after hostOps0 (fun b => m (c, b)) (Proc.devRef .tc main_v73) = _
  rw [hostOps0_split, HostLine.after_append, post_v73, pre_v50, pre_v49]

/-- The region's second operand: the column features of the same. -/
theorem V_v74 (c : Dev nD) :
    V m c main_v74 = featT (Cert.ReferenceIdeal.ReadP.val_main_v50 (F := F) (m ((c.tc : Thread nD τ).loc main_arg0)))
      (Cert.ReferenceIdeal.ReadP.val_main_v49 (F := F) (m ((c.tc : Thread nD τ).loc main_arg0)) (m ((c.tc : Thread nD τ).loc main_arg1))) := by
  show after hostOps0 (fun b => m (c, b)) (Proc.devRef .tc main_v74) = _
  rw [hostOps0_split, HostLine.after_append, post_v74, pre_v50, pre_v49]

end Cert.KernelIdeal.HandHost

end
-- ==== Proof.FeatAt.lean ====
/-
  The host's feature stack read at coordinates.

  The row features [4,2048,8] join eight [4,2048,1] columns along the last axis; channel k of box (b, r) is therefore
  the k-th column at (b, r, 0), and each column is a [4,2048] array read at (b, r): a slice of the centres or of the
  covariances with its unit axes dropped, or the determinant built from three such slices. The column features
  [4,8,2048] are the row features with the last two coordinates exchanged.
-/
import proofs.«160324_j35416300323280_1_alg».proof.Proof.FeatDef
import Idealize.ShloMosaic.Lib.Pipeline.Value
import Idealize.ShloMosaic.Lib.ValueIdx

noncomputable section

namespace Cert.KernelIdeal.HandHost

open Cert.KernelIdeal Cert.KernelIdeal.Gen Idealize.ShloMosaic Idealize.ShloMosaic.ValueIdx

/-! ## The layout operations of the feature stack, read at coordinates -/

section Layout
variable {α : Type}

/-- Channel c of the centres [4,2048,2], sliced to [4,2048,1], at (b, r, 0): the centres at (b, r, c). -/
theorem slice2_at (c : Nat) (hc : c < 2) (x : S4x2048x2.Idx → α) (h : S4x2048x2.Slices ![0, 0, c] S4x2048x1)
    (b : Fin 4) (r : Fin 2048) (z : Fin 1) :
    extractStridedSlice S4x2048x1 ![0, 0, c] x h (ix3 b r z) = x (ix3 b r (⟨c, hc⟩ : Fin 2)) := by
  refine extractStridedSlice_apply _ x h _ _ fun a => ?_
  match a with
  | ⟨0, _⟩ => show b.val = 0 + b.val; omega
  | ⟨1, _⟩ => show r.val = 0 + r.val; omega
  | ⟨2, _⟩ => show c = c + z.val; have := z.isLt; omega

/-- Entry (c, d) of the covariances [4,2048,2,2], sliced to [4,2048,1,1], at (b, r, 0, 0): the covariances at
    (b, r, c, d). -/
theorem slice4_at (c d : Nat) (hc : c < 2) (hd : d < 2) (x : S4x2048x2x2.Idx → α)
    (h : S4x2048x2x2.Slices ![0, 0, c, d] S4x2048x1x1) (b : Fin 4) (r : Fin 2048) (z w : Fin 1) :
    extractStridedSlice S4x2048x1x1 ![0, 0, c, d] x h (ix4 b r z w)
      = x (ix4 b r (⟨c, hc⟩ : Fin 2) (⟨d, hd⟩ : Fin 2)) := by
  refine extractStridedSlice_apply _ x h _ _ fun a => ?_
  match a with
  | ⟨0, _⟩ => show b.val = 0 + b.val; omega
  | ⟨1, _⟩ => show r.val = 0 + r.val; omega
  | ⟨2, _⟩ => show c = c + z.val; have := z.isLt; omega
  | ⟨3, _⟩ => show d = d + w.val; have := w.isLt; omega

/-- Dropping the trailing unit axis of [4,2048,1], at (b, r): the operand at (b, r, 0). -/
theorem cast3_at (x : S4x2048x1.Idx → α) (h : S4x2048x1.ShapeCasts S4x2048) (b : Fin 4) (r : Fin 2048) :
    shapeCast S4x2048 x h (ix2 b r) = x (ix3 b r (0 : Fin 1)) := by
  refine shapeCast_apply x h _ _ ?_
  rw [Shape.rowMajor_val_three, Shape.rowMajor_val_two]
  show (b.val * 2048 + r.val) * 1 + 0 = b.val * 2048 + r.val
  omega

/-- Dropping the two trailing unit axes of [4,2048,1,1], at (b, r): the operand at (b, r, 0, 0). -/
theorem cast4_at (x : S4x2048x1x1.Idx → α) (h : S4x2048x1x1.ShapeCasts S4x2048) (b : Fin 4) (r : Fin 2048) :
    shapeCast S4x2048 x h (ix2 b r) = x (ix4 b r (0 : Fin 1) (0 : Fin 1)) := by
  refine shapeCast_apply x h _ _ ?_
  rw [Shape.rowMajor_val_four, Shape.rowMajor_val_two]
  show ((b.val * 2048 + r.val) * 1 + 0) * 1 + 0 = b.val * 2048 + r.val
  omega

/-- A [4,2048] array made a [4,2048,1] column, at (b, r, 0): the array at (b, r). -/
theorem colBcast_at (x : S4x2048.Idx → α) (h : S4x2048.BroadcastsInDim S4x2048x1 ![0, 1]) (b : Fin 4) (r : Fin 2048)
    (z : Fin 1) : broadcastInDim S4x2048x1 ![0, 1] h x (ix3 b r z) = x (ix2 b r) := by
  refine broadcastInDim_apply _ h x _ _ fun a => ?_
  match a with
  | ⟨0, _⟩ => rfl
  | ⟨1, _⟩ => rfl

end Layout

/-! ## The channels at a box -/

section Channels
variable (U : FVec Ideal S4x2048x2 .f32) (Sg : FVec Ideal S4x2048x2x2 .f32) (b : Fin 4) (r s : Fin 2048)

theorem col_at (x : FVec Ideal S4x2048 .f32) (z : Fin 1) : col x (ix3 b r z) = x (ix2 b r) :=
  colBcast_at x bcast_S4x2048_S4x2048x1_0_1 b r z

theorem u0_at : u0 U (ix2 b r) = U (ix3 b r 0) := by
  unfold u0; rw [cast3_at]; exact slice2_at 0 (by decide) U _ b r 0
theorem u1_at : u1 U (ix2 b r) = U (ix3 b r 1) := by
  unfold u1; rw [cast3_at]; exact slice2_at 1 (by decide) U _ b r 0
theorem s00_at : s00 Sg (ix2 b r) = Sg (ix4 b r 0 0) := by
  unfold s00; rw [cast4_at]; exact slice4_at 0 0 (by decide) (by decide) Sg _ b r 0 0
theorem s01_at : s01 Sg (ix2 b r) = Sg (ix4 b r 0 1) := by
  unfold s01; rw [cast4_at]; exact slice4_at 0 1 (by decide) (by decide) Sg _ b r 0 0
theorem s11_at : s11 Sg (ix2 b r) = Sg (ix4 b r 1 1) := by
  unfold s11; rw [cast4_at]; exact slice4_at 1 1 (by decide) (by decide) Sg _ b r 0 0
theorem dets_at : dets Sg (ix2 b r)
    = Sg (ix4 b r 0 0) * Sg (ix4 b r 1 1) - Sg (ix4 b r 0 1) * Sg (ix4 b r 0 1) := by
  rw [← s00_at Sg b r, ← s11_at Sg b r, ← s01_at Sg b r]; rfl

/-- Channel k (below 8) of the joined features at box (b, r) is the k-th column at (b, r, 0). -/
theorem feat_piece (k : Nat) (hk : k < 8) (x : FVec Ideal S4x2048 .f32)
    (hx : [(⟨S4x2048x1, col (u0 U)⟩ : (s : Shape) × (s.Idx → Ideal .f32)), ⟨S4x2048x1, col (u1 U)⟩,
        ⟨S4x2048x1, col (s00 Sg)⟩, ⟨S4x2048x1, col (s01 Sg)⟩, ⟨S4x2048x1, col (s11 Sg)⟩, ⟨S4x2048x1, col (dets Sg)⟩,
        ⟨S4x2048x1, col zeros⟩, ⟨S4x2048x1, col zeros⟩][k]? = some ⟨S4x2048x1, col x⟩) :
    feat U Sg (ix3 b r (⟨k, hk⟩ : Fin 8)) = x (ix2 b r) := by
  unfold feat
  have hlen : k < [(⟨S4x2048x1, col (u0 U)⟩ : (s : Shape) × (s.Idx → Ideal .f32)), ⟨S4x2048x1, col (u1 U)⟩,
        ⟨S4x2048x1, col (s00 Sg)⟩, ⟨S4x2048x1, col (s01 Sg)⟩, ⟨S4x2048x1, col (s11 Sg)⟩, ⟨S4x2048x1, col (dets Sg)⟩,
        ⟨S4x2048x1, col zeros⟩, ⟨S4x2048x1, col zeros⟩].length := hk
  refine (concatenate_apply_piece (t := S4x2048x8) 2 _ _ (ix3 b r (⟨k, hk⟩ : Fin 8)) k hlen S4x2048x1 (col x)
    ((List.getElem_eq_iff hlen).2 hx) rfl k ?_ (ix3 b r (0 : Fin 1)) ?_ rfl).trans (col_at b r x 0)
  · interval_cases k <;> rfl
  · intro a ha
    match a with
    | ⟨0, _⟩ => rfl
    | ⟨1, _⟩ => rfl
    | ⟨2, _⟩ => exact absurd rfl ha

theorem feat_at0 : feat U Sg (ix3 b r 0) = U (ix3 b r 0) :=
  (feat_piece U Sg b r 0 (by decide) (u0 U) rfl).trans (u0_at U b r)
theorem feat_at1 : feat U Sg (ix3 b r 1) = U (ix3 b r 1) :=
  (feat_piece U Sg b r 1 (by decide) (u1 U) rfl).trans (u1_at U b r)
theorem feat_at2 : feat U Sg (ix3 b r 2) = Sg (ix4 b r 0 0) :=
  (feat_piece U Sg b r 2 (by decide) (s00 Sg) rfl).trans (s00_at Sg b r)
theorem feat_at3 : feat U Sg (ix3 b r 3) = Sg (ix4 b r 0 1) :=
  (feat_piece U Sg b r 3 (by decide) (s01 Sg) rfl).trans (s01_at Sg b r)
theorem feat_at4 : feat U Sg (ix3 b r 4) = Sg (ix4 b r 1 1) :=
  (feat_piece U Sg b r 4 (by decide) (s11 Sg) rfl).trans (s11_at Sg b r)
theorem feat_at5 : feat U Sg (ix3 b r 5)
    = Sg (ix4 b r 0 0) * Sg (ix4 b r 1 1) - Sg (ix4 b r 0 1) * Sg (ix4 b r 0 1) :=
  (feat_piece U Sg b r 5 (by decide) (dets Sg) rfl).trans (dets_at Sg b r)

/-- The column features are the row features with the last two coordinates exchanged. -/
theorem featT_at (ch : Fin 8) : featT U Sg (ix3 b ch s) = feat U Sg (ix3 b s ch) := by
  unfold featT
  refine transpose_apply _ _ _ _ _ fun a => ?_
  match a with
  | ⟨0, _⟩ => rfl
  | ⟨1, _⟩ => rfl
  | ⟨2, _⟩ => rfl

end Channels

end Cert.KernelIdeal.HandHost

end
-- ==== Proof.RefPair.lean ====
import proofs.«160324_j35416300323280_1_alg».proof.Proof.RefReadP

/-! # The reference's pairwise stage at one pair of boxes

The reference computes, for every batch `b` and every pair of boxes `(i, j)`, a Gaussian overlap score from the
two boxes' centres `u` and their matrices `sigma`. This module reads the result at the index `(b, i, j)` as one
closed formula `refPair` of the four centre coordinates and the eight matrix entries, and shows that `sigma` is a
symmetric matrix. -/

noncomputable section

namespace Cert.IoU.Ref

open Cert.ReferenceIdeal Cert.ReferenceIdeal.Gen Idealize.ShloMosaic Idealize.ShloMosaic.TcCoe Idealize.SL.Sem Idealize.ShloMosaic.StableHlo
open Idealize.ShloMosaic.ValueIdx

/-- The type of the first argument (the boxes' corners). -/
abbrev Arr0 := (⟨S4x2048x4x2, .f32⟩ : BufTy).Contents (Elt Ideal)
/-- The type of the second argument (the boxes' angles). -/
abbrev Arr1 := (⟨S4x2048, .f32⟩ : BufTy).Contents (Elt Ideal)

/-! ## The formula for one pair -/

/-- The mean of two entries: their sum divided by the literal two. -/
def avg (x y : EReal) : EReal := Ideal.div (x + y) (Ideal.ofBits .f32 0x40000000#32)

/-- The determinant of a two-by-two matrix from its entries. -/
def det2 (s00 s01 s10 s11 : EReal) : EReal := s00 * s11 - s01 * s10

/-- The guarded reciprocal of a determinant: zero where the determinant is zero, else one over it (the inner guard
    replaces a zero divisor by one before dividing). -/
def invDet (d : EReal) : EReal :=
  Scalar.select (Ideal.cmp .oeq d (Ideal.ofBits .f32 0x00000000#32)) (Ideal.ofBits .f32 0x00000000#32)
    (Ideal.div (Ideal.ofBits .f32 0x3F800000#32)
      (Scalar.select (Ideal.cmp .oeq d (Ideal.ofBits .f32 0x00000000#32)) (Ideal.ofBits .f32 0x3F800000#32) d))

/-- One term of the quadratic form: a centre difference over eight, times a diagonal entry of the inverse matrix
    (an entry `w` of the averaged matrix times the guarded reciprocal `r`), times the difference again. -/
def quad (du w r : EReal) : EReal := Ideal.div du (Ideal.ofBits .f32 0x41000000#32) * (w * r) * du

/-- The quadratic form: the literal zero the sum starts from, plus the two terms. -/
def quadSum (uy ux vy vx s00 s11 d : EReal) : EReal :=
  Ideal.ofBits .f32 0x00000000#32 + (quad (uy - vy) s11 (invDet d) + quad (ux - vx) s00 (invDet d))

/-- The logarithmic term: one half of the logarithm of the averaged matrix's determinant over the geometric mean of
    the two boxes' determinants. -/
def logTerm (d da dc : EReal) : EReal :=
  Ideal.ofBits .f32 0x3F000000#32 * Ideal.log (Ideal.div d (Ideal.sqrt (da * dc)))

/-- From the distance `B` to the score: one minus the square root of `max (1 - exp (-B)) ε`. -/
def score (B : EReal) : EReal :=
  Ideal.ofBits .f32 0x3F800000#32
    - Ideal.sqrt (max (Ideal.ofBits .f32 0x3F800000#32 - Ideal.exp (-B)) (Ideal.ofBits .f32 0x2B8CBCCC#32))

/-- The reference's value for one pair: the row box has centre `(uy, ux)` and matrix entries `a..`, the column box
    centre `(vy, vx)` and entries `c..`. -/
def refPair (uy ux vy vx a00 a01 a10 a11 c00 c01 c10 c11 : EReal) : EReal :=
  score (quadSum uy ux vy vx (avg a00 c00) (avg a11 c11)
      (det2 (avg a00 c00) (avg a01 c01) (avg a10 c10) (avg a11 c11))
    + logTerm (det2 (avg a00 c00) (avg a01 c01) (avg a10 c10) (avg a11 c11))
        (det2 a00 a01 a10 a11) (det2 c00 c01 c10 c11))

/-! ## The stages at an index -/

/-- The averaged matrix at a pair, entry `(p, q)`. -/
theorem v62_at (a0 : Arr0) (a1 : Arr1) (b : Fin 4) (i j : Fin 2048) (p q : Fin 2) :
    ReadP.val_main_v62 (F := Ideal) a0 a1 (ix5 b i j p q)
      = avg (ReadP.val_main_v49 (F := Ideal) a0 a1 (ix4 b i p q)) (ReadP.val_main_v49 (F := Ideal) a0 a1 (ix4 b j p q)) := by
  rw [ReadP.val_main_v62_apply, ReadP.val_main_v60_apply, ReadP.val_main_v58_apply, ReadP.val_main_v56_apply,
    ReadP.val_main_v59_apply, ReadP.val_main_v57_apply, ReadP.val_main_v61_apply, ReadP.val_main_cst_4_apply]
  have e1 : ReadP.idx_main_v56 (ReadP.idx_main_v58 (ix5 b i j p q)) = ix4 b i p q := by
    funext a; match a with | ⟨0, _⟩ => rfl | ⟨1, _⟩ => rfl | ⟨2, _⟩ => rfl | ⟨3, _⟩ => rfl
  have e2 : ReadP.idx_main_v57 (ReadP.idx_main_v59 (ix5 b i j p q)) = ix4 b j p q := by
    funext a; match a with | ⟨0, _⟩ => rfl | ⟨1, _⟩ => rfl | ⟨2, _⟩ => rfl | ⟨3, _⟩ => rfl
  rw [e1, e2]
  rfl

/-- Entry `(0, 0)` of the averaged matrix, as the reference slices it out and drops the unit axes. -/
theorem v64_at (a0 : Arr0) (a1 : Arr1) (b : Fin 4) (i j : Fin 2048) :
    ReadP.val_main_v64 (F := Ideal) a0 a1 (ix3 b i j) = ReadP.val_main_v62 (F := Ideal) a0 a1 (ix5 b i j 0 0) := by
  rw [ReadP.val_main_v64_apply, ReadP.val_main_v63_apply]
  refine congrArg _ (funext fun a => Fin.ext ?_)
  have hb := b.isLt; have hi := i.isLt; have hj := j.isLt
  match a with
  | ⟨0, _⟩ => show ((b.val * 2048 + i.val) * 2048 + j.val) / 4194304 = b.val; omega
  | ⟨1, _⟩ => show ((b.val * 2048 + i.val) * 2048 + j.val) / 2048 % 2048 = i.val; omega
  | ⟨2, _⟩ => show ((b.val * 2048 + i.val) * 2048 + j.val) / 1 % 2048 = j.val; omega
  | ⟨3, _⟩ => rfl
  | ⟨4, _⟩ => rfl

/-- Entry `(0, 1)` of the averaged matrix, as the reference slices it out and drops the unit axes. -/
theorem v66_at (a0 : Arr0) (a1 : Arr1) (b : Fin 4) (i j : Fin 2048) :
    ReadP.val_main_v66 (F := Ideal) a0 a1 (ix3 b i j) = ReadP.val_main_v62 (F := Ideal) a0 a1 (ix5 b i j 0 1) := by
  rw [ReadP.val_main_v66_apply, ReadP.val_main_v65_apply]
  refine congrArg _ (funext fun a => Fin.ext ?_)
  have hb := b.isLt; have hi := i.isLt; have hj := j.isLt
  match a with
  | ⟨0, _⟩ => show ((b.val * 2048 + i.val) * 2048 + j.val) / 4194304 = b.val; omega
  | ⟨1, _⟩ => show ((b.val * 2048 + i.val) * 2048 + j.val) / 2048 % 2048 = i.val; omega
  | ⟨2, _⟩ => show ((b.val * 2048 + i.val) * 2048 + j.val) / 1 % 2048 = j.val; omega
  | ⟨3, _⟩ => rfl
  | ⟨4, _⟩ => rfl

/-- Entry `(1, 0)` of the averaged matrix, as the reference slices it out and drops the unit axes. -/
theorem v68_at (a0 : Arr0) (a1 : Arr1) (b : Fin 4) (i j : Fin 2048) :
    ReadP.val_main_v68 (F := Ideal) a0 a1 (ix3 b i j) = ReadP.val_main_v62 (F := Ideal) a0 a1 (ix5 b i j 1 0) := by
  rw [ReadP.val_main_v68_apply, ReadP.val_main_v67_apply]
  refine congrArg _ (funext fun a => Fin.ext ?_)
  have hb := b.isLt; have hi := i.isLt; have hj := j.isLt
  match a with
  | ⟨0, _⟩ => show ((b.val * 2048 + i.val) * 2048 + j.val) / 4194304 = b.val; omega
  | ⟨1, _⟩ => show ((b.val * 2048 + i.val) * 2048 + j.val) / 2048 % 2048 = i.val; omega
  | ⟨2, _⟩ => show ((b.val * 2048 + i.val) * 2048 + j.val) / 1 % 2048 = j.val; omega
  | ⟨3, _⟩ => rfl
  | ⟨4, _⟩ => rfl

/-- Entry `(1, 1)` of the averaged matrix, as the reference slices it out and drops the unit axes. -/
theorem v70_at (a0 : Arr0) (a1 : Arr1) (b : Fin 4) (i j : Fin 2048) :
    ReadP.val_main_v70 (F := Ideal) a0 a1 (ix3 b i j) = ReadP.val_main_v62 (F := Ideal) a0 a1 (ix5 b i j 1 1) := by
  rw [ReadP.val_main_v70_apply, ReadP.val_main_v69_apply]
  refine congrArg _ (funext fun a => Fin.ext ?_)
  have hb := b.isLt; have hi := i.isLt; have hj := j.isLt
  match a with
  | ⟨0, _⟩ => show ((b.val * 2048 + i.val) * 2048 + j.val) / 4194304 = b.val; omega
  | ⟨1, _⟩ => show ((b.val * 2048 + i.val) * 2048 + j.val) / 2048 % 2048 = i.val; omega
  | ⟨2, _⟩ => show ((b.val * 2048 + i.val) * 2048 + j.val) / 1 % 2048 = j.val; omega
  | ⟨3, _⟩ => rfl
  | ⟨4, _⟩ => rfl

/-- The determinant of the averaged matrix at a pair. -/
theorem v73_at (a0 : Arr0) (a1 : Arr1) (b : Fin 4) (i j : Fin 2048) :
    ReadP.val_main_v73 (F := Ideal) a0 a1 (ix3 b i j)
      = (det2 (avg (ReadP.val_main_v49 (F := Ideal) a0 a1 (ix4 b i 0 0)) (ReadP.val_main_v49 (F := Ideal) a0 a1 (ix4 b j 0 0))) (avg (ReadP.val_main_v49 (F := Ideal) a0 a1 (ix4 b i 0 1)) (ReadP.val_main_v49 (F := Ideal) a0 a1 (ix4 b j 0 1))) (avg (ReadP.val_main_v49 (F := Ideal) a0 a1 (ix4 b i 1 0)) (ReadP.val_main_v49 (F := Ideal) a0 a1 (ix4 b j 1 0))) (avg (ReadP.val_main_v49 (F := Ideal) a0 a1 (ix4 b i 1 1)) (ReadP.val_main_v49 (F := Ideal) a0 a1 (ix4 b j 1 1)))) := by
  rw [ReadP.val_main_v73_apply, ReadP.val_main_v71_apply, ReadP.val_main_v72_apply, v64_at, v70_at, v66_at, v68_at,
    v62_at, v62_at, v62_at, v62_at]
  rfl

/-- The guarded reciprocal, at any index, from the determinant at that index. -/
theorem v81_at (a0 : Arr0) (a1 : Arr1) (I : S4x2048x2048.Idx) :
    ReadP.val_main_v81 (F := Ideal) a0 a1 I = invDet (ReadP.val_main_v73 (F := Ideal) a0 a1 I) := by
  rw [ReadP.val_main_v81_apply, ReadP.val_main_v75_apply, ReadP.val_main_v74_apply, ReadP.val_main_cst_5_apply,
    ReadP.val_main_call1_v1_apply, ReadP.val_main_call1_v0_apply, ReadP.val_main_cst_9_apply,
    ReadP.val_main_v80_apply, ReadP.val_main_v79_apply, ReadP.val_main_cst_8_apply,
    ReadP.val_main_v78_apply, ReadP.val_main_v77_apply, ReadP.val_main_v76_apply, ReadP.val_main_cst_6_apply,
    ReadP.val_main_call0_v1_apply, ReadP.val_main_call0_v0_apply, ReadP.val_main_cst_7_apply]
  rfl

/-- The difference of the two centres' coordinate `k` at a pair. -/
theorem v55_at (a0 : Arr0) (b : Fin 4) (i j : Fin 2048) (k : Fin 2) :
    ReadP.val_main_v55 (F := Ideal) a0 (ix4 b i j k)
      = ReadP.val_main_v50 (F := Ideal) a0 (ix3 b i k) - ReadP.val_main_v50 (F := Ideal) a0 (ix3 b j k) := by
  rw [ReadP.val_main_v55_apply, ReadP.val_main_v53_apply, ReadP.val_main_v51_apply, ReadP.val_main_v54_apply,
    ReadP.val_main_v52_apply]
  have e1 : ReadP.idx_main_v51 (ReadP.idx_main_v53 (ix4 b i j k)) = ix3 b i k := by
    funext a; match a with | ⟨0, _⟩ => rfl | ⟨1, _⟩ => rfl | ⟨2, _⟩ => rfl
  have e2 : ReadP.idx_main_v52 (ReadP.idx_main_v54 (ix4 b i j k)) = ix3 b j k := by
    funext a; match a with | ⟨0, _⟩ => rfl | ⟨1, _⟩ => rfl | ⟨2, _⟩ => rfl
  rw [e1, e2]
  rfl

/-- The joined array of the two diagonal entries, first position: entry `(1, 1)` of the averaged matrix. -/
theorem v84_at0 (a0 : Arr0) (a1 : Arr1) (b : Fin 4) (i j : Fin 2048) :
    ReadP.val_main_v84 (F := Ideal) a0 a1 (ix4 b i j 0) = ReadP.val_main_v70 (F := Ideal) a0 a1 (ix3 b i j) := by
  unfold ReadP.val_main_v84
  rw [concatenate_pair_apply_left (t := S4x2048x2048x2) (s₁ := S4x2048x2048x1) (s₂ := S4x2048x2048x1) 3 _ _ _
    (ix4 b i j (0 : Fin 2)) rfl (ix4 b i j (0 : Fin 1))
    (fun c => by match c with | ⟨0, _⟩ => rfl | ⟨1, _⟩ => rfl | ⟨2, _⟩ => rfl | ⟨3, _⟩ => rfl)]
  rw [ReadP.val_main_v82_apply]
  exact congrArg _ (funext fun a => by match a with | ⟨0, _⟩ => rfl | ⟨1, _⟩ => rfl | ⟨2, _⟩ => rfl)

/-- The joined array of the two diagonal entries, second position: entry `(0, 0)` of the averaged matrix. -/
theorem v84_at1 (a0 : Arr0) (a1 : Arr1) (b : Fin 4) (i j : Fin 2048) :
    ReadP.val_main_v84 (F := Ideal) a0 a1 (ix4 b i j 1) = ReadP.val_main_v64 (F := Ideal) a0 a1 (ix3 b i j) := by
  unfold ReadP.val_main_v84
  rw [concatenate_pair_apply_right (t := S4x2048x2048x2) (s₁ := S4x2048x2048x1) (s₂ := S4x2048x2048x1) 3 _ _ _
    (ix4 b i j (1 : Fin 2)) rfl rfl (ix4 b i j (0 : Fin 1))
    (fun c hc => by
      match c with
      | ⟨0, _⟩ => rfl
      | ⟨1, _⟩ => rfl
      | ⟨2, _⟩ => rfl
      | ⟨3, _⟩ => exact absurd rfl hc)
    rfl]
  rw [ReadP.val_main_v83_apply]
  exact congrArg _ (funext fun a => by match a with | ⟨0, _⟩ => rfl | ⟨1, _⟩ => rfl | ⟨2, _⟩ => rfl)

/-- The guarded reciprocal, broadcast along the last axis. -/
theorem v86_at (a0 : Arr0) (a1 : Arr1) (b : Fin 4) (i j : Fin 2048) (k : Fin 2) :
    ReadP.val_main_v86 (F := Ideal) a0 a1 (ix4 b i j k) = ReadP.val_main_v81 (F := Ideal) a0 a1 (ix3 b i j) := by
  rw [ReadP.val_main_v86_apply, ReadP.val_main_v85_apply]
  exact congrArg _ (funext fun a => by match a with | ⟨0, _⟩ => rfl | ⟨1, _⟩ => rfl | ⟨2, _⟩ => rfl)

/-- A term of the quadratic form from the three arrays it multiplies. -/
theorem v91_gen (a0 : Arr0) (a1 : Arr1) (I : S4x2048x2048x2.Idx) :
    ReadP.val_main_v91 (F := Ideal) a0 a1 I
      = quad (ReadP.val_main_v55 (F := Ideal) a0 I) (ReadP.val_main_v84 (F := Ideal) a0 a1 I)
          (ReadP.val_main_v86 (F := Ideal) a0 a1 I) := by
  rw [ReadP.val_main_v91_apply, ReadP.val_main_v90_apply, ReadP.val_main_v89_apply, ReadP.val_main_v87_apply,
    ReadP.val_main_v88_apply, ReadP.val_main_cst_10_apply]
  rfl

/-- The quadratic form at a pair. -/
theorem v92_at (a0 : Arr0) (a1 : Arr1) (b : Fin 4) (i j : Fin 2048) :
    ReadP.val_main_v92 (F := Ideal) a0 a1 (ix3 b i j)
      = quadSum (ReadP.val_main_v50 (F := Ideal) a0 (ix3 b i 0)) (ReadP.val_main_v50 (F := Ideal) a0 (ix3 b i 1)) (ReadP.val_main_v50 (F := Ideal) a0 (ix3 b j 0)) (ReadP.val_main_v50 (F := Ideal) a0 (ix3 b j 1))
          (avg (ReadP.val_main_v49 (F := Ideal) a0 a1 (ix4 b i 0 0)) (ReadP.val_main_v49 (F := Ideal) a0 a1 (ix4 b j 0 0))) (avg (ReadP.val_main_v49 (F := Ideal) a0 a1 (ix4 b i 1 1)) (ReadP.val_main_v49 (F := Ideal) a0 a1 (ix4 b j 1 1)))
          (det2 (avg (ReadP.val_main_v49 (F := Ideal) a0 a1 (ix4 b i 0 0)) (ReadP.val_main_v49 (F := Ideal) a0 a1 (ix4 b j 0 0))) (avg (ReadP.val_main_v49 (F := Ideal) a0 a1 (ix4 b i 0 1)) (ReadP.val_main_v49 (F := Ideal) a0 a1 (ix4 b j 0 1))) (avg (ReadP.val_main_v49 (F := Ideal) a0 a1 (ix4 b i 1 0)) (ReadP.val_main_v49 (F := Ideal) a0 a1 (ix4 b j 1 0))) (avg (ReadP.val_main_v49 (F := Ideal) a0 a1 (ix4 b i 1 1)) (ReadP.val_main_v49 (F := Ideal) a0 a1 (ix4 b j 1 1)))) := by
  rw [ReadP.val_main_v92_apply, ReadP.val_main_cst_11_apply, Fin.sum_univ_two]
  have e0 : ReadP.idx_main_v92 (ix3 b i j) 0 = ix4 b i j 0 := by
    funext a; match a with | ⟨0, _⟩ => rfl | ⟨1, _⟩ => rfl | ⟨2, _⟩ => rfl | ⟨3, _⟩ => rfl
  have e1 : ReadP.idx_main_v92 (ix3 b i j) 1 = ix4 b i j 1 := by
    funext a; match a with | ⟨0, _⟩ => rfl | ⟨1, _⟩ => rfl | ⟨2, _⟩ => rfl | ⟨3, _⟩ => rfl
  rw [e0, e1, v91_gen, v91_gen, v55_at, v55_at, v84_at0, v84_at1, v86_at, v86_at, v81_at, v70_at, v64_at, v62_at, v62_at,
    v73_at]
  rfl

/-- Entry `(0, 0)` of one box's matrix, as the reference slices it out and drops the unit axes. -/
theorem v94_at (a0 : Arr0) (a1 : Arr1) (b : Fin 4) (n : Fin 2048) :
    ReadP.val_main_v94 (F := Ideal) a0 a1 (ix2 b n) = ReadP.val_main_v49 (F := Ideal) a0 a1 (ix4 b n 0 0) := by
  rw [ReadP.val_main_v94_apply, ReadP.val_main_v93_apply]
  refine congrArg _ (funext fun a => Fin.ext ?_)
  have hb := b.isLt; have hn := n.isLt
  match a with
  | ⟨0, _⟩ => show (b.val * 2048 + n.val) / 2048 = b.val; omega
  | ⟨1, _⟩ => show (b.val * 2048 + n.val) / 1 % 2048 = n.val; omega
  | ⟨2, _⟩ => rfl
  | ⟨3, _⟩ => rfl

/-- Entry `(1, 1)` of one box's matrix, as the reference slices it out and drops the unit axes. -/
theorem v96_at (a0 : Arr0) (a1 : Arr1) (b : Fin 4) (n : Fin 2048) :
    ReadP.val_main_v96 (F := Ideal) a0 a1 (ix2 b n) = ReadP.val_main_v49 (F := Ideal) a0 a1 (ix4 b n 1 1) := by
  rw [ReadP.val_main_v96_apply, ReadP.val_main_v95_apply]
  refine congrArg _ (funext fun a => Fin.ext ?_)
  have hb := b.isLt; have hn := n.isLt
  match a with
  | ⟨0, _⟩ => show (b.val * 2048 + n.val) / 2048 = b.val; omega
  | ⟨1, _⟩ => show (b.val * 2048 + n.val) / 1 % 2048 = n.val; omega
  | ⟨2, _⟩ => rfl
  | ⟨3, _⟩ => rfl

/-- Entry `(0, 1)` of one box's matrix, as the reference slices it out and drops the unit axes. -/
theorem v99_at (a0 : Arr0) (a1 : Arr1) (b : Fin 4) (n : Fin 2048) :
    ReadP.val_main_v99 (F := Ideal) a0 a1 (ix2 b n) = ReadP.val_main_v49 (F := Ideal) a0 a1 (ix4 b n 0 1) := by
  rw [ReadP.val_main_v99_apply, ReadP.val_main_v98_apply]
  refine congrArg _ (funext fun a => Fin.ext ?_)
  have hb := b.isLt; have hn := n.isLt
  match a with
  | ⟨0, _⟩ => show (b.val * 2048 + n.val) / 2048 = b.val; omega
  | ⟨1, _⟩ => show (b.val * 2048 + n.val) / 1 % 2048 = n.val; omega
  | ⟨2, _⟩ => rfl
  | ⟨3, _⟩ => rfl

/-- Entry `(1, 0)` of one box's matrix, as the reference slices it out and drops the unit axes. -/
theorem v101_at (a0 : Arr0) (a1 : Arr1) (b : Fin 4) (n : Fin 2048) :
    ReadP.val_main_v101 (F := Ideal) a0 a1 (ix2 b n) = ReadP.val_main_v49 (F := Ideal) a0 a1 (ix4 b n 1 0) := by
  rw [ReadP.val_main_v101_apply, ReadP.val_main_v100_apply]
  refine congrArg _ (funext fun a => Fin.ext ?_)
  have hb := b.isLt; have hn := n.isLt
  match a with
  | ⟨0, _⟩ => show (b.val * 2048 + n.val) / 2048 = b.val; omega
  | ⟨1, _⟩ => show (b.val * 2048 + n.val) / 1 % 2048 = n.val; omega
  | ⟨2, _⟩ => rfl
  | ⟨3, _⟩ => rfl

/-- The determinant of one box's matrix. -/
theorem v103_at (a0 : Arr0) (a1 : Arr1) (b : Fin 4) (n : Fin 2048) :
    ReadP.val_main_v103 (F := Ideal) a0 a1 (ix2 b n)
      = det2 (ReadP.val_main_v49 (F := Ideal) a0 a1 (ix4 b n 0 0)) (ReadP.val_main_v49 (F := Ideal) a0 a1 (ix4 b n 0 1)) (ReadP.val_main_v49 (F := Ideal) a0 a1 (ix4 b n 1 0)) (ReadP.val_main_v49 (F := Ideal) a0 a1 (ix4 b n 1 1)) := by
  rw [ReadP.val_main_v103_apply, ReadP.val_main_v97_apply, ReadP.val_main_v102_apply, v94_at, v96_at, v99_at, v101_at]
  rfl

/-- The product of the two boxes' determinants at a pair. -/
theorem v108_at (a0 : Arr0) (a1 : Arr1) (b : Fin 4) (i j : Fin 2048) :
    ReadP.val_main_v108 (F := Ideal) a0 a1 (ix3 b i j)
      = (det2 (ReadP.val_main_v49 (F := Ideal) a0 a1 (ix4 b i 0 0)) (ReadP.val_main_v49 (F := Ideal) a0 a1 (ix4 b i 0 1)) (ReadP.val_main_v49 (F := Ideal) a0 a1 (ix4 b i 1 0)) (ReadP.val_main_v49 (F := Ideal) a0 a1 (ix4 b i 1 1))) * (det2 (ReadP.val_main_v49 (F := Ideal) a0 a1 (ix4 b j 0 0)) (ReadP.val_main_v49 (F := Ideal) a0 a1 (ix4 b j 0 1)) (ReadP.val_main_v49 (F := Ideal) a0 a1 (ix4 b j 1 0)) (ReadP.val_main_v49 (F := Ideal) a0 a1 (ix4 b j 1 1))) := by
  rw [ReadP.val_main_v108_apply, ReadP.val_main_v106_apply, ReadP.val_main_v104_apply, ReadP.val_main_v107_apply,
    ReadP.val_main_v105_apply]
  have e1 : ReadP.idx_main_v104 (ReadP.idx_main_v106 (ix3 b i j)) = ix2 b i := by
    funext a; match a with | ⟨0, _⟩ => rfl | ⟨1, _⟩ => rfl
  have e2 : ReadP.idx_main_v105 (ReadP.idx_main_v107 (ix3 b i j)) = ix2 b j := by
    funext a; match a with | ⟨0, _⟩ => rfl | ⟨1, _⟩ => rfl
  rw [e1, e2, v103_at, v103_at]
  rfl

/-- The logarithmic term at any index, from the two determinants' arrays. -/
theorem v113_gen (a0 : Arr0) (a1 : Arr1) (I : S4x2048x2048.Idx) :
    ReadP.val_main_v113 (F := Ideal) a0 a1 I
      = Ideal.ofBits .f32 0x3F000000#32
          * Ideal.log (Ideal.div (ReadP.val_main_v73 (F := Ideal) a0 a1 I) (Ideal.sqrt (ReadP.val_main_v108 (F := Ideal) a0 a1 I))) := by
  rw [ReadP.val_main_v113_apply, ReadP.val_main_v112_apply, ReadP.val_main_cst_12_apply, ReadP.val_main_v111_apply,
    ReadP.val_main_v110_apply, ReadP.val_main_v109_apply]
  rfl

/-- The result at any index, from the distance `%114` at that index. -/
theorem v123_gen (a0 : Arr0) (a1 : Arr1) (I : S4x2048x2048.Idx) :
    ReadP.val_main_v123 (F := Ideal) a0 a1 I = score (ReadP.val_main_v114 (F := Ideal) a0 a1 I) := by
  rw [ReadP.val_main_v123_apply, ReadP.val_main_v122_apply, ReadP.val_main_cst_15_apply, ReadP.val_main_v121_apply,
    ReadP.val_main_v120_apply, ReadP.val_main_v119_apply, ReadP.val_main_cst_14_apply, ReadP.val_main_v118_apply,
    ReadP.val_main_v117_apply, ReadP.val_main_cst_13_apply, ReadP.val_main_v116_apply, ReadP.val_main_v115_apply]
  rfl

/-! ## The reference at a pair -/

/-- The reference's result at `(b, i, j)` is `refPair` of the two boxes' centres and matrix entries. -/
theorem ref_at (a0 : Arr0) (a1 : Arr1) (b : Fin 4) (i j : Fin 2048) :
    ReadP.val_main_v123 (F := Ideal) a0 a1 (ix3 b i j)
      = refPair (ReadP.val_main_v50 (F := Ideal) a0 (ix3 b i 0)) (ReadP.val_main_v50 (F := Ideal) a0 (ix3 b i 1))
          (ReadP.val_main_v50 (F := Ideal) a0 (ix3 b j 0)) (ReadP.val_main_v50 (F := Ideal) a0 (ix3 b j 1))
          (ReadP.val_main_v49 (F := Ideal) a0 a1 (ix4 b i 0 0)) (ReadP.val_main_v49 (F := Ideal) a0 a1 (ix4 b i 0 1))
          (ReadP.val_main_v49 (F := Ideal) a0 a1 (ix4 b i 1 0)) (ReadP.val_main_v49 (F := Ideal) a0 a1 (ix4 b i 1 1))
          (ReadP.val_main_v49 (F := Ideal) a0 a1 (ix4 b j 0 0)) (ReadP.val_main_v49 (F := Ideal) a0 a1 (ix4 b j 0 1))
          (ReadP.val_main_v49 (F := Ideal) a0 a1 (ix4 b j 1 0)) (ReadP.val_main_v49 (F := Ideal) a0 a1 (ix4 b j 1 1)) := by
  rw [v123_gen, ReadP.val_main_v114_apply, v113_gen, v92_at, v73_at, v108_at]
  rfl

/-! ## The matrix `sigma` is symmetric

`sigma = (delta · R) · R` contracted as the reference's two products do, with `delta` the half sizes times the
two-by-two identity. The identity's off-diagonal entries are zero, so each product's sum over two terms keeps one
term, and both off-diagonal entries of `sigma` are `delta₀₀ R₀₀ R₁₀ + delta₁₁ R₀₁ R₁₁` up to the order of the
factors. Only `x * 0 = 0`, `0 * x = 0`, `x * 1 = x`, `0 + x = x`, `x + 0 = x` and the commutativity and
associativity of the product are used: they hold for every extended real. -/

/-- A sum of two products whose second term carries a zero factor, the first a unit factor. -/
theorem diag_fst (d0 d1 r0 r1 : EReal) : d0 * 1 * r0 + d1 * 0 * r1 = d0 * r0 := by
  rw [mul_one, mul_zero, zero_mul, add_zero]

/-- A sum of two products whose first term carries a zero factor, the second a unit factor. -/
theorem diag_snd (d0 d1 r0 r1 : EReal) : d0 * 0 * r0 + d1 * 1 * r1 = d1 * r1 := by
  rw [mul_zero, zero_mul, zero_add, mul_one]

/-- The two off-diagonal entries differ by the order of two factors in each term. -/
theorem symm_alg (d0 d1 r00 r01 r10 r11 : EReal) :
    d0 * r00 * r10 + d1 * r01 * r11 = d0 * r10 * r00 + d1 * r11 * r01 := by
  rw [mul_right_comm d0 r00 r10, mul_right_comm d1 r01 r11]

/-- The broadcast identity at `(m, r)`: the bit "row equals column", read as a number. -/
theorem v46_at (b : Fin 4) (n : Fin 2048) (m r : Fin 2) :
    ReadP.val_main_v46 (F := Ideal) (ix4 b n m r)
      = (((IntOp.cmpi .eq (IntOp.addi (BitVec.ofNat 32 m.val) 0#32) (BitVec.ofNat 32 r.val)).toNat : ℝ) : EReal) := by
  rw [ReadP.val_main_v46_apply, ReadP.val_main_v44_apply, ReadP.val_main_v43_apply, ReadP.val_main_v42_apply,
    ReadP.val_main_v41_apply, ReadP.val_main_v38_apply, ReadP.val_main_v39_apply, ReadP.val_main_v40_apply,
    ReadP.val_main_c_apply]
  rfl

/-- The identity's entry `(0, 0)` is one. -/
theorem eye_00 (b : Fin 4) (n : Fin 2048) : ReadP.val_main_v46 (F := Ideal) (ix4 b n 0 0) = 1 := by
  rw [v46_at]
  have h : IntOp.cmpi .eq (IntOp.addi (BitVec.ofNat 32 (0 : Fin 2).val) 0#32) (BitVec.ofNat 32 (0 : Fin 2).val) = 1#1 := by
    decide
  rw [h]
  show (((1 : ℕ) : ℝ) : EReal) = 1
  rw [Nat.cast_one, EReal.coe_one]

/-- The identity's entry `(0, 1)` is zero. -/
theorem eye_01 (b : Fin 4) (n : Fin 2048) : ReadP.val_main_v46 (F := Ideal) (ix4 b n 0 1) = 0 := by
  rw [v46_at]
  have h : IntOp.cmpi .eq (IntOp.addi (BitVec.ofNat 32 (0 : Fin 2).val) 0#32) (BitVec.ofNat 32 (1 : Fin 2).val) = 0#1 := by
    decide
  rw [h]
  show (((0 : ℕ) : ℝ) : EReal) = 0
  rw [Nat.cast_zero, EReal.coe_zero]

/-- The identity's entry `(1, 0)` is zero. -/
theorem eye_10 (b : Fin 4) (n : Fin 2048) : ReadP.val_main_v46 (F := Ideal) (ix4 b n 1 0) = 0 := by
  rw [v46_at]
  have h : IntOp.cmpi .eq (IntOp.addi (BitVec.ofNat 32 (1 : Fin 2).val) 0#32) (BitVec.ofNat 32 (0 : Fin 2).val) = 0#1 := by
    decide
  rw [h]
  show (((0 : ℕ) : ℝ) : EReal) = 0
  rw [Nat.cast_zero, EReal.coe_zero]

/-- The identity's entry `(1, 1)` is one. -/
theorem eye_11 (b : Fin 4) (n : Fin 2048) : ReadP.val_main_v46 (F := Ideal) (ix4 b n 1 1) = 1 := by
  rw [v46_at]
  have h : IntOp.cmpi .eq (IntOp.addi (BitVec.ofNat 32 (1 : Fin 2).val) 0#32) (BitVec.ofNat 32 (1 : Fin 2).val) = 1#1 := by
    decide
  rw [h]
  show (((1 : ℕ) : ℝ) : EReal) = 1
  rw [Nat.cast_one, EReal.coe_one]

/-- The first product at an index: a sum of two terms. -/
theorem v48_at (a0 : Arr0) (a1 : Arr1) (b : Fin 4) (n : Fin 2048) (r s : Fin 2) :
    ReadP.val_main_v48 (F := Ideal) a0 a1 (ix4 b n r s)
      = ReadP.val_main_v47 (F := Ideal) a0 a1 (ix4 b n 0 r) * ReadP.val_main_v34 (F := Ideal) a1 (ix4 b n s 0)
        + ReadP.val_main_v47 (F := Ideal) a0 a1 (ix4 b n 1 r) * ReadP.val_main_v34 (F := Ideal) a1 (ix4 b n s 1) := by
  rw [ReadP.val_main_v48_apply, Fin.sum_univ_two]
  have l0 : ReadP.lidx_main_v48 (ix4 b n r s) 0 = ix4 b n 0 r := by
    funext a; match a with | ⟨0, _⟩ => rfl | ⟨1, _⟩ => rfl | ⟨2, _⟩ => rfl | ⟨3, _⟩ => rfl
  have l1 : ReadP.lidx_main_v48 (ix4 b n r s) 1 = ix4 b n 1 r := by
    funext a; match a with | ⟨0, _⟩ => rfl | ⟨1, _⟩ => rfl | ⟨2, _⟩ => rfl | ⟨3, _⟩ => rfl
  have r0 : ReadP.ridx_main_v48 (ix4 b n r s) 0 = ix4 b n s 0 := by
    funext a; match a with | ⟨0, _⟩ => rfl | ⟨1, _⟩ => rfl | ⟨2, _⟩ => rfl | ⟨3, _⟩ => rfl
  have r1 : ReadP.ridx_main_v48 (ix4 b n r s) 1 = ix4 b n s 1 := by
    funext a; match a with | ⟨0, _⟩ => rfl | ⟨1, _⟩ => rfl | ⟨2, _⟩ => rfl | ⟨3, _⟩ => rfl
  rw [l0, l1, r0, r1]

/-- The second product, `sigma`, at an index: a sum of two terms. -/
theorem sg_at (a0 : Arr0) (a1 : Arr1) (b : Fin 4) (n : Fin 2048) (r s : Fin 2) :
    ReadP.val_main_v49 (F := Ideal) a0 a1 (ix4 b n r s)
      = ReadP.val_main_v48 (F := Ideal) a0 a1 (ix4 b n 0 r) * ReadP.val_main_v34 (F := Ideal) a1 (ix4 b n s 0)
        + ReadP.val_main_v48 (F := Ideal) a0 a1 (ix4 b n 1 r) * ReadP.val_main_v34 (F := Ideal) a1 (ix4 b n s 1) := by
  rw [ReadP.val_main_v49_apply, Fin.sum_univ_two]
  have l0 : ReadP.lidx_main_v49 (ix4 b n r s) 0 = ix4 b n 0 r := by
    funext a; match a with | ⟨0, _⟩ => rfl | ⟨1, _⟩ => rfl | ⟨2, _⟩ => rfl | ⟨3, _⟩ => rfl
  have l1 : ReadP.lidx_main_v49 (ix4 b n r s) 1 = ix4 b n 1 r := by
    funext a; match a with | ⟨0, _⟩ => rfl | ⟨1, _⟩ => rfl | ⟨2, _⟩ => rfl | ⟨3, _⟩ => rfl
  have r0 : ReadP.ridx_main_v49 (ix4 b n r s) 0 = ix4 b n s 0 := by
    funext a; match a with | ⟨0, _⟩ => rfl | ⟨1, _⟩ => rfl | ⟨2, _⟩ => rfl | ⟨3, _⟩ => rfl
  have r1 : ReadP.ridx_main_v49 (ix4 b n r s) 1 = ix4 b n s 1 := by
    funext a; match a with | ⟨0, _⟩ => rfl | ⟨1, _⟩ => rfl | ⟨2, _⟩ => rfl | ⟨3, _⟩ => rfl
  rw [l0, l1, r0, r1]

/-- Row zero of the first product keeps the identity's `(0, 0)` term. -/
theorem v48_row0 (a0 : Arr0) (a1 : Arr1) (b : Fin 4) (n : Fin 2048) (s : Fin 2) :
    ReadP.val_main_v48 (F := Ideal) a0 a1 (ix4 b n 0 s)
      = ReadP.val_main_v45 (F := Ideal) a0 a1 (ix4 b n 0 0) * ReadP.val_main_v34 (F := Ideal) a1 (ix4 b n s 0) := by
  rw [v48_at, ReadP.val_main_v47_apply, ReadP.val_main_v47_apply, eye_00, eye_10]
  exact diag_fst _ _ _ _

/-- Row one of the first product keeps the identity's `(1, 1)` term. -/
theorem v48_row1 (a0 : Arr0) (a1 : Arr1) (b : Fin 4) (n : Fin 2048) (s : Fin 2) :
    ReadP.val_main_v48 (F := Ideal) a0 a1 (ix4 b n 1 s)
      = ReadP.val_main_v45 (F := Ideal) a0 a1 (ix4 b n 1 1) * ReadP.val_main_v34 (F := Ideal) a1 (ix4 b n s 1) := by
  rw [v48_at, ReadP.val_main_v47_apply, ReadP.val_main_v47_apply, eye_01, eye_11]
  exact diag_snd _ _ _ _

/-- The matrix `sigma` of every box is symmetric. -/
theorem sg_symm (a0 : Arr0) (a1 : Arr1) (b : Fin 4) (n : Fin 2048) :
    ReadP.val_main_v49 (F := Ideal) a0 a1 (ix4 b n 0 1) = ReadP.val_main_v49 (F := Ideal) a0 a1 (ix4 b n 1 0) := by
  rw [sg_at, sg_at, v48_row0, v48_row1, v48_row0, v48_row1]
  exact symm_alg _ _ _ _ _ _

end Cert.IoU.Ref

end
-- ==== Proof.PairEq.lean ====
/-
  The pairwise algebra: the kernel's value for one (row box, column box) pair is the reference's.

  Both sides are spelled on the extended reals with the same operations in the same order, but for five places:
  the kernel multiplies by the literals 0.5 and 0.125 where the reference divides by the literals 2 and 8; the
  kernel squares the off-diagonal entry b where the reference multiplies the two off-diagonal entries, equal for a
  symmetric matrix; the reference's two-term sum starts from the literal zero; and the kernel writes 0 - B where the
  reference negates B. Division by a nonzero real is the product with its reciprocal on every extended real, the
  infinities included, and 0 + x = x, 0 - x = -x hold on every extended real: no step needs a finite input, and
  neither commutativity nor distributivity is used.
-/
import proofs.«160324_j35416300323280_1_alg».proof.Proof.KerPair
import proofs.«160324_j35416300323280_1_alg».proof.Proof.RefPair
import Idealize.ShloMosaic.PureOps.Ideal.Laws

noncomputable section

namespace Cert.IoU.Ker

open Idealize.ShloMosaic Cert.IoU.Ref

/-! ## The four literals whose values matter -/

/-- The pattern 0x3F000000 is one half. -/
theorem ofBits_half : Ideal.ofBits .f32 0x3F000000#32 = (((1 : ℝ) / 2 : ℝ) : EReal) := by
  simp [Ideal.ofBits, Ideal.ieee, -EReal.coe_mul]; norm_num

/-- The pattern 0x40000000 is two. -/
theorem ofBits_two : Ideal.ofBits .f32 0x40000000#32 = ((2 : ℝ) : EReal) := by
  simp [Ideal.ofBits, Ideal.ieee, -EReal.coe_mul]; norm_num

/-- The pattern 0x3E000000 is one eighth. -/
theorem ofBits_eighth : Ideal.ofBits .f32 0x3E000000#32 = (((1 : ℝ) / 8 : ℝ) : EReal) := by
  simp [Ideal.ofBits, Ideal.ieee, -EReal.coe_mul]; norm_num

/-- The pattern 0x41000000 is eight. -/
theorem ofBits_eight : Ideal.ofBits .f32 0x41000000#32 = ((8 : ℝ) : EReal) := by
  simp [Ideal.ofBits, Ideal.ieee, -EReal.coe_mul]; norm_num

/-- Halving by the product with 0.5 is the division by 2, on every extended real. -/
theorem mul_half_eq_div_two (x : EReal) :
    x * Ideal.ofBits .f32 0x3F000000#32 = Ideal.div x (Ideal.ofBits .f32 0x40000000#32) := by
  rw [ofBits_half, ofBits_two, Ideal.div_coe (by norm_num)]

/-- The product with 0.125 is the division by 8, on every extended real. -/
theorem mul_eighth_eq_div_eight (x : EReal) :
    x * Ideal.ofBits .f32 0x3E000000#32 = Ideal.div x (Ideal.ofBits .f32 0x41000000#32) := by
  rw [ofBits_eighth, ofBits_eight, Ideal.div_coe (by norm_num)]

/-! ## The kernel's pair formula is the reference's -/

/-- The kernel's mean of two entries is the reference's. -/
theorem kerMean_eq_avg (x y : EReal) : kerMean x y = avg x y := mul_half_eq_div_two (x + y)

/-- THE PAIRWISE ALGEBRA. For symmetric matrices (a b; b d) and (a' b'; b' d') whose determinants are passed as
    a*d - b*b and a'*d' - b'*b', the kernel's value for the pair is the reference's. The two spell the same
    operations but for: a product with 0.5 against a division by 2 and a product with 0.125 against a division by 8
    (equal on every extended real, the infinities included); the off-diagonal product b*b against b*c at c = b; a
    sum started from the literal zero; and 0 - B against -B. No step needs a finite input. -/
theorem pair_eq (uy ux a b d vy vx a' b' d' : EReal) :
    kerPair uy ux a b d (a * d - b * b) vy vx a' b' d' (a' * d' - b' * b')
      = refPair uy ux vy vx a b b d a' b' b' d' := by
  unfold kerPair kerTail kerDet refPair score quadSum quad logTerm
  simp only [kerMean_eq_avg]
  rw [mul_eighth_eq_div_eight, mul_eighth_eq_div_eight, Ideal.ofBits_zero_f32, zero_sub, zero_add]
  rfl

/-- The same with the two determinants as hypotheses, for a caller whose spelling of them differs. -/
theorem pair_eq' (uy ux a b d rdet vy vx a' b' d' cdet : EReal) (hr : rdet = a * d - b * b)
    (hc : cdet = a' * d' - b' * b') :
    kerPair uy ux a b d rdet vy vx a' b' d' cdet = refPair uy ux vy vx a b b d a' b' b' d' := by
  rw [hr, hc]; exact pair_eq uy ux a b d vy vx a' b' d'

end Cert.IoU.Ker

end
-- ==== Proof.Joint.lean ====
/-
  The joint theorem: the all-pairs array of the host's feature stack is the reference's result.

  The row features of box (b, r) are its centre, the three distinct entries of its symmetric covariance and the
  determinant of that matrix; the column features are the same per column box. So the all-pairs formula at (b, r, s)
  is the kernel's pair formula of the two boxes' centres, covariance entries and determinants, which the pairwise
  algebra identifies with the reference's pair formula; the reference's result at (b, r, s) is that formula of the
  same centres and covariances, whose off-diagonal entries are equal.
-/
import proofs.«160324_j35416300323280_1_alg».proof.Proof.PairsArray
import proofs.«160324_j35416300323280_1_alg».proof.Proof.FeatAt
import proofs.«160324_j35416300323280_1_alg».proof.Proof.RefPair
import proofs.«160324_j35416300323280_1_alg».proof.Proof.PairEq

noncomputable section

namespace Cert.IoU.Joint

open Idealize.ShloMosaic Idealize.ShloMosaic.ValueIdx
open Cert.KernelIdeal.HandValue (allPairs pairAt)
open Cert.KernelIdeal.HandHost
open Cert.IoU.Ref (refPair Arr0 Arr1 ref_at sg_symm)
open Cert.IoU.Ker (kerPair pair_eq)

/-- The all-pairs formula of the host's two feature arrays, at one pair, in terms of the centres and covariances. -/
theorem pairAt_feat (U : FVec Ideal Cert.KernelIdeal.S4x2048x2 .f32) (Sg : FVec Ideal Cert.KernelIdeal.S4x2048x2x2 .f32)
    (b : Fin 4) (r s : Fin 2048) :
    pairAt (feat U Sg) (featT U Sg) b r s
      = kerPair (U (ix3 b r 0)) (U (ix3 b r 1)) (Sg (ix4 b r 0 0)) (Sg (ix4 b r 0 1)) (Sg (ix4 b r 1 1))
          (Sg (ix4 b r 0 0) * Sg (ix4 b r 1 1) - Sg (ix4 b r 0 1) * Sg (ix4 b r 0 1))
          (U (ix3 b s 0)) (U (ix3 b s 1)) (Sg (ix4 b s 0 0)) (Sg (ix4 b s 0 1)) (Sg (ix4 b s 1 1))
          (Sg (ix4 b s 0 0) * Sg (ix4 b s 1 1) - Sg (ix4 b s 0 1) * Sg (ix4 b s 0 1)) := by
  unfold pairAt
  rw [featT_at U Sg b s 0, featT_at U Sg b s 1, featT_at U Sg b s 2, featT_at U Sg b s 3, featT_at U Sg b s 4,
    featT_at U Sg b s 5, feat_at0 U Sg b r, feat_at1 U Sg b r, feat_at2 U Sg b r, feat_at3 U Sg b r, feat_at4 U Sg b r,
    feat_at5 U Sg b r, feat_at0 U Sg b s, feat_at1 U Sg b s, feat_at2 U Sg b s, feat_at3 U Sg b s, feat_at4 U Sg b s,
    feat_at5 U Sg b s]

/-- The all-pairs array of the feature stack of centres U and covariances Sg is any array V that reads, at every
    pair, the reference's pair formula of the two boxes' centres and covariance entries, provided the covariances
    are symmetric. -/
theorem joint_of (U : FVec Ideal Cert.KernelIdeal.S4x2048x2 .f32) (Sg : FVec Ideal Cert.KernelIdeal.S4x2048x2x2 .f32)
    (V : Cert.KernelIdeal.S4x2048x2048.Idx → EReal)
    (hV : ∀ (b : Fin 4) (i j : Fin 2048), V (ix3 b i j)
      = refPair (U (ix3 b i 0)) (U (ix3 b i 1)) (U (ix3 b j 0)) (U (ix3 b j 1))
          (Sg (ix4 b i 0 0)) (Sg (ix4 b i 0 1)) (Sg (ix4 b i 1 0)) (Sg (ix4 b i 1 1))
          (Sg (ix4 b j 0 0)) (Sg (ix4 b j 0 1)) (Sg (ix4 b j 1 0)) (Sg (ix4 b j 1 1)))
    (hsym : ∀ (b : Fin 4) (n : Fin 2048), Sg (ix4 b n 0 1) = Sg (ix4 b n 1 0)) :
    allPairs (feat U Sg) (featT U Sg) = V := by
  funext i
  obtain ⟨b, r, s, rfl⟩ : ∃ (b : Fin 4) (r s : Fin 2048), i = ix3 b r s := ⟨i 0, i 1, i 2, eq_ix3 i⟩
  show pairAt (feat U Sg) (featT U Sg) b r s = _
  rw [pairAt_feat, hV, ← hsym b r, ← hsym b s]
  exact pair_eq _ _ _ _ _ _ _ _ _ _

/-- THE JOINT THEOREM: with the centres and covariances the reference computes from the arguments, the all-pairs array
    of their feature stack and its transpose is the reference's result. -/
theorem joint (a0 : Arr0) (a1 : Arr1) :
    Cert.KernelIdeal.HandValue.allPairs
        (Cert.KernelIdeal.HandHost.feat (F := Ideal) (Cert.ReferenceIdeal.ReadP.val_main_v50 (F := Ideal) a0)
          (Cert.ReferenceIdeal.ReadP.val_main_v49 (F := Ideal) a0 a1))
        (Cert.KernelIdeal.HandHost.featT (F := Ideal) (Cert.ReferenceIdeal.ReadP.val_main_v50 (F := Ideal) a0)
          (Cert.ReferenceIdeal.ReadP.val_main_v49 (F := Ideal) a0 a1))
      = Cert.ReferenceIdeal.ReadP.val_main_v123 (F := Ideal) a0 a1 :=
  joint_of (Cert.ReferenceIdeal.ReadP.val_main_v50 (F := Ideal) a0) (Cert.ReferenceIdeal.ReadP.val_main_v49 (F := Ideal) a0 a1)
    (Cert.ReferenceIdeal.ReadP.val_main_v123 (F := Ideal) a0 a1) (ref_at a0 a1) (sg_symm a0 a1)

end Cert.IoU.Joint

end
-- ==== Proof.RefRun.lean ====
import proofs.«160324_j35416300323280_1_alg».proof.Proof.RefRunP
import proofs.«160324_j35416300323280_1_alg».proof.Proof.RefReadP

/-! # The reference's run, against its stage functions

The reference program's @main is a straight line of 146 host operations. Its buffers after the run are the fold of
the operations' results over the launch contents. This module shows that the fold leaves, in the buffer of the last
operation, the stage function `val_main_v123` of the two arguments, and leaves the two arguments as they were.

The line is cut into four parts. Each part is evaluated from ARBITRARY buffer contents `W`: where `W` holds, in the few
buffers the part reads from earlier parts, the stage functions of some arrays `x0`, `x1`, the part leaves the stage
functions of the same arrays in the buffers later parts read. No comparison then goes deeper than one part. -/

set_option maxRecDepth 16384

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The buffers after two lines run in order. -/
theorem after_append {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => simp only [List.cons_append, after_cons, ih]

/-! ## The four parts -/

set_option maxHeartbeats 40000000 in
/-- Operations 1 to 57: the preamble, up to the matrices `%49` and the centres `%50`. -/
def opsA : List (HloOp τ sig (Elt F)) :=
  [ nullary main_cst (constant S_ .f32 0x00000000#32),
    binary main_arg0 main_cst main_v0 ((fun x v => Host.reduceAdd x v reducesTo_S4x2048x4x2_S4x2048x2_d2 h_S_) : (⟨S4x2048x4x2, .f32⟩ : BufTy).Contents (Elt F) → (⟨S_, .f32⟩ : BufTy).Contents (Elt F) → (⟨S4x2048x2, .f32⟩ : BufTy).Contents (Elt F)),
    unary main_v0 main_v1 (broadcastInDim S4x2048x1x2 ![0, 1, 3] bcast_S4x2048x2_S4x2048x1x2_0_1_3 : (⟨S4x2048x2, .f32⟩ : BufTy).Contents (Elt F) → (⟨S4x2048x1x2, .f32⟩ : BufTy).Contents (Elt F)),
    nullary main_cst_0 (constant S_ .f32 0x40800000#32),
    unary main_cst_0 main_v2 (broadcastInDim S4x2048x1x2 ![] bcast_S_S4x2048x1x2 : (⟨S_, .f32⟩ : BufTy).Contents (Elt F) → (⟨S4x2048x1x2, .f32⟩ : BufTy).Contents (Elt F)),
    binary main_v1 main_v2 main_v3 (Host.divf : (⟨S4x2048x1x2, .f32⟩ : BufTy).Contents (Elt F) → (⟨S4x2048x1x2, .f32⟩ : BufTy).Contents (Elt F) → (⟨S4x2048x1x2, .f32⟩ : BufTy).Contents (Elt F)),
    unary main_v3 main_v4 (broadcastInDim S4x2048x4x2 ![0, 1, 2, 3] bcast_S4x2048x1x2_S4x2048x4x2_0_1_2_3 : (⟨S4x2048x1x2, .f32⟩ : BufTy).Contents (Elt F) → (⟨S4x2048x4x2, .f32⟩ : BufTy).Contents (Elt F)),
    binary main_arg0 main_v4 main_v5 (subf : (⟨S4x2048x4x2, .f32⟩ : BufTy).Contents (Elt F) → (⟨S4x2048x4x2, .f32⟩ : BufTy).Contents (Elt F) → (⟨S4x2048x4x2, .f32⟩ : BufTy).Contents (Elt F)),
    unary main_arg1 main_v6 (Host.negf : (⟨S4x2048, .f32⟩ : BufTy).Contents (Elt F) → (⟨S4x2048, .f32⟩ : BufTy).Contents (Elt F)),
    unary main_v6 main_v7 (Host.cos : (⟨S4x2048, .f32⟩ : BufTy).Contents (Elt F) → (⟨S4x2048, .f32⟩ : BufTy).Contents (Elt F)),
    unary main_v6 main_v8 (Host.sin : (⟨S4x2048, .f32⟩ : BufTy).Contents (Elt F) → (⟨S4x2048, .f32⟩ : BufTy).Contents (Elt F)),
    unary main_v8 main_v9 (Host.negf : (⟨S4x2048, .f32⟩ : BufTy).Contents (Elt F) → (⟨S4x2048, .f32⟩ : BufTy).Contents (Elt F)),
    unary main_v7 main_v10 (broadcastInDim S4x2048x1 ![0, 1] bcast_S4x2048_S4x2048x1_0_1 : (⟨S4x2048, .f32⟩ : BufTy).Contents (Elt F) → (⟨S4x2048x1, .f32⟩ : BufTy).Contents (Elt F)),
    unary main_v9 main_v11 (broadcastInDim S4x2048x1 ![0, 1] bcast_S4x2048_S4x2048x1_0_1 : (⟨S4x2048, .f32⟩ : BufTy).Contents (Elt F) → (⟨S4x2048x1, .f32⟩ : BufTy).Contents (Elt F)),
    binary main_v10 main_v11 main_v12 ((fun a b => concatenate S4x2048x2 2 [⟨S4x2048x1, a⟩, ⟨S4x2048x1, b⟩] concatenates_S4x2048x1_S4x2048x1_S4x2048x2_d2) : (⟨S4x2048x1, .f32⟩ : BufTy).Contents (Elt F) → (⟨S4x2048x1, .f32⟩ : BufTy).Contents (Elt F) → (⟨S4x2048x2, .f32⟩ : BufTy).Contents (Elt F)),
    unary main_v8 main_v13 (broadcastInDim S4x2048x1 ![0, 1] bcast_S4x2048_S4x2048x1_0_1 : (⟨S4x2048, .f32⟩ : BufTy).Contents (Elt F) → (⟨S4x2048x1, .f32⟩ : BufTy).Contents (Elt F)),
    unary main_v7 main_v14 (broadcastInDim S4x2048x1 ![0, 1] bcast_S4x2048_S4x2048x1_0_1 : (⟨S4x2048, .f32⟩ : BufTy).Contents (Elt F) → (⟨S4x2048x1, .f32⟩ : BufTy).Contents (Elt F)),
    binary main_v13 main_v14 main_v15 ((fun a b => concatenate S4x2048x2 2 [⟨S4x2048x1, a⟩, ⟨S4x2048x1, b⟩] concatenates_S4x2048x1_S4x2048x1_S4x2048x2_d2) : (⟨S4x2048x1, .f32⟩ : BufTy).Contents (Elt F) → (⟨S4x2048x1, .f32⟩ : BufTy).Contents (Elt F) → (⟨S4x2048x2, .f32⟩ : BufTy).Contents (Elt F)),
    unary main_v12 main_v16 (broadcastInDim S4x2048x1x2 ![0, 1, 3] bcast_S4x2048x2_S4x2048x1x2_0_1_3 : (⟨S4x2048x2, .f32⟩ : BufTy).Contents (Elt F) → (⟨S4x2048x1x2, .f32⟩ : BufTy).Contents (Elt F)),
    unary main_v15 main_v17 (broadcastInDim S4x2048x1x2 ![0, 1, 3] bcast_S4x2048x2_S4x2048x1x2_0_1_3 : (⟨S4x2048x2, .f32⟩ : BufTy).Contents (Elt F) → (⟨S4x2048x1x2, .f32⟩ : BufTy).Contents (Elt F)),
    binary main_v16 main_v17 main_v18 ((fun a b => concatenate S4x2048x2x2 2 [⟨S4x2048x1x2, a⟩, ⟨S4x2048x1x2, b⟩] concatenates_S4x2048x1x2_S4x2048x1x2_S4x2048x2x2_d2) : (⟨S4x2048x1x2, .f32⟩ : BufTy).Contents (Elt F) → (⟨S4x2048x1x2, .f32⟩ : BufTy).Contents (Elt F) → (⟨S4x2048x2x2, .f32⟩ : BufTy).Contents (Elt F)),
    binary main_v5 main_v18 main_v19 ((fun l r => Host.dotGeneral dot_S4x2048x4x2_S4x2048x2x2_S4x2048x4x2_3_2_2_3_01_01 none l r) : (⟨S4x2048x4x2, .f32⟩ : BufTy).Contents (Elt F) → (⟨S4x2048x2x2, .f32⟩ : BufTy).Contents (Elt F) → (⟨S4x2048x4x2, .f32⟩ : BufTy).Contents (Elt F)),
    nullary main_cst_1 (constant S_ .f32 0xFF800000#32),
    binary main_v19 main_cst_1 main_v20 ((fun x v => Host.reduce FloatOps.maximumf x v reducesTo_S4x2048x4x2_S4x2048x2_d2 h_S_) : (⟨S4x2048x4x2, .f32⟩ : BufTy).Contents (Elt F) → (⟨S_, .f32⟩ : BufTy).Contents (Elt F) → (⟨S4x2048x2, .f32⟩ : BufTy).Contents (Elt F)),
    nullary main_cst_2 (constant S_ .f32 0x7F800000#32),
    binary main_v19 main_cst_2 main_v21 ((fun x v => Host.reduce FloatOps.minimumf x v reducesTo_S4x2048x4x2_S4x2048x2_d2 h_S_) : (⟨S4x2048x4x2, .f32⟩ : BufTy).Contents (Elt F) → (⟨S_, .f32⟩ : BufTy).Contents (Elt F) → (⟨S4x2048x2, .f32⟩ : BufTy).Contents (Elt F)),
    binary main_v20 main_v21 main_v22 (subf : (⟨S4x2048x2, .f32⟩ : BufTy).Contents (Elt F) → (⟨S4x2048x2, .f32⟩ : BufTy).Contents (Elt F) → (⟨S4x2048x2, .f32⟩ : BufTy).Contents (Elt F)),
    unary main_arg1 main_v23 (Host.cos : (⟨S4x2048, .f32⟩ : BufTy).Contents (Elt F) → (⟨S4x2048, .f32⟩ : BufTy).Contents (Elt F)),
    unary main_arg1 main_v24 (Host.sin : (⟨S4x2048, .f32⟩ : BufTy).Contents (Elt F) → (⟨S4x2048, .f32⟩ : BufTy).Contents (Elt F)),
    unary main_v24 main_v25 (Host.negf : (⟨S4x2048, .f32⟩ : BufTy).Contents (Elt F) → (⟨S4x2048, .f32⟩ : BufTy).Contents (Elt F)),
    unary main_v23 main_v26 (broadcastInDim S4x2048x1 ![0, 1] bcast_S4x2048_S4x2048x1_0_1 : (⟨S4x2048, .f32⟩ : BufTy).Contents (Elt F) → (⟨S4x2048x1, .f32⟩ : BufTy).Contents (Elt F)),
    unary main_v25 main_v27 (broadcastInDim S4x2048x1 ![0, 1] bcast_S4x2048_S4x2048x1_0_1 : (⟨S4x2048, .f32⟩ : BufTy).Contents (Elt F) → (⟨S4x2048x1, .f32⟩ : BufTy).Contents (Elt F)),
    binary main_v26 main_v27 main_v28 ((fun a b => concatenate S4x2048x2 2 [⟨S4x2048x1, a⟩, ⟨S4x2048x1, b⟩] concatenates_S4x2048x1_S4x2048x1_S4x2048x2_d2) : (⟨S4x2048x1, .f32⟩ : BufTy).Contents (Elt F) → (⟨S4x2048x1, .f32⟩ : BufTy).Contents (Elt F) → (⟨S4x2048x2, .f32⟩ : BufTy).Contents (Elt F)),
    unary main_v24 main_v29 (broadcastInDim S4x2048x1 ![0, 1] bcast_S4x2048_S4x2048x1_0_1 : (⟨S4x2048, .f32⟩ : BufTy).Contents (Elt F) → (⟨S4x2048x1, .f32⟩ : BufTy).Contents (Elt F)),
    unary main_v23 main_v30 (broadcastInDim S4x2048x1 ![0, 1] bcast_S4x2048_S4x2048x1_0_1 : (⟨S4x2048, .f32⟩ : BufTy).Contents (Elt F) → (⟨S4x2048x1, .f32⟩ : BufTy).Contents (Elt F)),
    binary main_v29 main_v30 main_v31 ((fun a b => concatenate S4x2048x2 2 [⟨S4x2048x1, a⟩, ⟨S4x2048x1, b⟩] concatenates_S4x2048x1_S4x2048x1_S4x2048x2_d2) : (⟨S4x2048x1, .f32⟩ : BufTy).Contents (Elt F) → (⟨S4x2048x1, .f32⟩ : BufTy).Contents (Elt F) → (⟨S4x2048x2, .f32⟩ : BufTy).Contents (Elt F)),
    unary main_v28 main_v32 (broadcastInDim S4x2048x1x2 ![0, 1, 3] bcast_S4x2048x2_S4x2048x1x2_0_1_3 : (⟨S4x2048x2, .f32⟩ : BufTy).Contents (Elt F) → (⟨S4x2048x1x2, .f32⟩ : BufTy).Contents (Elt F)),
    unary main_v31 main_v33 (broadcastInDim S4x2048x1x2 ![0, 1, 3] bcast_S4x2048x2_S4x2048x1x2_0_1_3 : (⟨S4x2048x2, .f32⟩ : BufTy).Contents (Elt F) → (⟨S4x2048x1x2, .f32⟩ : BufTy).Contents (Elt F)),
    binary main_v32 main_v33 main_v34 ((fun a b => concatenate S4x2048x2x2 2 [⟨S4x2048x1x2, a⟩, ⟨S4x2048x1x2, b⟩] concatenates_S4x2048x1x2_S4x2048x1x2_S4x2048x2x2_d2) : (⟨S4x2048x1x2, .f32⟩ : BufTy).Contents (Elt F) → (⟨S4x2048x1x2, .f32⟩ : BufTy).Contents (Elt F) → (⟨S4x2048x2x2, .f32⟩ : BufTy).Contents (Elt F)),
    nullary main_cst_3 (constant S_ .f32 0x40000000#32),
    unary main_cst_3 main_v35 (broadcastInDim S4x2048x2 ![] bcast_S_S4x2048x2 : (⟨S_, .f32⟩ : BufTy).Contents (Elt F) → (⟨S4x2048x2, .f32⟩ : BufTy).Contents (Elt F)),
    binary main_v22 main_v35 main_v36 (Host.divf : (⟨S4x2048x2, .f32⟩ : BufTy).Contents (Elt F) → (⟨S4x2048x2, .f32⟩ : BufTy).Contents (Elt F) → (⟨S4x2048x2, .f32⟩ : BufTy).Contents (Elt F)),
    unary main_v36 main_v37 (broadcastInDim S4x2048x2x1 ![0, 1, 2] bcast_S4x2048x2_S4x2048x2x1_0_1_2 : (⟨S4x2048x2, .f32⟩ : BufTy).Contents (Elt F) → (⟨S4x2048x2x1, .f32⟩ : BufTy).Contents (Elt F)),
    nullary main_v38 (iotaInDim S2x2 32 0),
    nullary main_v39 (iotaInDim S2x2 32 1),
    nullary main_c (constantI S_ 32 0#32),
    unary main_c main_v40 (broadcastInDim S2x2 ![] bcast_S_S2x2 : (⟨S_, .i32⟩ : BufTy).Contents (Elt F) → (⟨S2x2, .i32⟩ : BufTy).Contents (Elt F)),
    binary main_v38 main_v40 main_v41 (addi : (⟨S2x2, .i32⟩ : BufTy).Contents (Elt F) → (⟨S2x2, .i32⟩ : BufTy).Contents (Elt F) → (⟨S2x2, .i32⟩ : BufTy).Contents (Elt F)),
    binary main_v41 main_v39 main_v42 (cmpi .eq : (⟨S2x2, .i32⟩ : BufTy).Contents (Elt F) → (⟨S2x2, .i32⟩ : BufTy).Contents (Elt F) → (⟨S2x2, .i1⟩ : BufTy).Contents (Elt F)),
    unary main_v42 main_v43 (uitofp .f32 : (⟨S2x2, .i1⟩ : BufTy).Contents (Elt F) → (⟨S2x2, .f32⟩ : BufTy).Contents (Elt F)),
    unary main_v43 main_v44 (broadcastInDim S1x1x2x2 ![2, 3] bcast_S2x2_S1x1x2x2_2_3 : (⟨S2x2, .f32⟩ : BufTy).Contents (Elt F) → (⟨S1x1x2x2, .f32⟩ : BufTy).Contents (Elt F)),
    unary main_v37 main_v45 (broadcastInDim S4x2048x2x2 ![0, 1, 2, 3] bcast_S4x2048x2x1_S4x2048x2x2_0_1_2_3 : (⟨S4x2048x2x1, .f32⟩ : BufTy).Contents (Elt F) → (⟨S4x2048x2x2, .f32⟩ : BufTy).Contents (Elt F)),
    unary main_v44 main_v46 (broadcastInDim S4x2048x2x2 ![0, 1, 2, 3] bcast_S1x1x2x2_S4x2048x2x2_0_1_2_3 : (⟨S1x1x2x2, .f32⟩ : BufTy).Contents (Elt F) → (⟨S4x2048x2x2, .f32⟩ : BufTy).Contents (Elt F)),
    binary main_v45 main_v46 main_v47 (mulf : (⟨S4x2048x2x2, .f32⟩ : BufTy).Contents (Elt F) → (⟨S4x2048x2x2, .f32⟩ : BufTy).Contents (Elt F) → (⟨S4x2048x2x2, .f32⟩ : BufTy).Contents (Elt F)),
    binary main_v47 main_v34 main_v48 ((fun l r => Host.dotGeneral dot_S4x2048x2x2_S4x2048x2x2_S4x2048x2x2_2_3_3_2_01_01 none l r) : (⟨S4x2048x2x2, .f32⟩ : BufTy).Contents (Elt F) → (⟨S4x2048x2x2, .f32⟩ : BufTy).Contents (Elt F) → (⟨S4x2048x2x2, .f32⟩ : BufTy).Contents (Elt F)),
    binary main_v48 main_v34 main_v49 ((fun l r => Host.dotGeneral dot_S4x2048x2x2_S4x2048x2x2_S4x2048x2x2_2_3_3_2_01_01 none l r) : (⟨S4x2048x2x2, .f32⟩ : BufTy).Contents (Elt F) → (⟨S4x2048x2x2, .f32⟩ : BufTy).Contents (Elt F) → (⟨S4x2048x2x2, .f32⟩ : BufTy).Contents (Elt F)),
    reshape main_v3 main_v50 rfl shapeCasts_S4x2048x1x2_S4x2048x2 ]

set_option maxHeartbeats 40000000 in
/-- Operations 58 to 81: the centre differences `%55`, the averaged matrix's entries and its determinant `%73`. -/
def opsB : List (HloOp τ sig (Elt F)) :=
  [ unary main_v50 main_v51 (broadcastInDim S4x2048x1x2 ![0, 1, 3] bcast_S4x2048x2_S4x2048x1x2_0_1_3 : (⟨S4x2048x2, .f32⟩ : BufTy).Contents (Elt F) → (⟨S4x2048x1x2, .f32⟩ : BufTy).Contents (Elt F)),
    unary main_v50 main_v52 (broadcastInDim S4x1x2048x2 ![0, 2, 3] bcast_S4x2048x2_S4x1x2048x2_0_2_3 : (⟨S4x2048x2, .f32⟩ : BufTy).Contents (Elt F) → (⟨S4x1x2048x2, .f32⟩ : BufTy).Contents (Elt F)),
    unary main_v51 main_v53 (broadcastInDim S4x2048x2048x2 ![0, 1, 2, 3] bcast_S4x2048x1x2_S4x2048x2048x2_0_1_2_3 : (⟨S4x2048x1x2, .f32⟩ : BufTy).Contents (Elt F) → (⟨S4x2048x2048x2, .f32⟩ : BufTy).Contents (Elt F)),
    unary main_v52 main_v54 (broadcastInDim S4x2048x2048x2 ![0, 1, 2, 3] bcast_S4x1x2048x2_S4x2048x2048x2_0_1_2_3 : (⟨S4x1x2048x2, .f32⟩ : BufTy).Contents (Elt F) → (⟨S4x2048x2048x2, .f32⟩ : BufTy).Contents (Elt F)),
    binary main_v53 main_v54 main_v55 (subf : (⟨S4x2048x2048x2, .f32⟩ : BufTy).Contents (Elt F) → (⟨S4x2048x2048x2, .f32⟩ : BufTy).Contents (Elt F) → (⟨S4x2048x2048x2, .f32⟩ : BufTy).Contents (Elt F)),
    unary main_v49 main_v56 (broadcastInDim S4x2048x1x2x2 ![0, 1, 3, 4] bcast_S4x2048x2x2_S4x2048x1x2x2_0_1_3_4 : (⟨S4x2048x2x2, .f32⟩ : BufTy).Contents (Elt F) → (⟨S4x2048x1x2x2, .f32⟩ : BufTy).Contents (Elt F)),
    unary main_v49 main_v57 (broadcastInDim S4x1x2048x2x2 ![0, 2, 3, 4] bcast_S4x2048x2x2_S4x1x2048x2x2_0_2_3_4 : (⟨S4x2048x2x2, .f32⟩ : BufTy).Contents (Elt F) → (⟨S4x1x2048x2x2, .f32⟩ : BufTy).Contents (Elt F)),
    unary main_v56 main_v58 (broadcastInDim S4x2048x2048x2x2 ![0, 1, 2, 3, 4] bcast_S4x2048x1x2x2_S4x2048x2048x2x2_0_1_2_3_4 : (⟨S4x2048x1x2x2, .f32⟩ : BufTy).Contents (Elt F) → (⟨S4x2048x2048x2x2, .f32⟩ : BufTy).Contents (Elt F)),
    unary main_v57 main_v59 (broadcastInDim S4x2048x2048x2x2 ![0, 1, 2, 3, 4] bcast_S4x1x2048x2x2_S4x2048x2048x2x2_0_1_2_3_4 : (⟨S4x1x2048x2x2, .f32⟩ : BufTy).Contents (Elt F) → (⟨S4x2048x2048x2x2, .f32⟩ : BufTy).Contents (Elt F)),
    binary main_v58 main_v59 main_v60 (addf : (⟨S4x2048x2048x2x2, .f32⟩ : BufTy).Contents (Elt F) → (⟨S4x2048x2048x2x2, .f32⟩ : BufTy).Contents (Elt F) → (⟨S4x2048x2048x2x2, .f32⟩ : BufTy).Contents (Elt F)),
    nullary main_cst_4 (constant S_ .f32 0x40000000#32),
    unary main_cst_4 main_v61 (broadcastInDim S4x2048x2048x2x2 ![] bcast_S_S4x2048x2048x2x2 : (⟨S_, .f32⟩ : BufTy).Contents (Elt F) → (⟨S4x2048x2048x2x2, .f32⟩ : BufTy).Contents (Elt F)),
    binary main_v60 main_v61 main_v62 (Host.divf : (⟨S4x2048x2048x2x2, .f32⟩ : BufTy).Contents (Elt F) → (⟨S4x2048x2048x2x2, .f32⟩ : BufTy).Contents (Elt F) → (⟨S4x2048x2048x2x2, .f32⟩ : BufTy).Contents (Elt F)),
    unary main_v62 main_v63 ((extractStridedSlice S4x2048x2048x1x1 ![0, 0, 0, 0, 0] · slices_S4x2048x2048x2x2_S4x2048x2048x1x1_0_0_0_0_0) : (⟨S4x2048x2048x2x2, .f32⟩ : BufTy).Contents (Elt F) → (⟨S4x2048x2048x1x1, .f32⟩ : BufTy).Contents (Elt F)),
    reshape main_v63 main_v64 rfl shapeCasts_S4x2048x2048x1x1_S4x2048x2048,
    unary main_v62 main_v65 ((extractStridedSlice S4x2048x2048x1x1 ![0, 0, 0, 0, 1] · slices_S4x2048x2048x2x2_S4x2048x2048x1x1_0_0_0_0_1) : (⟨S4x2048x2048x2x2, .f32⟩ : BufTy).Contents (Elt F) → (⟨S4x2048x2048x1x1, .f32⟩ : BufTy).Contents (Elt F)),
    reshape main_v65 main_v66 rfl shapeCasts_S4x2048x2048x1x1_S4x2048x2048,
    unary main_v62 main_v67 ((extractStridedSlice S4x2048x2048x1x1 ![0, 0, 0, 1, 0] · slices_S4x2048x2048x2x2_S4x2048x2048x1x1_0_0_0_1_0) : (⟨S4x2048x2048x2x2, .f32⟩ : BufTy).Contents (Elt F) → (⟨S4x2048x2048x1x1, .f32⟩ : BufTy).Contents (Elt F)),
    reshape main_v67 main_v68 rfl shapeCasts_S4x2048x2048x1x1_S4x2048x2048,
    unary main_v62 main_v69 ((extractStridedSlice S4x2048x2048x1x1 ![0, 0, 0, 1, 1] · slices_S4x2048x2048x2x2_S4x2048x2048x1x1_0_0_0_1_1) : (⟨S4x2048x2048x2x2, .f32⟩ : BufTy).Contents (Elt F) → (⟨S4x2048x2048x1x1, .f32⟩ : BufTy).Contents (Elt F)),
    reshape main_v69 main_v70 rfl shapeCasts_S4x2048x2048x1x1_S4x2048x2048,
    binary main_v64 main_v70 main_v71 (mulf : (⟨S4x2048x2048, .f32⟩ : BufTy).Contents (Elt F) → (⟨S4x2048x2048, .f32⟩ : BufTy).Contents (Elt F) → (⟨S4x2048x2048, .f32⟩ : BufTy).Contents (Elt F)),
    binary main_v66 main_v68 main_v72 (mulf : (⟨S4x2048x2048, .f32⟩ : BufTy).Contents (Elt F) → (⟨S4x2048x2048, .f32⟩ : BufTy).Contents (Elt F) → (⟨S4x2048x2048, .f32⟩ : BufTy).Contents (Elt F)),
    binary main_v71 main_v72 main_v73 (subf : (⟨S4x2048x2048, .f32⟩ : BufTy).Contents (Elt F) → (⟨S4x2048x2048, .f32⟩ : BufTy).Contents (Elt F) → (⟨S4x2048x2048, .f32⟩ : BufTy).Contents (Elt F)) ]

set_option maxHeartbeats 40000000 in
/-- Operations 82 to 111: the guarded reciprocal and the quadratic form `%92`. -/
def opsC : List (HloOp τ sig (Elt F)) :=
  [ nullary main_cst_5 (constant S_ .f32 0x00000000#32),
    unary main_cst_5 main_v74 (broadcastInDim S4x2048x2048 ![] bcast_S_S4x2048x2048 : (⟨S_, .f32⟩ : BufTy).Contents (Elt F) → (⟨S4x2048x2048, .f32⟩ : BufTy).Contents (Elt F)),
    binary main_v73 main_v74 main_v75 (cmpf .oeq : (⟨S4x2048x2048, .f32⟩ : BufTy).Contents (Elt F) → (⟨S4x2048x2048, .f32⟩ : BufTy).Contents (Elt F) → (⟨S4x2048x2048, .i1⟩ : BufTy).Contents (Elt F)),
    nullary main_cst_6 (constant S_ .f32 0x00000000#32),
    unary main_cst_6 main_v76 (broadcastInDim S4x2048x2048 ![] bcast_S_S4x2048x2048 : (⟨S_, .f32⟩ : BufTy).Contents (Elt F) → (⟨S4x2048x2048, .f32⟩ : BufTy).Contents (Elt F)),
    binary main_v73 main_v76 main_v77 (cmpf .oeq : (⟨S4x2048x2048, .f32⟩ : BufTy).Contents (Elt F) → (⟨S4x2048x2048, .f32⟩ : BufTy).Contents (Elt F) → (⟨S4x2048x2048, .i1⟩ : BufTy).Contents (Elt F)),
    nullary main_cst_7 (constant S_ .f32 0x3F800000#32),
    TRef.unary (TRef.of (T := ⟨S_, .f32⟩) main_cst_7) (TRef.of (T := ⟨S_, .f32⟩) main_call0_v0) id,
    TRef.unary (TRef.of (T := ⟨S_, .f32⟩) main_call0_v0) (TRef.of (T := ⟨S4x2048x2048, .f32⟩) main_call0_v1) (broadcastInDim S4x2048x2048 ![] bcast_S_S4x2048x2048),
    TRef.ternary (TRef.of (T := ⟨S4x2048x2048, .i1⟩) main_v77) (TRef.of (T := ⟨S4x2048x2048, .f32⟩) main_call0_v1) (TRef.of (T := ⟨S4x2048x2048, .f32⟩) main_v73) (TRef.of (T := ⟨S4x2048x2048, .f32⟩) main_v78) select,
    nullary main_cst_8 (constant S_ .f32 0x3F800000#32),
    unary main_cst_8 main_v79 (broadcastInDim S4x2048x2048 ![] bcast_S_S4x2048x2048 : (⟨S_, .f32⟩ : BufTy).Contents (Elt F) → (⟨S4x2048x2048, .f32⟩ : BufTy).Contents (Elt F)),
    binary main_v79 main_v78 main_v80 (Host.divf : (⟨S4x2048x2048, .f32⟩ : BufTy).Contents (Elt F) → (⟨S4x2048x2048, .f32⟩ : BufTy).Contents (Elt F) → (⟨S4x2048x2048, .f32⟩ : BufTy).Contents (Elt F)),
    nullary main_cst_9 (constant S_ .f32 0x00000000#32),
    TRef.unary (TRef.of (T := ⟨S_, .f32⟩) main_cst_9) (TRef.of (T := ⟨S_, .f32⟩) main_call1_v0) id,
    TRef.unary (TRef.of (T := ⟨S_, .f32⟩) main_call1_v0) (TRef.of (T := ⟨S4x2048x2048, .f32⟩) main_call1_v1) (broadcastInDim S4x2048x2048 ![] bcast_S_S4x2048x2048),
    TRef.ternary (TRef.of (T := ⟨S4x2048x2048, .i1⟩) main_v75) (TRef.of (T := ⟨S4x2048x2048, .f32⟩) main_call1_v1) (TRef.of (T := ⟨S4x2048x2048, .f32⟩) main_v80) (TRef.of (T := ⟨S4x2048x2048, .f32⟩) main_v81) select,
    unary main_v70 main_v82 (broadcastInDim S4x2048x2048x1 ![0, 1, 2] bcast_S4x2048x2048_S4x2048x2048x1_0_1_2 : (⟨S4x2048x2048, .f32⟩ : BufTy).Contents (Elt F) → (⟨S4x2048x2048x1, .f32⟩ : BufTy).Contents (Elt F)),
    unary main_v64 main_v83 (broadcastInDim S4x2048x2048x1 ![0, 1, 2] bcast_S4x2048x2048_S4x2048x2048x1_0_1_2 : (⟨S4x2048x2048, .f32⟩ : BufTy).Contents (Elt F) → (⟨S4x2048x2048x1, .f32⟩ : BufTy).Contents (Elt F)),
    binary main_v82 main_v83 main_v84 ((fun a b => concatenate S4x2048x2048x2 3 [⟨S4x2048x2048x1, a⟩, ⟨S4x2048x2048x1, b⟩] concatenates_S4x2048x2048x1_S4x2048x2048x1_S4x2048x2048x2_d3) : (⟨S4x2048x2048x1, .f32⟩ : BufTy).Contents (Elt F) → (⟨S4x2048x2048x1, .f32⟩ : BufTy).Contents (Elt F) → (⟨S4x2048x2048x2, .f32⟩ : BufTy).Contents (Elt F)),
    unary main_v81 main_v85 (broadcastInDim S4x2048x2048x1 ![0, 1, 2] bcast_S4x2048x2048_S4x2048x2048x1_0_1_2 : (⟨S4x2048x2048, .f32⟩ : BufTy).Contents (Elt F) → (⟨S4x2048x2048x1, .f32⟩ : BufTy).Contents (Elt F)),
    unary main_v85 main_v86 (broadcastInDim S4x2048x2048x2 ![0, 1, 2, 3] bcast_S4x2048x2048x1_S4x2048x2048x2_0_1_2_3 : (⟨S4x2048x2048x1, .f32⟩ : BufTy).Contents (Elt F) → (⟨S4x2048x2048x2, .f32⟩ : BufTy).Contents (Elt F)),
    binary main_v84 main_v86 main_v87 (mulf : (⟨S4x2048x2048x2, .f32⟩ : BufTy).Contents (Elt F) → (⟨S4x2048x2048x2, .f32⟩ : BufTy).Contents (Elt F) → (⟨S4x2048x2048x2, .f32⟩ : BufTy).Contents (Elt F)),
    nullary main_cst_10 (constant S_ .f32 0x41000000#32),
    unary main_cst_10 main_v88 (broadcastInDim S4x2048x2048x2 ![] bcast_S_S4x2048x2048x2 : (⟨S_, .f32⟩ : BufTy).Contents (Elt F) → (⟨S4x2048x2048x2, .f32⟩ : BufTy).Contents (Elt F)),
    binary main_v55 main_v88 main_v89 (Host.divf : (⟨S4x2048x2048x2, .f32⟩ : BufTy).Contents (Elt F) → (⟨S4x2048x2048x2, .f32⟩ : BufTy).Contents (Elt F) → (⟨S4x2048x2048x2, .f32⟩ : BufTy).Contents (Elt F)),
    binary main_v89 main_v87 main_v90 (mulf : (⟨S4x2048x2048x2, .f32⟩ : BufTy).Contents (Elt F) → (⟨S4x2048x2048x2, .f32⟩ : BufTy).Contents (Elt F) → (⟨S4x2048x2048x2, .f32⟩ : BufTy).Contents (Elt F)),
    binary main_v90 main_v55 main_v91 (mulf : (⟨S4x2048x2048x2, .f32⟩ : BufTy).Contents (Elt F) → (⟨S4x2048x2048x2, .f32⟩ : BufTy).Contents (Elt F) → (⟨S4x2048x2048x2, .f32⟩ : BufTy).Contents (Elt F)),
    nullary main_cst_11 (constant S_ .f32 0x00000000#32),
    binary main_v91 main_cst_11 main_v92 ((fun x v => Host.reduceAdd x v reducesTo_S4x2048x2048x2_S4x2048x2048_d3 h_S_) : (⟨S4x2048x2048x2, .f32⟩ : BufTy).Contents (Elt F) → (⟨S_, .f32⟩ : BufTy).Contents (Elt F) → (⟨S4x2048x2048, .f32⟩ : BufTy).Contents (Elt F)) ]

set_option maxHeartbeats 40000000 in
/-- Operations 112 to 146: the boxes' determinants, the logarithmic term and the score `%123`. -/
def opsD : List (HloOp τ sig (Elt F)) :=
  [ unary main_v49 main_v93 ((extractStridedSlice S4x2048x1x1 ![0, 0, 0, 0] · slices_S4x2048x2x2_S4x2048x1x1_0_0_0_0) : (⟨S4x2048x2x2, .f32⟩ : BufTy).Contents (Elt F) → (⟨S4x2048x1x1, .f32⟩ : BufTy).Contents (Elt F)),
    reshape main_v93 main_v94 rfl shapeCasts_S4x2048x1x1_S4x2048,
    unary main_v49 main_v95 ((extractStridedSlice S4x2048x1x1 ![0, 0, 1, 1] · slices_S4x2048x2x2_S4x2048x1x1_0_0_1_1) : (⟨S4x2048x2x2, .f32⟩ : BufTy).Contents (Elt F) → (⟨S4x2048x1x1, .f32⟩ : BufTy).Contents (Elt F)),
    reshape main_v95 main_v96 rfl shapeCasts_S4x2048x1x1_S4x2048,
    binary main_v94 main_v96 main_v97 (mulf : (⟨S4x2048, .f32⟩ : BufTy).Contents (Elt F) → (⟨S4x2048, .f32⟩ : BufTy).Contents (Elt F) → (⟨S4x2048, .f32⟩ : BufTy).Contents (Elt F)),
    unary main_v49 main_v98 ((extractStridedSlice S4x2048x1x1 ![0, 0, 0, 1] · slices_S4x2048x2x2_S4x2048x1x1_0_0_0_1) : (⟨S4x2048x2x2, .f32⟩ : BufTy).Contents (Elt F) → (⟨S4x2048x1x1, .f32⟩ : BufTy).Contents (Elt F)),
    reshape main_v98 main_v99 rfl shapeCasts_S4x2048x1x1_S4x2048,
    unary main_v49 main_v100 ((extractStridedSlice S4x2048x1x1 ![0, 0, 1, 0] · slices_S4x2048x2x2_S4x2048x1x1_0_0_1_0) : (⟨S4x2048x2x2, .f32⟩ : BufTy).Contents (Elt F) → (⟨S4x2048x1x1, .f32⟩ : BufTy).Contents (Elt F)),
    reshape main_v100 main_v101 rfl shapeCasts_S4x2048x1x1_S4x2048,
    binary main_v99 main_v101 main_v102 (mulf : (⟨S4x2048, .f32⟩ : BufTy).Contents (Elt F) → (⟨S4x2048, .f32⟩ : BufTy).Contents (Elt F) → (⟨S4x2048, .f32⟩ : BufTy).Contents (Elt F)),
    binary main_v97 main_v102 main_v103 (subf : (⟨S4x2048, .f32⟩ : BufTy).Contents (Elt F) → (⟨S4x2048, .f32⟩ : BufTy).Contents (Elt F) → (⟨S4x2048, .f32⟩ : BufTy).Contents (Elt F)),
    unary main_v103 main_v104 (broadcastInDim S4x2048x1 ![0, 1] bcast_S4x2048_S4x2048x1_0_1 : (⟨S4x2048, .f32⟩ : BufTy).Contents (Elt F) → (⟨S4x2048x1, .f32⟩ : BufTy).Contents (Elt F)),
    unary main_v103 main_v105 (broadcastInDim S4x1x2048 ![0, 2] bcast_S4x2048_S4x1x2048_0_2 : (⟨S4x2048, .f32⟩ : BufTy).Contents (Elt F) → (⟨S4x1x2048, .f32⟩ : BufTy).Contents (Elt F)),
    unary main_v104 main_v106 (broadcastInDim S4x2048x2048 ![0, 1, 2] bcast_S4x2048x1_S4x2048x2048_0_1_2 : (⟨S4x2048x1, .f32⟩ : BufTy).Contents (Elt F) → (⟨S4x2048x2048, .f32⟩ : BufTy).Contents (Elt F)),
    unary main_v105 main_v107 (broadcastInDim S4x2048x2048 ![0, 1, 2] bcast_S4x1x2048_S4x2048x2048_0_1_2 : (⟨S4x1x2048, .f32⟩ : BufTy).Contents (Elt F) → (⟨S4x2048x2048, .f32⟩ : BufTy).Contents (Elt F)),
    binary main_v106 main_v107 main_v108 (mulf : (⟨S4x2048x2048, .f32⟩ : BufTy).Contents (Elt F) → (⟨S4x2048x2048, .f32⟩ : BufTy).Contents (Elt F) → (⟨S4x2048x2048, .f32⟩ : BufTy).Contents (Elt F)),
    unary main_v108 main_v109 (Host.sqrt : (⟨S4x2048x2048, .f32⟩ : BufTy).Contents (Elt F) → (⟨S4x2048x2048, .f32⟩ : BufTy).Contents (Elt F)),
    binary main_v73 main_v109 main_v110 (Host.divf : (⟨S4x2048x2048, .f32⟩ : BufTy).Contents (Elt F) → (⟨S4x2048x2048, .f32⟩ : BufTy).Contents (Elt F) → (⟨S4x2048x2048, .f32⟩ : BufTy).Contents (Elt F)),
    unary main_v110 main_v111 (Host.log : (⟨S4x2048x2048, .f32⟩ : BufTy).Contents (Elt F) → (⟨S4x2048x2048, .f32⟩ : BufTy).Contents (Elt F)),
    nullary main_cst_12 (constant S_ .f32 0x3F000000#32),
    unary main_cst_12 main_v112 (broadcastInDim S4x2048x2048 ![] bcast_S_S4x2048x2048 : (⟨S_, .f32⟩ : BufTy).Contents (Elt F) → (⟨S4x2048x2048, .f32⟩ : BufTy).Contents (Elt F)),
    binary main_v112 main_v111 main_v113 (mulf : (⟨S4x2048x2048, .f32⟩ : BufTy).Contents (Elt F) → (⟨S4x2048x2048, .f32⟩ : BufTy).Contents (Elt F) → (⟨S4x2048x2048, .f32⟩ : BufTy).Contents (Elt F)),
    binary main_v92 main_v113 main_v114 (addf : (⟨S4x2048x2048, .f32⟩ : BufTy).Contents (Elt F) → (⟨S4x2048x2048, .f32⟩ : BufTy).Contents (Elt F) → (⟨S4x2048x2048, .f32⟩ : BufTy).Contents (Elt F)),
    unary main_v114 main_v115 (Host.negf : (⟨S4x2048x2048, .f32⟩ : BufTy).Contents (Elt F) → (⟨S4x2048x2048, .f32⟩ : BufTy).Contents (Elt F)),
    unary main_v115 main_v116 (Host.exp : (⟨S4x2048x2048, .f32⟩ : BufTy).Contents (Elt F) → (⟨S4x2048x2048, .f32⟩ : BufTy).Contents (Elt F)),
    nullary main_cst_13 (constant S_ .f32 0x3F800000#32),
    unary main_cst_13 main_v117 (broadcastInDim S4x2048x2048 ![] bcast_S_S4x2048x2048 : (⟨S_, .f32⟩ : BufTy).Contents (Elt F) → (⟨S4x2048x2048, .f32⟩ : BufTy).Contents (Elt F)),
    binary main_v117 main_v116 main_v118 (subf : (⟨S4x2048x2048, .f32⟩ : BufTy).Contents (Elt F) → (⟨S4x2048x2048, .f32⟩ : BufTy).Contents (Elt F) → (⟨S4x2048x2048, .f32⟩ : BufTy).Contents (Elt F)),
    nullary main_cst_14 (constant S_ .f32 0x2B8CBCCC#32),
    unary main_cst_14 main_v119 (broadcastInDim S4x2048x2048 ![] bcast_S_S4x2048x2048 : (⟨S_, .f32⟩ : BufTy).Contents (Elt F) → (⟨S4x2048x2048, .f32⟩ : BufTy).Contents (Elt F)),
    binary main_v118 main_v119 main_v120 (maximumf : (⟨S4x2048x2048, .f32⟩ : BufTy).Contents (Elt F) → (⟨S4x2048x2048, .f32⟩ : BufTy).Contents (Elt F) → (⟨S4x2048x2048, .f32⟩ : BufTy).Contents (Elt F)),
    unary main_v120 main_v121 (Host.sqrt : (⟨S4x2048x2048, .f32⟩ : BufTy).Contents (Elt F) → (⟨S4x2048x2048, .f32⟩ : BufTy).Contents (Elt F)),
    nullary main_cst_15 (constant S_ .f32 0x3F800000#32),
    unary main_cst_15 main_v122 (broadcastInDim S4x2048x2048 ![] bcast_S_S4x2048x2048 : (⟨S_, .f32⟩ : BufTy).Contents (Elt F) → (⟨S4x2048x2048, .f32⟩ : BufTy).Contents (Elt F)),
    binary main_v122 main_v121 main_v123 (subf : (⟨S4x2048x2048, .f32⟩ : BufTy).Contents (Elt F) → (⟨S4x2048x2048, .f32⟩ : BufTy).Contents (Elt F) → (⟨S4x2048x2048, .f32⟩ : BufTy).Contents (Elt F)) ]

set_option maxHeartbeats 40000000 in
/-- The line is the four parts in order. -/
theorem ops_split : (ValueP.ops : List (HloOp τ sig (Elt F))) = opsA ++ (opsB ++ (opsC ++ opsD)) := rfl

/-! ## Each part from arbitrary contents -/

set_option maxHeartbeats 40000000 in
/-- The first part leaves the matrices' stage function in `%49`. -/
theorem A_v49 (M : Valuation τ sig (Elt F)) :
    after opsA M (Proc.devRef .tc main_v49) = ReadP.val_main_v49 (F := F) (M (Proc.devRef .tc main_arg0)) (M (Proc.devRef .tc main_arg1)) := by
  simp (disch := decide) only [opsA, after_cons, after_nil, nullary_result', unary_result', binary_result', ternary_result', reshape_result',
    nullary_result_ne', unary_result_ne', binary_result_ne', ternary_result_ne', reshape_result_ne']
  rfl

set_option maxHeartbeats 40000000 in
/-- The first part leaves the centres' stage function in `%50`. -/
theorem A_v50 (M : Valuation τ sig (Elt F)) :
    after opsA M (Proc.devRef .tc main_v50) = ReadP.val_main_v50 (F := F) (M (Proc.devRef .tc main_arg0)) := by
  simp (disch := decide) only [opsA, after_cons, after_nil, nullary_result', unary_result', binary_result', ternary_result', reshape_result',
    nullary_result_ne', unary_result_ne', binary_result_ne', ternary_result_ne', reshape_result_ne']
  rfl

set_option maxHeartbeats 40000000 in
/-- The second part leaves the centre differences' stage function in `%55`. -/
theorem B_v55 (W : Valuation τ sig (Elt F)) (x0 : (⟨S4x2048x4x2, .f32⟩ : BufTy).Contents (Elt F))
    (h_v50 : W (Proc.devRef .tc main_v50) = ReadP.val_main_v50 (F := F) x0) :
    after opsB W (Proc.devRef .tc main_v55) = ReadP.val_main_v55 (F := F) x0 := by
  simp (disch := decide) only [opsB, after_cons, after_nil, nullary_result', unary_result', binary_result', ternary_result', reshape_result',
    nullary_result_ne', unary_result_ne', binary_result_ne', ternary_result_ne', reshape_result_ne']
  rw [h_v50]
  rfl

set_option maxHeartbeats 40000000 in
/-- The second part leaves entry (0,0) of the averaged matrix in `%64`. -/
theorem B_v64 (W : Valuation τ sig (Elt F)) (x0 : (⟨S4x2048x4x2, .f32⟩ : BufTy).Contents (Elt F)) (x1 : (⟨S4x2048, .f32⟩ : BufTy).Contents (Elt F))
    (h_v49 : W (Proc.devRef .tc main_v49) = ReadP.val_main_v49 (F := F) x0 x1) :
    after opsB W (Proc.devRef .tc main_v64) = ReadP.val_main_v64 (F := F) x0 x1 := by
  simp (disch := decide) only [opsB, after_cons, after_nil, nullary_result', unary_result', binary_result', ternary_result', reshape_result',
    nullary_result_ne', unary_result_ne', binary_result_ne', ternary_result_ne', reshape_result_ne']
  rw [h_v49]
  rfl

set_option maxHeartbeats 40000000 in
/-- The second part leaves entry (1,1) of the averaged matrix in `%70`. -/
theorem B_v70 (W : Valuation τ sig (Elt F)) (x0 : (⟨S4x2048x4x2, .f32⟩ : BufTy).Contents (Elt F)) (x1 : (⟨S4x2048, .f32⟩ : BufTy).Contents (Elt F))
    (h_v49 : W (Proc.devRef .tc main_v49) = ReadP.val_main_v49 (F := F) x0 x1) :
    after opsB W (Proc.devRef .tc main_v70) = ReadP.val_main_v70 (F := F) x0 x1 := by
  simp (disch := decide) only [opsB, after_cons, after_nil, nullary_result', unary_result', binary_result', ternary_result', reshape_result',
    nullary_result_ne', unary_result_ne', binary_result_ne', ternary_result_ne', reshape_result_ne']
  rw [h_v49]
  rfl

set_option maxHeartbeats 40000000 in
/-- The second part leaves the averaged matrix's determinant in `%73`. -/
theorem B_v73 (W : Valuation τ sig (Elt F)) (x0 : (⟨S4x2048x4x2, .f32⟩ : BufTy).Contents (Elt F)) (x1 : (⟨S4x2048, .f32⟩ : BufTy).Contents (Elt F))
    (h_v49 : W (Proc.devRef .tc main_v49) = ReadP.val_main_v49 (F := F) x0 x1) :
    after opsB W (Proc.devRef .tc main_v73) = ReadP.val_main_v73 (F := F) x0 x1 := by
  simp (disch := decide) only [opsB, after_cons, after_nil, nullary_result', unary_result', binary_result', ternary_result', reshape_result',
    nullary_result_ne', unary_result_ne', binary_result_ne', ternary_result_ne', reshape_result_ne']
  rw [h_v49]
  rfl

set_option maxHeartbeats 40000000 in
/-- The second part does not write `%49`. -/
theorem B_keep49 (W : Valuation τ sig (Elt F)) : after opsB W (Proc.devRef .tc main_v49) = W (Proc.devRef .tc main_v49) := by
  simp (disch := decide) only [opsB, after_cons, after_nil, nullary_result', unary_result', binary_result', ternary_result', reshape_result',
    nullary_result_ne', unary_result_ne', binary_result_ne', ternary_result_ne', reshape_result_ne']

set_option maxHeartbeats 40000000 in
/-- The third part leaves the quadratic form in `%92`. -/
theorem C_v92 (W : Valuation τ sig (Elt F)) (x0 : (⟨S4x2048x4x2, .f32⟩ : BufTy).Contents (Elt F)) (x1 : (⟨S4x2048, .f32⟩ : BufTy).Contents (Elt F))
    (h_v55 : W (Proc.devRef .tc main_v55) = ReadP.val_main_v55 (F := F) x0)
    (h_v64 : W (Proc.devRef .tc main_v64) = ReadP.val_main_v64 (F := F) x0 x1)
    (h_v70 : W (Proc.devRef .tc main_v70) = ReadP.val_main_v70 (F := F) x0 x1)
    (h_v73 : W (Proc.devRef .tc main_v73) = ReadP.val_main_v73 (F := F) x0 x1) :
    after opsC W (Proc.devRef .tc main_v92) = ReadP.val_main_v92 (F := F) x0 x1 := by
  simp (disch := decide) only [opsC, after_cons, after_nil, nullary_result', unary_result', binary_result', ternary_result', reshape_result',
    nullary_result_ne', unary_result_ne', binary_result_ne', ternary_result_ne', reshape_result_ne']
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [h_v55, h_v64, h_v70, h_v73]
  rfl

set_option maxHeartbeats 40000000 in
/-- The third part does not write `%73`. -/
theorem C_keep73 (W : Valuation τ sig (Elt F)) : after opsC W (Proc.devRef .tc main_v73) = W (Proc.devRef .tc main_v73) := by
  simp (disch := decide) only [opsC, after_cons, after_nil, nullary_result', unary_result', binary_result', ternary_result', reshape_result',
    nullary_result_ne', unary_result_ne', binary_result_ne', ternary_result_ne', reshape_result_ne']

set_option maxHeartbeats 40000000 in
/-- The third part does not write `%49`. -/
theorem C_keep49 (W : Valuation τ sig (Elt F)) : after opsC W (Proc.devRef .tc main_v49) = W (Proc.devRef .tc main_v49) := by
  simp (disch := decide) only [opsC, after_cons, after_nil, nullary_result', unary_result', binary_result', ternary_result', reshape_result',
    nullary_result_ne', unary_result_ne', binary_result_ne', ternary_result_ne', reshape_result_ne']

set_option maxHeartbeats 40000000 in
/-- The last part leaves the score in `%123`. -/
theorem D_v123 (W : Valuation τ sig (Elt F)) (x0 : (⟨S4x2048x4x2, .f32⟩ : BufTy).Contents (Elt F)) (x1 : (⟨S4x2048, .f32⟩ : BufTy).Contents (Elt F))
    (h_v49 : W (Proc.devRef .tc main_v49) = ReadP.val_main_v49 (F := F) x0 x1)
    (h_v73 : W (Proc.devRef .tc main_v73) = ReadP.val_main_v73 (F := F) x0 x1)
    (h_v92 : W (Proc.devRef .tc main_v92) = ReadP.val_main_v92 (F := F) x0 x1) :
    after opsD W (Proc.devRef .tc main_v123) = ReadP.val_main_v123 (F := F) x0 x1 := by
  simp (disch := decide) only [opsD, after_cons, after_nil, nullary_result', unary_result', binary_result', ternary_result', reshape_result',
    nullary_result_ne', unary_result_ne', binary_result_ne', ternary_result_ne', reshape_result_ne']
  rw [h_v49, h_v73, h_v92]
  rfl

/-! ## The whole line -/

/-- After the 146 operations, from any contents `M`, the last buffer holds the stage function `val_main_v123` of
    `M`'s two argument arrays. -/
theorem ops_v123 (M : Valuation τ sig (Elt F)) :
    after ValueP.ops M (Proc.devRef .tc main_v123)
      = ReadP.val_main_v123 (F := F) (M (Proc.devRef .tc main_arg0)) (M (Proc.devRef .tc main_arg1)) := by
  rw [ops_split, after_append, after_append, after_append]
  have a49 := A_v49 (F := F) M
  have a50 := A_v50 (F := F) M
  have b49 := (B_keep49 (F := F) (after opsA M)).trans a49
  have b55 := B_v55 (after opsA M) _ a50
  have b64 := B_v64 (after opsA M) _ _ a49
  have b70 := B_v70 (after opsA M) _ _ a49
  have b73 := B_v73 (after opsA M) _ _ a49
  have c49 := (C_keep49 (F := F) (after opsB (after opsA M))).trans b49
  have c73 := (C_keep73 (F := F) (after opsB (after opsA M))).trans b73
  have c92 := C_v92 (after opsB (after opsA M)) _ _ b55 b64 b70 b73
  exact D_v123 (after opsC (after opsB (after opsA M))) _ _ c49 c73 c92

set_option maxHeartbeats 40000000 in
/-- No operation writes the first argument. -/
theorem ops_arg0 (M : Valuation τ sig (Elt F)) :
    after ValueP.ops M (Proc.devRef .tc main_arg0) = M (Proc.devRef .tc main_arg0) := by
  after_results_simp

set_option maxHeartbeats 40000000 in
/-- No operation writes the second argument. -/
theorem ops_arg1 (M : Valuation τ sig (Elt F)) :
    after ValueP.ops M (Proc.devRef .tc main_arg1) = M (Proc.devRef .tc main_arg1) := by
  after_results_simp

/-! ## The run -/

/-- On any mesh, from any memory with zero counters: every weakly fair execution of @main terminates, and every final
    state has, on every device, the last buffer at the stage function `val_main_v123` of the two launch arguments and
    the two arguments as launched. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v123)
          = ReadP.val_main_v123 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v123).trans (ops_v123 _),
      (h c main_arg0).trans (ops_arg0 _),
      (h c main_arg1).trans (ops_arg1 _)⟩)
    (run_seq ValueP.scopedRefs_eq ValueP.scopedSems_eq defs main (fun _ => ValueP.ops) ValueP.main_eq
      (fun _ => ValueP.ops_sub) m ρ)

end Cert.ReferenceIdeal.HandRun

end
-- ==== Proof.lean ====
/-
  All-pairs Gaussian overlap of rotated boxes: the kernel against its reference, over the extended reals.

  Both programs open with the same host operations: from the corners [4,2048,4,2] and the angles [4,2048] they compute
  each box's centre u (the corners' mean), its sizes along its own axes (the extent of the de-rotated corners) and its
  covariance Σ = R · diag(size/2) · Rᵀ. The reference then forms, for every pair (i, j) of boxes of a batch, the averaged
  covariance (Σᵢ + Σⱼ)/2, its determinant and guarded reciprocal, the quadratic form of the centre difference over 8, a
  logarithmic term, and 1 − sqrt(max(1 − exp(−B), ε)). The kernel instead stacks per box the channels
  (u_y, u_x, Σ₀₀, Σ₀₁, Σ₁₁, Σ₀₀Σ₁₁ − Σ₀₁², 0, 0) into a row-feature array and its transpose, and one region over an
  8 × 8 grid computes the same score from a 256-row block and a 256-column block per grid point.

  The proof: (1) each program runs to the end and leaves its arguments unchanged — for the two kernel programs the
  region's run at every grid point (inputs kept, the output block overwritten whole), for the reference the plain run of
  its operations; (2) the kernel's result array is the all-pairs array of its two feature arrays, block by block, the 64
  blocks tiling it; (3) the feature arrays are the stated channels of the reference's own centres and covariances;
  (4) Σ is symmetric, because the off-diagonal entries of diag(size/2) are products with 0, and on the extended reals
  x · 0 = 0 for every x; (5) per pair the two formulas agree: multiplying by 1/2 and 1/8 is dividing by 2 and 8 on every
  extended real, Σ₀₁² is Σ₀₁Σ₁₀, 0 + x = x and 0 − x = −x. No step needs the inputs to be finite.
-/
import proofs.«160324_j35416300323280_1_alg».proof.Defs
import proofs.«160324_j35416300323280_1_alg».proof.Proof.Gen.Kernel
import proofs.«160324_j35416300323280_1_alg».proof.Proof.Gen.KernelIdeal
import proofs.«160324_j35416300323280_1_alg».proof.Proof.Gen.ReferenceIdeal
import proofs.«160324_j35416300323280_1_alg».proof.Proof.Gen.Pre_finite_inputs
import proofs.«160324_j35416300323280_1_alg».proof.Proof.FrameK
import proofs.«160324_j35416300323280_1_alg».proof.Proof.PairsArray
import proofs.«160324_j35416300323280_1_alg».proof.Proof.HostFeat
import proofs.«160324_j35416300323280_1_alg».proof.Proof.Joint
import proofs.«160324_j35416300323280_1_alg».proof.Proof.RefRun
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Hand.frame m ρ

/-- The idealized kernel program runs and keeps its arguments. -/
theorem frame_ki : Cert.frame_KernelIdeal := fun m ρ _ => Cert.KernelIdeal.Hand.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.HandRun.ref_run (F := Ideal) m ρ)

/-- The idealization rewrote nothing. -/
theorem preserves : Cert.preserves_Kernel_KernelIdeal := trivial

/-- From memories agreeing on the arguments both idealized programs end with the reference's last stage of the
    arguments: the kernel's result is the all-pairs array of the features of the reference's centres and covariances,
    which is that stage pair by pair. -/
theorem algebraic : Cert.algebraic_KernelIdeal_ReferenceIdeal := by
  intro m ρ m' ρ' _ hagree
  refine ⟨fun c => Cert.ReferenceIdeal.ReadP.val_main_v123 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩)
      (Cert.KernelIdeal.HandValue.run_pairs m ρ)
    rw [Cert.KernelIdeal.HandHost.V_v73, Cert.KernelIdeal.HandHost.V_v74]
    exact Cert.IoU.Joint.joint _ _
  · refine (θ_run Cert.ReferenceIdeal.defs _ _).mono (fun r h c => ⟨(h c).1.trans ?_, (h c).2⟩)
      (Cert.ReferenceIdeal.HandRun.ref_run (F := Ideal) m' ρ')
    rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
